-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v1_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  main_v3
-- ==== Kernel.lean ====
abbrev S4096x128 : Shape := ⟨2, ![4096, 128]⟩
abbrev S4096 : Shape := ⟨1, ![4096]⟩
abbrev S4096x1 : Shape := ⟨2, ![4096, 1]⟩
abbrev S4096x4096 : Shape := ⟨2, ![4096, 4096]⟩
abbrev S131072x128 : Shape := ⟨2, ![131072, 128]⟩
abbrev S256x128 : Shape := ⟨2, ![256, 128]⟩
abbrev S256x4096 : Shape := ⟨2, ![256, 4096]⟩
abbrev S8192x128 : Shape := ⟨2, ![8192, 128]⟩
abbrev S128x4096 : Shape := ⟨2, ![128, 4096]⟩
abbrev S2x16777216 : Shape := ⟨2, ![2, 16777216]⟩
abbrev S16384 : Shape := ⟨1, ![16384]⟩
abbrev S16 : Shape := ⟨1, ![16]⟩
abbrev S_ : Shape := ⟨0, ![]⟩
abbrev S1x16384 : Shape := ⟨2, ![1, 16384]⟩
abbrev S16777216 : Shape := ⟨1, ![16777216]⟩

abbrev nBuf : Table → Nat
  | .hbm => 6
  | .local .tc .vmem => 9
  | .local .scVector .vmem => 2
  | _ => 0

abbrev bufTy : (tb : Table) → Fin (nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S131072x128, .f32⟩
  | .hbm, ⟨4, _⟩ => ⟨S2x16777216, .i32⟩
  | .hbm, ⟨5, _⟩ => ⟨S16777216, .f32⟩
  | .local .tc .vmem, ⟨0, _⟩ => ⟨S4096x128, .f32⟩
  | .local .tc .vmem, ⟨1, _⟩ => ⟨S4096x128, .f32⟩
  | .local .tc .vmem, ⟨2, _⟩ => ⟨S256x128, .f32⟩
  | .local .tc .vmem, ⟨3, _⟩ => ⟨S256x128, .f32⟩
  | .local .tc .vmem, ⟨4, _⟩ => ⟨S4096x128, .f32⟩
  | .local .tc .vmem, ⟨5, _⟩ => ⟨S256x4096, .f32⟩
  | .local .tc .vmem, ⟨6, _⟩ => ⟨S256x4096, .f32⟩
  | .local .tc .vmem, ⟨7, _⟩ => ⟨S8192x128, .f32⟩
  | .local .tc .vmem, ⟨8, _⟩ => ⟨S8192x128, .f32⟩
  | .local .scVector .vmem, ⟨0, _⟩ => ⟨S16384, .i32⟩
  | .local .scVector .vmem, ⟨1, _⟩ => ⟨S16384, .i32⟩
  | _, _ => ⟨S4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v2_scv : Ref sig .scVector := ⟨.hbm, 4, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 16], ![false, false]⟩

@[reducible] def k2_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
@[reducible] def k2_t2_loop : Scf.Loop 32 :=
  let c0_i32_3 : BitVec 32 := 0#32
  let c1024_i32 : BitVec 32 := 1024#32
  let v6 : BitVec 32 := Scalar.addi c0_i32_3 c1024_i32
  let c1_i32_4 : BitVec 32 := 1#32
  ⟨c0_i32_3, v6, c1_i32_4⟩
def k2_off1 (k2_t2 : Fin k2_t2_loop.trips) : Fin 1 → Nat :=
  let c0_i32_3 : BitVec 32 := 0#32
  let c1_i32_4 : BitVec 32 := 1#32
  let arg6 : BitVec 32 := Scf.iv c0_i32_3 c1_i32_4 k2_t2
  let c16_i32_8 : BitVec 32 := 16#32
  let v14 : BitVec 32 := Scalar.muli arg6 c16_i32_8
  let v15 : Index := Scalar.indexCast v14
  ![v15.toNat]
def k2_off2 (i : grid2.Coords) (k2_t1 : Fin k2_t1_loop.trips) : Fin 2 → Nat :=
  let c0_i32_6 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_0 : BitVec 32 := 0#32
  let c1_i32 : BitVec 32 := 1#32
  let arg5 : BitVec 32 := Scf.iv c0_i32_0 c1_i32 k2_t1
  let c16384_i32 : BitVec 32 := 16384#32
  let v4 : BitVec 32 := Scalar.muli arg5 c16384_i32
  let v5 : BitVec 32 := Scalar.addi v2 v4
  ![0, v5.toNat]
def k2_off3 (i : grid2.Coords) (k2_t1 : Fin k2_t1_loop.trips) : Fin 2 → Nat :=
  let c1_i32_7 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_0 : BitVec 32 := 0#32
  let c1_i32 : BitVec 32 := 1#32
  let arg5 : BitVec 32 := Scf.iv c0_i32_0 c1_i32 k2_t1
  let c16384_i32 : BitVec 32 := 16384#32
  let v4 : BitVec 32 := Scalar.muli arg5 c16384_i32
  let v5 : BitVec 32 := Scalar.addi v2 v4
  ![1, v5.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  broadcasts_S4096x1_S4096x128 : S4096x1.Broadcasts S4096x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S4096x128_S4096x128 : S4096x128.ShapeCasts S4096x128
  transposes_S4096x128_p1_0_S128x4096 : S4096x128.Transposes [1, 0] S128x4096
  iota_S256x4096_d0_w32 : S256x4096.Iotas .tc 32 [0]
  iota_S256x4096_d1_w32 : S256x4096.Iotas .tc 32 [1]
  inb_S256x4096_S256x4096_0_0 : ∀ a, (![0, 0] : Fin 2 → Nat) a + S256x4096.size a ≤ S256x4096.size a
  h_S256x4096 : 0 < S256x4096.numel
  shapeCasts_S256x4096_S8192x128 : S256x4096.ShapeCasts S8192x128
  inb_S8192x128_S8192x128_0_0 : ∀ a, (![0, 0] : Fin 2 → Nat) a + S8192x128.size a ≤ S8192x128.size a
  h_S8192x128 : 0 < S8192x128.numel
  iota_S16_d0_w32_scVector : S16.Iotas .scVector 32 [0]
  h_S16 : 0 < S16.numel
  shapeCasts_S16_S16 : S16.ShapeCasts S16
  squeezes_S1x16384_S16384 : S1x16384.Squeezes S16384
  shapeCasts_S131072x128_S16777216 : S131072x128.ShapeCasts S16777216
  dot_S256x128_S128x4096_S256x4096_1_0_0_1_n_n_wf : DotDims.WF S256x128 S128x4096 S256x4096 [1] [0] [0] [1] [] []
  hcc2_scoped0 : 9 + S_.numel ≤ 11
  hcc2_scoped1 : 10 + S_.numel ≤ 11
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S4096x128.size a
  hwx1_0 : ∀ i : grid1.Coords, EltTy.bits .f32 = 32 ∨ (Rect.block (s := S4096x128) S256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .f32 = 32 ∨ (Rect.block (s := S4096x4096) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S131072x128.size a
  hwx1_3 : ∀ i : grid1.Coords, EltTy.bits .f32 = 32 ∨ (Rect.block (s := S131072x128) S8192x128.size (cc1_transform_3 i) (hinb1_3 i)).WholeWords (EltTy.packing .f32)
  hcore2 : grid2.bound 0 ≤ τ.nSC
  hsub2 : grid2.bound 1 ≤ τ.nSub
  k2_t1_ok : k2_t1_loop.OK
  k2_t2_ok : k2_t2_loop.OK
  k2_off1_inb : ∀ k2_t2 : Fin k2_t2_loop.trips, ∀ a, (k2_off1 k2_t2) a + S16.size a ≤ S16384.size a
  k2_off2_inb : ∀ (i : grid2.Coords) (k2_t1 : Fin k2_t1_loop.trips), ∀ a, (k2_off2 i k2_t1) a + S1x16384.size a ≤ S2x16777216.size a
  k2_off3_inb : ∀ (i : grid2.Coords) (k2_t1 : Fin k2_t1_loop.trips), ∀ a, (k2_off3 i k2_t1) a + S1x16384.size a ≤ S2x16777216.size a

variable [Facts₀]

abbrev cc2_scoped0 : DmaSems sig S_ := SemArray.consecutive 9 S_ hcc2_scoped0
abbrev cc2_scoped1 : DmaSems sig S_ := SemArray.consecutive 10 S_ hcc2_scoped1
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S256x4096.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S128x4096 : Shape := ⟨2, ![128, 4096]⟩
abbrev S4096x4096 : Shape := ⟨2, ![4096, 4096]⟩
abbrev S4096x2 : Shape := ⟨2, ![4096, 2]⟩
abbrev S16777216 : Shape := ⟨1, ![16777216]⟩
abbrev S1x16777216 : Shape := ⟨2, ![1, 16777216]⟩
abbrev S2x16777216 : Shape := ⟨2, ![2, 16777216]⟩

abbrev nBuf : Space → Nat
  | .hbm => 46
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x128, .f32⟩
  | .hbm, ⟨10, _⟩ => ⟨S4096x128, .f32⟩
  | .hbm, ⟨11, _⟩ => ⟨S128x4096, .f32⟩
  | .hbm, ⟨12, _⟩ => ⟨S4096x4096, .f32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S4096x1, .i32⟩
  | .hbm, ⟨30, _⟩ => ⟨S4096x2, .i32⟩
  | .hbm, ⟨31, _⟩ => ⟨S_, .f32⟩
  | .hbm, ⟨32, _⟩ => ⟨S4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096, .i32⟩
  | .hbm, ⟨38, _⟩ => ⟨S4096x4096, .i32⟩
  | .hbm, ⟨39, _⟩ => ⟨S4096x4096, .i32⟩
  | .hbm, ⟨40, _⟩ => ⟨S16777216, .i32⟩
  | .hbm, ⟨41, _⟩ => ⟨S16777216, .i32⟩
  | .hbm, ⟨42, _⟩ => ⟨S1x16777216, .i32⟩
  | .hbm, ⟨43, _⟩ => ⟨S1x16777216, .i32⟩
  | .hbm, ⟨44, _⟩ => ⟨S2x16777216, .i32⟩
  | .hbm, ⟨45, _⟩ => ⟨S16777216, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  transposes_S4096x128_S128x4096_1_0 : S4096x128.Transposes [1, 0] S128x4096
  bcast_S_S4096 : S_.BroadcastsInDim S4096 (![] : Fin 0 → Fin S4096.rank)
  concatenates_S4096x1_S4096x1_S4096x2_d1 : Shape.Concatenates [S4096x1, S4096x1] S4096x2 1
  bcast_S_S4096x4096 : S_.BroadcastsInDim S4096x4096 (![] : Fin 0 → Fin S4096x4096.rank)
  bcast_S4096_S4096x4096_1 : S4096.BroadcastsInDim S4096x4096 (![1] : Fin 1 → Fin S4096x4096.rank)
  transposes_S4096x4096_S4096x4096_1_0 : S4096x4096.Transposes [1, 0] S4096x4096
  shapeCasts_S4096x4096_S16777216 : S4096x4096.ShapeCasts S16777216
  bcast_S16777216_S1x16777216_1 : S16777216.BroadcastsInDim S1x16777216 (![1] : Fin 1 → Fin S1x16777216.rank)
  concatenates_S1x16777216_S1x16777216_S2x16777216_d0 : Shape.Concatenates [S1x16777216, S1x16777216] S2x16777216 0
  dot_S4096x128_S128x4096_S4096x4096_1_0_0_1_n_n_wf : DotDims.WF S4096x128 S128x4096 S4096x4096 [1] [0] [0] [1] [] []
  scatter_S4096x4096_S4096x2_S4096_n_01_01_1_wf : ScatterDims.WF S4096x4096 S4096x2 S4096 [] [0, 1] [0, 1] 1

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf

class Facts : Prop extends Facts₀ where

variable [Facts]
-- ==== Proof.SpecIdx.lean ====
/-
  The index array's contents: at column `k` of 16777216, row 0 holds `k` shifted right by 12 places (the row of
  the 4096 x 4096 matrix that position `k` of its row-major flattening lies in) and row 1 the low 12 bits of `k`
  (its column), as 32-bit words.
-/
import Idealize.ShloMosaic.PureOps

namespace Cert.Proof.Math

open Idealize.ShloMosaic

def idxG : (⟨2, ![2, 16777216]⟩ : Shape).Idx → BitVec 32 :=
  fun j => if (j 0).val = 0 then (BitVec.ofNat 32 (j 1).val).sshiftRight 12 else (BitVec.ofNat 32 (j 1).val) &&& 4095#32

end Cert.Proof.Math
-- ==== Proof.KB.Common.lean ====
/-
  The vocabulary the kernel's run is stated in. The program is three calls on one device: two TensorCore
  pipelines (the row normalisation of the 4096 x 128 array; the 16 blocks of 256 rows of the clamped,
  diagonal-free Gram matrix, stored once as 256 x 4096 and once re-laid as 8192 x 128) and one SparseCore call
  whose 2 x 16 vector subcores each fill 524288 consecutive columns of the 2 x 16777216 index array, 16384
  columns at a time: row 0 the column number shifted right by 12, row 1 its low 12 bits.
  Here: the launch's configuration and body table, the ghost state (the handshakes' rounds, the pipelines' rounds and
  the transfers' counters side by side), the index array's chunks as the subcores slice them, and what the
  handshakes carry: a subcore is handed its 32 + 32 chunks at any contents and hands them back at `idxG`.
-/
import proofs.«215737_g33157147525312_cont_8to1_b_501_7_alg».proof.Kernel
import proofs.«215737_g33157147525312_cont_8to1_b_501_7_alg».proof.Proof.Gen.Kernel
import proofs.«215737_g33157147525312_cont_8to1_b_501_7_alg».proof.Proof.Gen.Kernel.Skeleton
import proofs.«215737_g33157147525312_cont_8to1_b_501_7_alg».proof.Proof.Gen.Kernel.Launch
import proofs.«215737_g33157147525312_cont_8to1_b_501_7_alg».proof.Proof.Gen.Kernel.Points
import proofs.«215737_g33157147525312_cont_8to1_b_501_7_alg».proof.Proof.SpecIdx
import Idealize.ShloMosaic.Lib.SparseCore.Launch
import Idealize.ShloMosaic.Lib.Pipeline.Kit
import Idealize.ShloMosaic.Lib.Pipeline.Frame
import Idealize.ShloMosaic.Lib.Pipeline.Regions
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

abbrev UH : Type := URounds (GSem nD τ sig) ℕ
abbrev UU : Type := UH × Pipeline.UD sig nD τ

local notation "𝕄" => MT nD τ sig (HIx 1) (Elt F) ℕ UU ℕ

/-- The handshakes' component, on the left. -/
abbrev EH : Emb UH (MT nD τ sig (HIx 1) (Elt F) ℕ UU ℕ) := embL
/-- The pipelines' component: the left of the right. -/
def EP : Emb (UR sig nD τ) (MT nD τ sig (HIx 1) (Elt F) ℕ UU ℕ) :=
  (Emb.inl : Emb (UR sig nD τ) (Pipeline.UD sig nD τ)).trans embR

instance EP_landsIn : (EP : Emb (UR sig nD τ) 𝕄).LandsIn (upEmb : UEmb _ 𝕄) := by unfold EP embR; infer_instance

/-! ## The index array and its chunks -/

/-- The index array as the device's location, and as a vector subcore addresses it. -/
abbrev oLoc (d : Dev nD) : Loc nD τ sig := (SparseCore.T d).loc main_v2
abbrev oV : Memref sig .scVector .hbm S2x16777216 .i32 := Memref.whole main_v2_scv

/-- The subcore at core `c`, position `s`, as a point of the call's grid. -/
def tileAt (c : Fin 2) (s : Fin 16) : grid2.Coords := fun | 0 => c | 1 => s | ⟨_ + 2, h⟩ => absurd h (Nat.not_lt.2 (Nat.le_add_left _ _))

/-- Chunk `k` of subcore `L` in row 0 and in row 1: 16384 consecutive columns from
    `1048576 * L 1 + 524288 * L 0 + 16384 * k`, sliced and squeezed as the subcore does. -/
abbrev rect0 (L : grid2.Coords) (k : Fin k2_t1_loop.trips) : Rect S2x16777216 := Rect.unit (s := S2x16777216) (k2_off2 L k) S1x16384.size (k2_off2_inb L k)
abbrev rect1 (L : grid2.Coords) (k : Fin k2_t1_loop.trips) : Rect S2x16777216 := Rect.unit (s := S2x16777216) (k2_off3 L k) S1x16384.size (k2_off3_inb L k)
abbrev chunk0 (L : grid2.Coords) (k : Fin k2_t1_loop.trips) : Memref sig .scVector .hbm S16384 .i32 :=
  ((oV : Memref sig .scVector .hbm S2x16777216 .i32).slice (rect0 L k) (fun _ => rfl)).squeeze S16384 squeezes_S1x16384_S16384
abbrev chunk1 (L : grid2.Coords) (k : Fin k2_t1_loop.trips) : Memref sig .scVector .hbm S16384 .i32 :=
  ((oV : Memref sig .scVector .hbm S2x16777216 .i32).slice (rect1 L k) (fun _ => rfl)).squeeze S16384 squeezes_S1x16384_S16384

/-- The index array's final contents (the specification's), at the buffer's type. -/
abbrev idxBuf (d : Dev nD) : Buf (Elt F) (oLoc d) := Cert.Proof.Math.idxG

variable [FloatOps F]

/-- What a subcore is handed: its chunks, each at some contents; -/
def tileGo (d : Dev nD) (L : grid2.Coords) : sProp 𝕄 :=
  bigSep Finset.univ fun k : Fin k2_t1_loop.trips =>
    iprop((∃ f, oLoc d ↦[(chunk0 L k).view.set]{fullShare} f) ∗ (∃ f, oLoc d ↦[(chunk1 L k).view.set]{fullShare} f))
/-- and what it hands back: the same chunks at the specification. -/
def tileTd (d : Dev nD) (L : grid2.Coords) : sProp 𝕄 :=
  bigSep Finset.univ fun k : Fin k2_t1_loop.trips =>
    iprop((oLoc d ↦[(chunk0 L k).view.set]{fullShare} idxBuf (F := F) d) ∗ (oLoc d ↦[(chunk1 L k).view.set]{fullShare} idxBuf (F := F) d))

/-- The one SparseCore call: a core is handed its sixteen subcores' chunks, a subcore its own. -/
def P : (K (F := F)).Pay (nD := nD) (Val := Elt F) (Name := ℕ) (U := UU) where
  st := fun q d c => match q with | 0 => bigSep Finset.univ fun s : Fin 16 => tileGo d (tileAt (Fin.cast nCore_zero c) s)
  dn := fun q d c => match q with | 0 => bigSep Finset.univ fun s : Fin 16 => tileTd d (tileAt (Fin.cast nCore_zero c) s)
  go := fun q d c i => match q with | 0 => tileGo d (tileAt (Fin.cast nCore_zero c) (Fin.cast nSub_zero i))
  td := fun q d c i => match q with | 0 => tileTd d (tileAt (Fin.cast nCore_zero c) (Fin.cast nSub_zero i))
  x := fun _ _ => iprop(emp)

instance P_storable : (P (F := F)).IsStorable where
  st q d c := match q with | 0 => by unfold P tileGo; infer_instance
  dn q d c := match q with | 0 => by unfold P tileTd; infer_instance
  go q d c i := match q with | 0 => by unfold P tileGo; infer_instance
  td q d c i := match q with | 0 => by unfold P tileTd; infer_instance

end Cert.Proof.KB

end
-- ==== Proof.KB.Region.lean ====
/-
  A TensorCore pipeline's region inside the SparseCore program. @main's call of pipeline `p` is the pipeline
  library's call lifted to the extended body table, so the library's region rule applies to it unchanged: from the
  region boundary, the state the region is entered from, the level facts and the pipeline's cells and duty tokens, the
  call runs to the boundary and the state the region leaves.
-/
import proofs.«215737_g33157147525312_cont_8to1_b_501_7_alg».proof.Proof.KB.Common
import Idealize.ShloMosaic.Lib.Pipeline.Regions

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- No pipeline has a prefetched table. -/
abbrev adm : (p : Fin 2) → (pcfgs (F := F) p).Adm := fun p => (cfgs p).toPCfg_adm

variable (pdats : (p : Fin 2) → (c : Dev nD) → Pipeline.Dat τ (Elt F) (HIx 1) ℕ UU ℕ (Pipeline.pin (pcfgs (F := F)) adm p) c)

set_option backward.isDefEq.respectTransparency.types false in
/-- The region rule at @main's call of pipeline `p`, under the extended body table. -/
theorem wp_region [∀ e, Nonempty (Elt F e)] {p : Fin 2}
    (phinj : Function.Injective (Pipeline.cellOf (nD := nD) (τ := τ) (Pipeline.pin (pcfgs (F := F)) adm)))
    (R : Pipeline.RegionSeg (pcfgs (F := F)) adm pdats (none : HIx 1) defs₀ 𝒱₀ (K (F := F)).L (K (F := F)).lev p) (d : Dev nD)
    (Φ : PUnit → sProp 𝕄) :
    iprop((iprop(boundary (T d) ∗ R.post d) -∗ Φ ⟨⟩)
        ∗ boundary (T d) ∗ R.pre d ∗ levAts (K (F := F)).L (K (F := F)).lev
        ∗ Pipeline.cellsGhost (Ix := HIx 1) (Val := Elt F) (Name := ℕ) (U := UU) (Lvl := ℕ) (Pipeline.pin (pcfgs (F := F)) adm) (EP (F := F)) p d
        ∗ Pipeline.toksInit (Ix := HIx 1) (Val := Elt F) (Name := ℕ) (U := UU) (Lvl := ℕ) (Pipeline.pin (pcfgs (F := F)) adm) (EP (F := F)) p d)
      ⊢ wp frame (wpE ((K (F := F)).defs (D (F := F))) 𝒱 (SparseCore.T d) none) Set.univ
          (Prog.lift (.customCall (SparseCore.inner (Pipeline.entry p)) ())) Φ := by
  have hwp := R.wp (pcfgs (F := F)) adm pdats (none : HIx 1) phinj (EP (F := F)) defs₀ 𝒱₀ (K (F := F)).L (K (F := F)).lev d none
    (fun _ h => nomatch h) (fun u => .ret u) Φ
  have hlift := (K (F := F)).wp_liftProg (D (F := F)) 𝒱 (SparseCore.T d) Set.univ none
    (Prog.op (.customCall (Pipeline.entry p) ()) fun u => .ret u) Φ
  refine BIBase.Entails.trans ?_ hlift
  refine BIBase.Entails.trans ?_ hwp
  iintro ⟨Hk, Hb, Hpre, Hlev, Hg, Ht⟩
  isplitl [Hk]
  · iintro H
    rw [wp_ret]; imodintro
    iapply Hk; iexact H
  isplitl [Hb]; · iexact Hb
  isplitl [Hpre]; · iexact Hpre
  isplitl [Hlev]; · iexact Hlev
  isplitl [Hg] <;> iassumption

end Cert.Proof.KB

end
-- ==== Proof.KB.Inv.lean ====
/-
  What a region's kernel body may use of its TensorCore and need not describe: the core's scoped buffers that
  no window of the region stages, each whole at some contents, and the core's generator register at some state.
  Neither kernel body of this program touches either, so this is carried across every point unchanged.
-/
import proofs.«215737_g33157147525312_cont_8to1_b_501_7_alg».proof.Proof.KB.Common

noncomputable section

namespace Cert.Proof.KB

open Cert.Kernel Cert.Kernel.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.Sem

variable {F : FTy → Type}

local notation "𝕄" => MT nD τ sig (HIx 1) (Elt F) ℕ UU ℕ

/-- The region invariant on core `c` for the windows `win`: the scoped buffers outside the windows' staging
    buffers, and the generator register. -/
def Φreg {gr W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

end Cert.Proof.KB

end
-- ==== Proof.KB.Reg0.lean ====
/-
  Region 0: the row normalisation, as one pipeline point. The call has no grid, so its single point stages the
  whole 4096 x 128 input array, the body divides every row by the larger of its Euclidean norm and 1e-8, and the
  whole result is written back. Stated at the contents `V` the TensorCore's buffers hold when the region is
  entered, for any float instance: the block each window stages, what the body leaves in the output window's
  buffer, the body's triple, the pipeline's proof data with the body obligation, and the two arrays after the
  region in closed form (the input as found, the output the normalisation of the input array).
-/
import proofs.«215737_g33157147525312_cont_8to1_b_501_7_alg».proof.Proof.KB.Inv
import Idealize.ShloMosaic.Lib.Pipeline.FrameBody
import Idealize.ShloMosaic.Lib.Pipeline.Value
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The windows' blocks -/

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block when the body runs, for any proof data over the entry
    contents whose body leaves that block where it found it. -/
theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The one rectangle the body loads and stores through: the whole 4096 x 128 buffer. -/
abbrev r0_0 : Rect S4096x128 := Rect.unit (s := S4096x128) ![0, 0] S4096x128.size inb_S4096x128_S4096x128_0_0

/-- The output buffer after the body: its single store, of the normalisation of what was loaded from the input
    buffer, laid over the whole buffer. -/
def out0_1 (x0 : Vec F S4096x128 .f32) : Vec F S4096x128 .f32 :=
  View.canon [⟨r0_0, k0_pay1 (View.ld x0 r0_0)⟩]

/-- That store covers the buffer. -/
theorem cover0_1 (p0 : Vec F S4096x128 .f32) (y : S4096x128.Idx) :
    ∃ pc ∈ ([⟨r0_0, p0⟩] : List (View.Piece (Elt F) S4096x128 .f32)), y ∈ pc.1.set :=
  View.cover_of_tiled [⟨r0_0, p0⟩] S4096x128.size (by rfl) y

/-! ## The body's triple -/

set_option maxHeartbeats 1000000 in
/-- On whole memrefs, the input's at contents read as `x0` and the output's at anything, the body runs to the
    input's unchanged and the output's at `out0_1 x0`. (It loads the output buffer before storing into it; the
    loaded value is not used.) -/
theorem sound_kernel0 (c : Dev nD) (E : Set ℕ) (arg0 : Memref sig .tc .vmem S4096x128 .f32) (harg0 : arg0.IsWhole) (arg1 : Memref sig .tc .vmem S4096x128 .f32) (harg1 : arg1.IsWhole)
    (x0 : Vec F S4096x128 .f32) (Q : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ Q ⟨⟩))
      ⊢ wp frame (wpE (defs₀ (F := F)) Variants.none c none) E (cc0__norm_body arg0 harg0 arg1 harg1) Q := by
  simp only [cc0__norm_body_eq_skeleton]; unfold cc0__norm_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- Pipeline 0's proof data on core `c`: the arrays at the entry contents; after the body the input buffer at
    its block and the output buffer at `out0_1` of that block; the invariant `Φreg`; full shares; what the
    TensorCore owes the SparseCores' start signals, the same at every point; its recorded waits at index `none`. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => out0_1 (iblk0 V c 0 t)
  Φ _ := Φreg spec0 c
  q _ := fullShare
  owed _ := (K (F := F)).Otc c 0
  recorded _ := {p : SemLoc sig × HIx 1 | p.2 = none}

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt (none : HIx 1) t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt (none : HIx 1) t.succ
    ∗ owns (c : Thread nD τ) (st0_0 t) fullShare ((dat0 V c).after 0 t)
    ∗ owns (c : Thread nD τ) (st0_1 t) fullShare ((dat0 V c).after 1 t))

/-- The body at the point: the input's memref holds its block, so the triple applies; the invariant and what the
    core owes are the same before and after and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt (none : HIx 1) t.succ = (dat0 V c).owesAt (none : HIx 1) t.castSucc from rfl,
    after0_0, after0_1]
  iintro ⟨HΦ, Ho, ⟨%d0, H0⟩, ⟨%d1, H1⟩⟩
  iapply (sound_kernel0 c Set.univ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none (none : HIx 1) Set.univ := fun t => by
  rw [bigSep_W0, bigSep_W0]
  exact sound_body0 V c t

end Cert.Proof.KB

end
-- ==== Proof.KB.Reg1.lean ====
/-
  Region 1: the clamped, diagonal-free Gram matrix, sixteen pipeline points. Point `t` stages rows
  256 t .. 256 t + 255 of the normalised 4096 x 128 array (window 0) beside the whole array (window 1, staged
  once at the first point and kept); the body multiplies the row block by the transpose of the whole array,
  clamps below at zero, zeroes the entries whose global row equals their column, and stores the 256 x 4096
  result once as it is (window 2) and once re-laid row-major as 8192 x 128 (window 3); both are written back at
  every point. The two input windows read one array, so each holds half of its share. Stated at the contents
  `V` the TensorCore's buffers hold when the region is entered, for any float instance: the windows' blocks,
  what the body leaves in the two output buffers, the body's triple, the proof data and the body obligation.
-/
import proofs.«215737_g33157147525312_cont_8to1_b_501_7_alg».proof.Proof.KB.Inv
import Idealize.ShloMosaic.Lib.Pipeline.FrameBody
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The windows' blocks -/

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block when the body runs, for any proof data over the entry
    contents whose body leaves that block where it found it. -/
theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole-array window's staging buffer holds the array at every point, though it is staged at the first
    only: its block index never moves, so what the body left is still this point's block. -/
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output windows' buffers -/

/-- The rectangles the body loads and stores through: each buffer whole. -/
abbrev r1_0 : Rect S256x128 := Rect.unit (s := S256x128) ![0, 0] S256x128.size inb_S256x128_S256x128_0_0
abbrev r1_1 : Rect S4096x128 := Rect.unit (s := S4096x128) ![0, 0] S4096x128.size inb_S4096x128_S4096x128_0_0
abbrev r1_2 : Rect S256x4096 := Rect.unit (s := S256x4096) ![0, 0] S256x4096.size inb_S256x4096_S256x4096_0_0
abbrev r1_3 : Rect S8192x128 := Rect.unit (s := S8192x128) ![0, 0] S8192x128.size inb_S8192x128_S8192x128_0_0

/-- The 256 x 4096 buffer after the body at grid coordinates `i`: its single store, of the clamped diagonal-free
    product of the loaded row block and the loaded whole array, over the whole buffer. -/
def out1_2 (i : grid1.Coords) (x0 : Vec F S256x128 .f32) (x1 : Vec F S4096x128 .f32) : Vec F S256x4096 .f32 :=
  View.canon [⟨r1_2, k1_pay1 i (View.ld x0 r1_0) (View.ld x1 r1_1)⟩]

/-- The 8192 x 128 buffer after the body: the same values re-laid row-major, over the whole buffer. -/
def out1_3 (i : grid1.Coords) (x0 : Vec F S256x128 .f32) (x1 : Vec F S4096x128 .f32) : Vec F S8192x128 .f32 :=
  View.canon [⟨r1_3, k1_pay2 i (View.ld x0 r1_0) (View.ld x1 r1_1)⟩]

/-- Each store covers its buffer. -/
theorem cover1_2 (p0 : Vec F S256x4096 .f32) (y : S256x4096.Idx) :
    ∃ pc ∈ ([⟨r1_2, p0⟩] : List (View.Piece (Elt F) S256x4096 .f32)), y ∈ pc.1.set :=
  View.cover_of_tiled [⟨r1_2, p0⟩] S256x4096.size (by rfl) y

theorem cover1_3 (p0 : Vec F S8192x128 .f32) (y : S8192x128.Idx) :
    ∃ pc ∈ ([⟨r1_3, p0⟩] : List (View.Piece (Elt F) S8192x128 .f32)), y ∈ pc.1.set :=
  View.cover_of_tiled [⟨r1_3, p0⟩] S8192x128.size (by rfl) y

/-! ## The body's triple -/

set_option maxHeartbeats 1000000 in
/-- On whole memrefs, the inputs' at contents read as `x0`, `x1` and the outputs' at anything, the body at grid
    coordinates `i` runs to the inputs' unchanged and the outputs' at `out1_2`, `out1_3`. (It loads each output
    buffer before storing into it; the loaded values are not used.) -/
theorem sound_kernel1 (c : Dev nD) (E : Set ℕ) (i : grid1.Coords)
    (arg1 : Memref sig .tc .vmem S256x128 .f32) (harg1 : arg1.IsWhole) (arg2 : Memref sig .tc .vmem S4096x128 .f32) (harg2 : arg2.IsWhole)
    (arg3 : Memref sig .tc .vmem S256x4096 .f32) (harg3 : arg3.IsWhole) (arg4 : Memref sig .tc .vmem S8192x128 .f32) (harg4 : arg4.IsWhole)
    (x0 : Vec F S256x128 .f32) (x1 : Vec F S4096x128 .f32) (Q : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1_2 i x0 x1) ∗ owns (c : Thread nD τ) arg4 fullShare (out1_3 i x0 x1)) -∗ Q ⟨⟩))
      ⊢ wp frame (wpE (defs₀ (F := F)) Variants.none c none) E (cc1__main_body i arg1 harg1 arg2 harg2 arg3 harg3 arg4 harg4) Q := by
  simp only [cc1__main_body_eq_skeleton]; unfold cc1__main_body_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The pipeline's proof data -/

/-- Pipeline 1's proof data on core `c`: the arrays at the entry contents; after the body at point `t` each
    input buffer at its block and each output buffer at `out1_2` / `out1_3` of the input blocks at the point's grid
    coordinates; the invariant `Φreg`; the shared input array's share split in halves between the two windows
    that read it; what the TensorCore owes the SparseCores' start signals, the same at every point; its recorded
    waits at index `none`. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
    | ⟨3, _⟩ => out1_3 (grid1.coords t) (iblk1 V c 0 t) (iblk1 V c 1 t)
  Φ _ := Φreg spec1 c
  q := fun w => match w with
    | ⟨0, _⟩ => fullShare.left
    | ⟨1, _⟩ => fullShare.right
    | ⟨2, _⟩ => fullShare
    | ⟨3, _⟩ => fullShare
  owed _ := (K (F := F)).Otc c 0
  recorded _ := {p : SemLoc sig × HIx 1 | p.2 = none}

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (grid1.coords t) (iblk1 V c 0 t) (iblk1 V c 1 t) := by dsimp only [dat1]
theorem after1_3 (c : Dev nD) (t : Fin cfg1.N) : (dat1 V c).after 3 t = out1_3 (grid1.coords t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt (none : HIx 1) t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt (none : HIx 1) t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies at the point's grid
    coordinates; the invariant and what the core owes are the same before and after and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt (none : HIx 1) t.succ = (dat1 V c).owesAt (none : HIx 1) t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none (none : HIx 1) Set.univ := fun t => by
  rw [bigSep_W1, bigSep_W1]
  exact sound_body1 V c t

end Cert.Proof.KB

end
-- ==== Proof.KB.Tail.lean ====
/-
  The end of the TensorCore's program: the SparseCore call and the reshape. At the call the TensorCore holds its six
  arrays whole; it hands the index array to the two SparseCores as the 2 x 16 subcores' chunks (the chunks partition
  the array) and gets them back at the specified contents; the reshape then copies the 131072 x 128 array into the
  flat one. Every other array is as the two pipelines left it.
-/
import proofs.«215737_g33157147525312_cont_8to1_b_501_7_alg».proof.Proof.KB.Common
import Idealize.ShloMosaic.Lib.StableHlo.Run

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-! ## The TensorCore's arrays -/

abbrev rArg0 : DevRef τ sig := Proc.devRef .tc (main_arg0 : Ref sig .tc)
abbrev rV0 : DevRef τ sig := Proc.devRef .tc (main_v0 : Ref sig .tc)
abbrev rV10 : DevRef τ sig := Proc.devRef .tc (main_v1_0 : Ref sig .tc)
abbrev rV11 : DevRef τ sig := Proc.devRef .tc (main_v1_1 : Ref sig .tc)
abbrev rV2 : DevRef τ sig := Proc.devRef .tc (main_v2 : Ref sig .tc)
abbrev rV3 : DevRef τ sig := Proc.devRef .tc (main_v3 : Ref sig .tc)

/-- The six unscoped arrays. -/
abbrev S6 : Finset (DevRef τ sig) := {rArg0, rV0, rV10, rV11, rV2, rV3}

theorem held_S6 (d : Dev nD) (W : Valuation τ sig (Elt F)) :
    (held (T d) S6 W : sProp 𝕄)
      = iprop(((SparseCore.T d).loc main_arg0 ↦{fullShare} W rArg0) ∗ ((SparseCore.T d).loc main_v0 ↦{fullShare} W rV0)
          ∗ ((SparseCore.T d).loc main_v1_0 ↦{fullShare} W rV10) ∗ ((SparseCore.T d).loc main_v1_1 ↦{fullShare} W rV11)
          ∗ (oLoc d ↦{fullShare} W rV2) ∗ ((SparseCore.T d).loc main_v3 ↦{fullShare} W rV3)) := by
  unfold held S6
  rw [SparseCore.bigSep_insert' (by decide), SparseCore.bigSep_insert' (by decide), SparseCore.bigSep_insert' (by decide),
    SparseCore.bigSep_insert' (by decide), SparseCore.bigSep_insert' (by decide), bigSep_singleton]

variable [FloatOps F]

/-- The reshape of the re-laid matrix into the flat result. -/
abbrev opFlat : HloOp τ sig (Elt F) := StableHlo.reshape main_v1_1 main_v3 rfl shapeCasts_S131072x128_S16777216

theorem hFlat : (opFlat (F := F)).bufs ⊆ S6 := show ({rV11, rV3} : Finset (DevRef τ sig)) ⊆ S6 by decide

/-- The arrays after the call: the index array at the specification. -/
def Wcall (d : Dev nD) (W : Valuation τ sig (Elt F)) : Valuation τ sig (Elt F) := Function.update W rV2 (idxBuf (F := F) d)

theorem Wcall_v2 (d : Dev nD) (W : Valuation τ sig (Elt F)) : Wcall d W rV2 = idxBuf (F := F) d := Function.update_self _ _ _
theorem Wcall_of_ne (d : Dev nD) (W : Valuation τ sig (Elt F)) (b : DevRef τ sig) (h : b ≠ rV2) : Wcall d W b = W b := Function.update_of_ne h _ _

/-- What the TensorCore holds at its return. -/
abbrev FIN (d : Dev nD) (W : Valuation τ sig (Elt F)) : sProp 𝕄 := held (T d) S6 ((opFlat (F := F)).result (Wcall d W))

/-- What the call takes for the two SparseCores, and what it hands back. -/
theorem st0_eq (d : Dev nD) : (bigSep Finset.univ fun c : Fin ((K (F := F)).nCore 0) => (P (F := F)).st 0 d c)
    = bigSep Finset.univ fun c : Fin 2 => bigSep Finset.univ fun s : Fin 16 => tileGo (F := F) d (tileAt c s) := rfl
theorem dn0_eq (d : Dev nD) : (bigSep Finset.univ fun c : Fin ((K (F := F)).nCore 0) => (P (F := F)).dn 0 d c)
    = bigSep Finset.univ fun c : Fin 2 => bigSep Finset.univ fun s : Fin 16 => tileTd (F := F) d (tileAt c s) := rfl

/-- The call and the reshape, from the six arrays at `W`. -/
theorem tail (κ : GSem nD τ sig → ℕ) (d : Dev nD) (W : Valuation τ sig (Elt F))
    (hsplit : ∀ f : Buf (Elt F) (oLoc d), (oLoc d ↦{fullShare} f : sProp 𝕄)
      ⊢ bigSep Finset.univ fun c : Fin 2 => bigSep Finset.univ fun s : Fin 16 => tileGo (F := F) d (tileAt c s))
    (hjoin : (bigSep Finset.univ fun c : Fin 2 => bigSep Finset.univ fun s : Fin 16 => tileTd (F := F) d (tileAt c s))
      ⊢ (oLoc d ↦{fullShare} idxBuf (F := F) d : sProp 𝕄)) :
    iprop((K (F := F)).ctx EH (P (F := F)) κ ∗ (K (F := F)).tcSt EH d 0 ∗ boundary (T d) ∗ held (T d) S6 W)
      ⊢ wp frame (wpE ((K (F := F)).defs (D (F := F))) 𝒱 (SparseCore.T d) none) Set.univ (sc.run d 0)
          fun _ => wp frame (wpE ((K (F := F)).defs (D (F := F))) 𝒱 (SparseCore.T d) none) Set.univ
            (hlo rfl (opFlat (F := F)) (fun _ => (.ret ⟨⟩ : Prog (TpuEff nD τ sig (Elt F) (SparseCore.Sig (ΛP (F := F)) 1) .tc) PUnit)))
            fun _ => iprop((K (F := F)).tcSt EH d 1 ∗ boundary (T d) ∗ FIN d W) := by
  iintro ⟨#Hctx, Hst, Hb, Hheld⟩
  ihave Hh := (Entails.of_eq (held_S6 (F := F) d _)) $$ Hheld
  icases Hh with ⟨Ha, H0, H10, H11, H2, H3⟩
  iapply ((K (F := F)).wp_run (D (F := F)) 𝒱 (EH := EH) (P := P (F := F)) κ d 0) $$ [Hst Ha H0 H10 H11 H2 H3 Hb]
  isplitr; · iexact Hctx
  isplitl [Hst]; · iexact Hst
  isplitl [H2]
  · rw [st0_eq]; iapply (hsplit _); iexact H2
  iintro ⟨Hst, Hdn⟩
  ihave Hdn' := (Entails.of_eq (dn0_eq (F := F) d)) $$ Hdn
  ihave H2 := hjoin $$ Hdn'
  iapply (wp_hlo_within 𝒱 (SparseCore.T d) none Set.univ (op := opFlat (F := F)) (S := S6) hFlat (V := Wcall d W)) $$ [Hb Ha H0 H10 H11 H2 H3]
  · isplitl [Hb]; · iexact Hb
    rw [held_S6, Wcall_v2, Wcall_of_ne d W rArg0 (by decide), Wcall_of_ne d W rV0 (by decide), Wcall_of_ne d W rV10 (by decide),
      Wcall_of_ne d W rV11 (by decide), Wcall_of_ne d W rV3 (by decide)]
    isplitl [Ha]; · iexact Ha
    isplitl [H0]; · iexact H0
    isplitl [H10]; · iexact H10
    isplitl [H11]; · iexact H11
    isplitl [H2]; · iexact H2
    iexact H3
  iintro ⟨Hb, Hheld⟩
  rw [wp_ret]; imodintro
  isplitl [Hst]; · iexact Hst
  isplitl [Hb]; · iexact Hb
  iexact Hheld

end Cert.Proof.KB

end
-- ==== Proof.KB.Segs.lean ====
/-
  The two TensorCore pipelines as regions of @main. The thread state between segments is the TensorCore's six arrays
  held whole at a valuation, its generator register at some state, and what it owes the SparseCores (the start
  signals of the call to come) with every wait recorded so far at the kernels' own index. Region 0 is entered at the
  launch contents and leaves the normalised array where the pipeline's write-back put it; region 1 reads that array
  through two windows at once, each at half the share, and leaves the two result arrays.
-/
import proofs.«215737_g33157147525312_cont_8to1_b_501_7_alg».proof.Proof.KB.Region
import proofs.«215737_g33157147525312_cont_8to1_b_501_7_alg».proof.Proof.KB.Reg0
import proofs.«215737_g33157147525312_cont_8to1_b_501_7_alg».proof.Proof.KB.Reg1
import proofs.«215737_g33157147525312_cont_8to1_b_501_7_alg».proof.Proof.KB.Tail

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)

/-! ## The contents at each boundary -/

/-- At launch. -/
abbrev W0 (d : Dev nD) : Valuation τ sig (Elt F) := fun b => m (d, b)
abbrev V0 : (c : Dev nD) → (b : Ref sig .tc) → Buf (Elt F) ((c : Thread nD τ).loc b) := fun c b => W0 m c b
/-- After region 0: the normalised array where the write-back put it. -/
def W1 (d : Dev nD) : Valuation τ sig (Elt F) := Function.update (W0 m d) rV0 ((dat0 (V0 m) d).arrAt 1 cfg0.N)
abbrev V1 : (c : Dev nD) → (b : Ref sig .tc) → Buf (Elt F) ((c : Thread nD τ).loc b) := fun c b => W1 m c b
/-- After region 1: the two result arrays. -/
def W2 (d : Dev nD) : Valuation τ sig (Elt F) :=
  Function.update (Function.update (W1 m d) rV10 ((dat1 (V1 m) d).arrAt 2 cfg1.N)) rV11 ((dat1 (V1 m) d).arrAt 3 cfg1.N)

theorem W1_v0 (d : Dev nD) : W1 m d rV0 = (dat0 (V0 m) d).arrAt 1 cfg0.N := Function.update_self _ _ _
theorem W1_of_ne (d : Dev nD) (b : DevRef τ sig) (h : b ≠ rV0) : W1 m d b = W0 m d b := Function.update_of_ne h _ _
theorem W2_v11 (d : Dev nD) : W2 m d rV11 = (dat1 (V1 m) d).arrAt 3 cfg1.N := Function.update_self _ _ _
theorem W2_v10 (d : Dev nD) : W2 m d rV10 = (dat1 (V1 m) d).arrAt 2 cfg1.N :=
  (Function.update_of_ne (show rV10 ≠ rV11 by decide) _ _).trans (Function.update_self _ _ _)
theorem W2_of_ne (d : Dev nD) (b : DevRef τ sig) (h : b ≠ rV10) (h' : b ≠ rV11) : W2 m d b = W1 m d b :=
  (Function.update_of_ne h' _ _).trans (Function.update_of_ne h _ _)

/-- Every pipeline's proof data, each at its region's entry contents. -/
def pdats : (p : Fin 2) → (c : Dev nD) → Dat τ (Elt F) (HIx 1) ℕ UU ℕ (Pipeline.pin (pcfgs (F := F)) adm p) c
  | ⟨0, _⟩ => fun c => dat0 (V0 m) c
  | ⟨1, _⟩ => fun c => dat1 (V1 m) c

/-! ## The thread state -/

/-- What the TensorCore owes the SparseCores before the call, every recorded wait at the kernels' own index. -/
def owesN (d : Dev nD) : sProp 𝕄 :=
  iprop(∃ Wt : Waits sig (HIx 1), ⌜∀ p ∈ Wt, p.2 = none⌝ ∗ owes (T d) ((K (F := F)).Otc d 0) Wt)

/-- The six arrays at `W`, the generator register, the debt. -/
def St (d : Dev nD) (W : Valuation τ sig (Elt F)) : sProp 𝕄 :=
  iprop(held (T d) S6 W ∗ (∃ r, prngReg d r) ∗ owesN (F := F) d)

/-- The TensorCore owes nothing at the kernels' own index. -/
theorem Otc_none (d : Dev nD) (g : GSem nD τ sig) : (K (F := F)).Otc d 0 g none = 0 := by
  by_contra h
  have := (K (F := F)).lev_of_Otc_pos (Nat.pos_of_ne_zero h)
  rw [SparseCore.Cfg.lev_none] at this; omega

/-- So it may wait on any staging cell at that index. -/
theorem hwaits (p : Fin 2) (c : Dev nD) :
    (levAts (K (F := F)).L (K (F := F)).lev : sProp 𝕄) ⊢ Pipeline.cellsWaits (Pipeline.pin (pcfgs (F := F)) adm) (pdats m) (none : HIx 1) p c :=
  Pipeline.cellsWaits_intro _ _ _ p c fun w s t => by
    have h : (pdats m p c).owed t = (K (F := F)).Otc c 0 := by
      match p with
      | ⟨0, _⟩ => rfl
      | ⟨1, _⟩ => rfl
    rw [h]
    exact (K (F := F)).mayWait_none _ (Otc_none c)

/-- The bound the regions hand back: the recorded pairs and the loop's own, all at the kernels' own index. -/
theorem bound_none {p : Fin 2} (c : Dev nD) (t : Fin ((Pipeline.pin (pcfgs (F := F)) adm p).N + 1)) (Wt : Waits sig (HIx 1))
    (h : (↑Wt : Set (SemLoc sig × HIx 1)) ⊆ (pdats m p c).bound none t) : ∀ q ∈ Wt, q.2 = none := by
  intro q hq
  have hb : (pdats m p c).bound none t = ({x : SemLoc sig × HIx 1 | x.2 = none} ∪ (Pipeline.pin (pcfgs (F := F)) adm p).waitPairs none) := by
    match p with
    | ⟨0, _⟩ => rfl
    | ⟨1, _⟩ => rfl
  rw [hb] at h
  rcases h (Finset.mem_coe.mpr hq) with h | ⟨w, s, rfl⟩
  · exact h
  · rfl

theorem into_bound {p : Fin 2} (c : Dev nD) (t : Fin ((Pipeline.pin (pcfgs (F := F)) adm p).N + 1)) (Wt : Waits sig (HIx 1))
    (h : ∀ q ∈ Wt, q.2 = none) : (↑Wt : Set (SemLoc sig × HIx 1)) ⊆ (pdats m p c).bound none t := by
  intro q hq
  have hb : (pdats m p c).bound none t = ({x : SemLoc sig × HIx 1 | x.2 = none} ∪ (Pipeline.pin (pcfgs (F := F)) adm p).waitPairs none) := by
    match p with
    | ⟨0, _⟩ => rfl
    | ⟨1, _⟩ => rfl
  rw [hb]
  exact Or.inl (h q (Finset.mem_coe.mp hq))

/-! ## Region 0 -/

/-- Pipeline 0's arrays: the argument and the normalised array, each whole at the full share. -/
theorem arrays0_eq (c : Dev nD) (G : (w : Fin cfg0.W) → Buf (Elt F) ((cfg0.win w).arr.view.loc (c.tc : Thread nD τ))) :
    ((dat0 (V0 m) c).arrays G : sProp 𝕄)
      = iprop(((SparseCore.T c).loc main_arg0 ↦{fullShare} G 0) ∗ ((SparseCore.T c).loc main_v0 ↦{fullShare} G 1)) := by
  unfold Pipeline.Dat.arrays
  rw [bigSep_W0, (arr_whole0 0).set_eq_univ, (arr_whole0 1).set_eq_univ]
  rfl

set_option backward.isDefEq.respectTransparency.types false in
/-- REGION 0: entered at the launch contents, left with the normalised array written back. -/
def reg0 : Pipeline.RegionSeg (pcfgs (F := F)) adm (pdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V0 m) c).loose
  hwaits c := hwaits m 0 c
  pre c := St c (W0 m c)
  post c := St c (W1 m c)
  X c := iprop(∃ r, prngReg c r)
  Y c := iprop(∃ r, prngReg c r)
  Z c := iprop(((SparseCore.T c).loc main_v1_0 ↦{fullShare} W0 m c rV10) ∗ ((SparseCore.T c).loc main_v1_1 ↦{fullShare} W0 m c rV11)
    ∗ (oLoc c ↦{fullShare} W0 m c rV2) ∗ ((SparseCore.T c).loc main_v3 ↦{fullShare} W0 m c rV3))
  hentry c := by
    rw [Pipeline.ownSems0_none]
    unfold St owesN
    iintro ⟨⟨Hh, Hp, ⟨%Wt, %hWt, HO⟩⟩, -, -⟩
    ihave Hh' := (Entails.of_eq (held_S6 (F := F) c _)) $$ Hh
    icases Hh' with ⟨Ha, H0, H10, H11, H2, H3⟩
    imodintro
    isplitl [Ha H0]
    · iapply (Entails.of_eq (arrays0_eq m c _).symm)
      isplitl [Ha]; · iexact Ha
      iexact H0
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact into_bound m c 0 Wt hWt
      iexact HO
    isplitl [Hp]; · iexact Hp
    isplitl [H10]; · iexact H10
    isplitl [H11]; · iexact H11
    isplitl [H2]; · iexact H2
    iexact H3
  hin c := by
    rw [show (pdats m 0 c).Φ 0 = Φreg spec0 c from rfl]; unfold Φreg
    iintro ⟨Hp, -, Hr⟩
    isplitl [Hr]; · iexact Hr
    iexact Hp
  hout c := by
    rw [Pipeline.ownSems0_none, show (pdats m 0 c).Φ (Fin.last _) = Φreg spec0 c from rfl]; unfold Φreg
    iintro ⟨Hr, Hp⟩
    isplitl [Hp]; · iexact Hp
    isplitr; · iempintro
    iexact Hr
  hexit c := by
    unfold St owesN
    iintro ⟨Ha, HO, HY, H10, H11, H2, H3⟩
    ihave Ha' := (Entails.of_eq (show ((pdats m 0 c).arrays fun w => (pdats m 0 c).arrAt w (Pipeline.pin (pcfgs (F := F)) adm 0).N) = _ from arrays0_eq m c _)) $$ Ha
    icases Ha' with ⟨Ha, H0⟩
    unfold Pipeline.Dat.owesAt Pipeline.owesWithin
    icases HO with ⟨%Wt, %hWt, HO⟩
    imodintro
    isplitl [Ha H0 H10 H11 H2 H3]
    · rw [held_S6, W1_v0, W1_of_ne m c rArg0 (by decide), W1_of_ne m c rV10 (by decide), W1_of_ne m c rV11 (by decide),
        W1_of_ne m c rV2 (by decide), W1_of_ne m c rV3 (by decide)]
      isplitl [Ha]
      · rw [show (pdats m 0 c).arrAt 0 (Pipeline.pin (pcfgs (F := F)) adm 0).N = W0 m c rArg0 from (dat0 (V0 m) c).arrAt_in 0 rfl _]; iexact Ha
      isplitl [H0]; · iexact H0
      isplitl [H10]; · iexact H10
      isplitl [H11]; · iexact H11
      isplitl [H2]; · iexact H2
      iexact H3
    isplitl [HY]; · iexact HY
    iexists Wt; isplitr; · ipureintro; exact bound_none m c _ Wt hWt
    iexact HO

end Cert.Proof.KB

end
-- ==== Proof.KB.Arr1.lean ====
/-
  Region 1's windowed arrays as four points-tos. The two input windows read one array, the normalised one, so the
  pipeline holds it twice, once at each half of the full share; a whole array held at the full share splits into
  those two halves and the halves rejoin. The two result arrays are held outright.
-/
import proofs.«215737_g33157147525312_cont_8to1_b_501_7_alg».proof.Proof.KB.Reg1
import Idealize.ShloMosaic.Lib.SparseCore.Cells

set_option maxRecDepth 16384

noncomputable section

namespace Cert.Proof.KB

open Cert.Kernel Cert.Kernel.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig (HIx 1) (Elt F) ℕ UU ℕ

/-- A whole buffer held at the full share is the same buffer held at the left half and at the right half. -/
theorem pointsTo_halves (ℓ : Loc nD τ sig) (f : Buf (Elt F) ℓ) :
    (ℓ ↦{fullShare} f : sProp 𝕄) ⊣⊢ iprop((ℓ ↦{fullShare.left} f) ∗ (ℓ ↦{fullShare.right} f)) :=
  pointsTo_share (PosShare.mem_left_op_right fullShare)

variable (V : (c : Dev nD) → (b : Ref sig .tc) → Buf (Elt F) ((c : Thread nD τ).loc b))

/-- Pipeline 1's arrays at contents `G`: the normalised array at the left half for the row-block window and at
    the right half for the whole-array window, and the two result arrays whole at the full share. -/
theorem arrays1_eq_of (c : Dev nD) (G : (w : Fin cfg1.W) → Buf (Elt F) ((cfg1.win w).arr.view.loc (c.tc : Thread nD τ))) :
    ((dat1 V c).arrays G : sProp 𝕄)
      = iprop(((SparseCore.T c).loc main_v0 ↦{fullShare.left} G 0) ∗ ((SparseCore.T c).loc main_v0 ↦{fullShare.right} G 1)
          ∗ ((SparseCore.T c).loc main_v1_0 ↦{fullShare} G 2) ∗ ((SparseCore.T c).loc main_v1_1 ↦{fullShare} G 3)) := by
  unfold Pipeline.Dat.arrays
  -- windows 0 and 1 have one array, so one rewrite serves both
  rw [bigSep_W1, (arr_whole1 0).set_eq_univ, (arr_whole1 2).set_eq_univ, (arr_whole1 3).set_eq_univ]
  rfl

end Cert.Proof.KB

end
-- ==== Proof.KB.Segs1.lean ====
/-
  Region 1 as a region of @main. It is entered with the six arrays as region 0 left them. The normalised array is
  read through two windows at once, so its full share is split in halves on the way in and the halves, whose
  contents the pipeline never changes, are rejoined on the way out; the two result arrays go in whole at whatever
  they held and come back as the sixteen write-backs left them; the argument, the index array and the flat result
  bypass the region.
-/
import proofs.«215737_g33157147525312_cont_8to1_b_501_7_alg».proof.Proof.KB.Segs
import proofs.«215737_g33157147525312_cont_8to1_b_501_7_alg».proof.Proof.KB.Arr1

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)

/-- Pipeline 1's arrays: the normalised array at each half of the share, the two result arrays whole. -/
theorem arrays1_eq (c : Dev nD) (G : (w : Fin cfg1.W) → Buf (Elt F) ((cfg1.win w).arr.view.loc (c.tc : Thread nD τ))) :
    ((dat1 (V1 m) c).arrays G : sProp 𝕄)
      = iprop(((SparseCore.T c).loc main_v0 ↦{fullShare.left} G 0) ∗ ((SparseCore.T c).loc main_v0 ↦{fullShare.right} G 1)
          ∗ ((SparseCore.T c).loc main_v1_0 ↦{fullShare} G 2) ∗ ((SparseCore.T c).loc main_v1_1 ↦{fullShare} G 3)) :=
  arrays1_eq_of (V1 m) c G

/-- The pipeline writes neither window's view of the normalised array. -/
theorem arrAt1_0 (c : Dev nD) : (pdats m 1 c).arrAt (0 : Fin cfg1.W) (Pipeline.pin (pcfgs (F := F)) adm 1).N = W1 m c rV0 :=
  (dat1 (V1 m) c).arrAt_in 0 rfl _
theorem arrAt1_1 (c : Dev nD) : (pdats m 1 c).arrAt (1 : Fin cfg1.W) (Pipeline.pin (pcfgs (F := F)) adm 1).N = W1 m c rV0 :=
  (dat1 (V1 m) c).arrAt_in 1 rfl _

set_option backward.isDefEq.respectTransparency.types false in
/-- REGION 1: entered with the normalised array in place, left with the two result arrays written back. -/
def reg1 : Pipeline.RegionSeg (pcfgs (F := F)) adm (pdats m) (none : HIx 1) defs₀ 𝒱₀ (K (F := F)).L (K (F := F)).lev 1 where
  win := winFacts₀1
  block_pos := block_pos1
  stage_whole := stage_whole1
  K := PEmpty
  osem k := k.elim
  ho := Pipeline.OwnSemFacts.none _
  hbody c := (body_obligation1 (V1 m) c).loose
  hwaits c := hwaits m 1 c
  pre c := St c (W1 m c)
  post c := St c (W2 m c)
  X c := iprop(∃ r, prngReg c r)
  Y c := iprop(∃ r, prngReg c r)
  Z c := iprop(((SparseCore.T c).loc main_arg0 ↦{fullShare} W1 m c rArg0) ∗ (oLoc c ↦{fullShare} W1 m c rV2)
    ∗ ((SparseCore.T c).loc main_v3 ↦{fullShare} W1 m c rV3))
  hentry c := by
    rw [Pipeline.ownSems0_none]
    unfold St owesN
    iintro ⟨⟨Hh, Hp, ⟨%Wt, %hWt, HO⟩⟩, -, -⟩
    ihave Hh' := (Entails.of_eq (held_S6 (F := F) c _)) $$ Hh
    icases Hh' with ⟨Ha, H0, H10, H11, H2, H3⟩
    ihave H0' := (pointsTo_halves (F := F) _ _).1 $$ H0
    icases H0' with ⟨H0l, H0r⟩
    imodintro
    isplitl [H0l H0r H10 H11]
    · iapply (Entails.of_eq (arrays1_eq m c _).symm)
      isplitl [H0l]; · iexact H0l
      isplitl [H0r]; · iexact H0r
      isplitl [H10]; · iexact H10
      iexact H11
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact into_bound m c 0 Wt hWt
      iexact HO
    isplitl [Hp]; · iexact Hp
    isplitl [Ha]; · iexact Ha
    isplitl [H2]; · iexact H2
    iexact H3
  hin c := by
    rw [show (pdats m 1 c).Φ 0 = Φreg spec1 c from rfl]; unfold Φreg
    iintro ⟨Hp, -, Hr⟩
    isplitl [Hr]; · iexact Hr
    iexact Hp
  hout c := by
    rw [Pipeline.ownSems0_none, show (pdats m 1 c).Φ (Fin.last _) = Φreg spec1 c from rfl]; unfold Φreg
    iintro ⟨Hr, Hp⟩
    isplitl [Hp]; · iexact Hp
    isplitr; · iempintro
    iexact Hr
  hexit c := by
    refine (sep_mono (Entails.of_eq (arrays1_eq m c _)) .rfl).trans ?_
    beta_reduce
    rw [arrAt1_0, arrAt1_1]
    unfold St owesN
    iintro ⟨⟨H0l, H0r, H10, H11⟩, HO, HY, Harg, H2, H3⟩
    ihave H0 := (pointsTo_halves (F := F) _ _).2 $$ [H0l H0r]
    · isplitl [H0l]; · iexact H0l
      iexact H0r
    unfold Pipeline.Dat.owesAt Pipeline.owesWithin
    icases HO with ⟨%Wt, %hWt, HO⟩
    imodintro
    isplitl [Harg H0 H10 H11 H2 H3]
    · rw [held_S6, W2_v10, W2_v11, W2_of_ne m c rArg0 (by decide) (by decide), W2_of_ne m c rV0 (by decide) (by decide),
        W2_of_ne m c rV2 (by decide) (by decide), W2_of_ne m c rV3 (by decide) (by decide)]
      isplitl [Harg]; · iexact Harg
      isplitl [H0]; · iexact H0
      isplitl [H10]; · iexact H10
      isplitl [H11]; · iexact H11
      isplitl [H2]; · iexact H2
      iexact H3
    isplitl [HY]; · iexact HY
    iexists Wt; isplitr; · ipureintro; exact bound_none m c _ Wt hWt
    iexact HO

end Cert.Proof.KB

end
-- ==== Proof.KB.Ghost.lean ====
/-
  The launch element. The ghost state the run starts from is a pair: the handshake cells' rounds at their launch
  schedule, and beside them the two pipelines' staging cells' rounds with the transfers' counters. It splits into the
  handshakes' part, which the launch keeps, and per device the two pipelines' cells and duty tokens, which the
  TensorCore spends when it enters each pipeline's region; the SparseCore kernel consumes nothing of it.
-/
import proofs.«215737_g33157147525312_cont_8to1_b_501_7_alg».proof.Proof.KB.Common
import Idealize.ShloMosaic.Lib.Pipeline.Sound

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The launch element: the handshakes' schedule, the pipelines' cells and tokens, the counters at nothing. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- A conjunction of nothing, over any index set, is nothing. -/
theorem bigSep_emp' {I : Type} (s : Finset I) : (bigSep s fun _ => iprop(emp)) = (iprop(emp) : sProp 𝕄) := bigSep_emp_const s

variable [FloatOps F]

/-- What device `d`'s TensorCore starts from beyond the handshakes: both pipelines' cells and duty tokens. -/
def G (d : Dev nD) : sProp 𝕄 :=
  iprop((bigSep Finset.univ fun p : Fin 2 => Pipeline.cellsGhost (Ix := HIx 1) (Val := Elt F) (Name := ℕ) (U := UU) (Lvl := ℕ) cfgs (EP (F := F)) p d)
    ∗ (bigSep Finset.univ fun p : Fin 2 => (Pipeline.toksInit (Ix := HIx 1) (Val := Elt F) (Name := ℕ) (U := UU) (Lvl := ℕ) cfgs (EP (F := F)) p d : sProp 𝕄)))

theorem hu₀ : iprop(ownU (u₀ (F := F)) ∗ (P (F := F)).oxCred ∗ (K (F := F)).freeSems0 (nD := nD) (Val := Elt F) (Name := ℕ) (U := UU))
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 1 => (P (F := F)).x q thr) := by
  unfold u₀
  iintro ⟨Hu, -, -⟩
  ihave H := (ownU_pair _ _) $$ Hu
  icases H with ⟨HH, HR⟩
  ihave H2 := (own_pair_emb (embR : Emb (Pipeline.UD sig nD τ) 𝕄) _ _) $$ HR
  icases H2 with ⟨HP, -⟩
  have hfund := Pipeline.fund_ghost (Ix := HIx 1) (Val := Elt F) (Name := ℕ) (U := UU) (Lvl := ℕ) cfgs (EP (F := F)) cellOf_inj
  unfold EP at hfund
  imod (hfund) $$ HP with ⟨Hg, Ht⟩
  imodintro
  isplitl [HH]; · iexact HH
  isplitl [Hg Ht]
  · unfold G EP; rw [bigSep_sep']
    isplitl [Hg] <;> iassumption
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.Proof.KB

end
-- ==== Proof.KB.Cover.lean ====
/-
  The index array against its chunks. The 2 x 16777216 array is cut into 2 x 16 x 32 x 2 pieces: core `c`, subcore
  `s`, chunk `k` and row `r` name the 16384 columns from `1048576 s + 524288 c + 16384 k` of row `r`. A column `x`
  below 16777216 lies in exactly one of them, that of `s = x / 1048576`, `c = x / 524288 mod 2` and
  `k = (x mod 524288) / 16384`, so the pieces are pairwise disjoint and cover the array, and a points-to of the whole
  array is the separating conjunction of the pieces' points-tos. Read left to right this hands every subcore its
  chunks at whatever the array holds; read right to left it gathers the chunks, all at the one final contents, back into
  the whole array. Last, a core's sixteen subcores are the same sixteen whether numbered by the call or by `Fin 16`.
-/
import proofs.«215737_g33157147525312_cont_8to1_b_501_7_alg».proof.Proof.KB.Common

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The chunks as sets of columns -/

theorem trips_eq : k2_t1_loop.trips = 32 := by decide

theorem chunk0_set (L : grid2.Coords) (k : Fin k2_t1_loop.trips) :
    (chunk0 L k).view.set = (rect0 L k).set := by
  show (((View.whole main_v2_scv).slice (rect0 L k)).reshape S16384 _).set = _
  rw [View.set_reshape, View.set_slice_whole]

theorem chunk1_set (L : grid2.Coords) (k : Fin k2_t1_loop.trips) :
    (chunk1 L k).view.set = (rect1 L k).set := by
  show (((View.whole main_v2_scv).slice (rect1 L k)).reshape S16384 _).set = _
  rw [View.set_reshape, View.set_slice_whole]

/-- The first column of chunk `k` of the subcore at `L`. -/
def colOff (L : grid2.Coords) (k : Fin k2_t1_loop.trips) : ℕ := 1048576 * (L 1).val + 524288 * (L 0).val + 16384 * k.val

theorem mem_chunk0 (L : grid2.Coords) (k : Fin k2_t1_loop.trips) (j : S2x16777216.Idx) :
    j ∈ (chunk0 L k).view.set ↔ (j 0).val = 0 ∧ colOff L k ≤ (j 1).val ∧ (j 1).val < colOff L k + 16384 := by
  rw [chunk0_set, Rect.mem_set_unit, k2_off2_eq, Fin.forall_fin_two]
  simp only [colOff, Matrix.cons_val_zero, Matrix.cons_val_one]
  omega

theorem mem_chunk1 (L : grid2.Coords) (k : Fin k2_t1_loop.trips) (j : S2x16777216.Idx) :
    j ∈ (chunk1 L k).view.set ↔ (j 0).val = 1 ∧ colOff L k ≤ (j 1).val ∧ (j 1).val < colOff L k + 16384 := by
  rw [chunk1_set, Rect.mem_set_unit, k2_off3_eq, Fin.forall_fin_two]
  simp only [colOff, Matrix.cons_val_zero, Matrix.cons_val_one]
  omega

/-! ## The 2 x 16 x 32 x 2 chunks partition the array -/

/-- The chunks as one family: core, subcore, chunk number, row. -/
abbrev PIx : Type := Fin 2 × Fin 16 × Fin k2_t1_loop.trips × Fin 2

def piece (t : PIx) : Finset S2x16777216.Idx :=
  if t.2.2.2 = 0 then (chunk0 (tileAt t.1 t.2.1) t.2.2.1).view.set else (chunk1 (tileAt t.1 t.2.1) t.2.2.1).view.set

theorem mem_piece (t : PIx) (j : S2x16777216.Idx) :
    j ∈ piece t ↔ (j 0).val = t.2.2.2.val ∧
      1048576 * t.2.1.val + 524288 * t.1.val + 16384 * t.2.2.1.val ≤ (j 1).val ∧
      (j 1).val < 1048576 * t.2.1.val + 524288 * t.1.val + 16384 * t.2.2.1.val + 16384 := by
  obtain ⟨c, s, k, r⟩ := t
  unfold piece
  have hr := r.isLt
  split
  next h =>
    rw [mem_chunk0]; simp only [colOff, tileAt]
    have : r.val = 0 := by simpa using congrArg Fin.val h
    omega
  next h =>
    rw [mem_chunk1]; simp only [colOff, tileAt]
    have : r.val ≠ 0 := fun e => h (Fin.ext e)
    omega

theorem piece_disjoint (t t' : PIx) (h : t ≠ t') : Disjoint (piece t) (piece t') := by
  rw [Finset.disjoint_left]
  intro j hj hj'
  rw [mem_piece] at hj hj'
  obtain ⟨c, s, k, r⟩ := t
  obtain ⟨c', s', k', r'⟩ := t'
  simp only at hj hj'
  have hk : k.val < 32 := Nat.lt_of_lt_of_le k.isLt trips_eq.le
  have hk' : k'.val < 32 := Nat.lt_of_lt_of_le k'.isLt trips_eq.le
  have hc := c.isLt; have hc' := c'.isLt; have hs := s.isLt; have hs' := s'.isLt
  apply h
  have e1 : c = c' := Fin.ext (by omega)
  have e2 : s = s' := Fin.ext (by omega)
  have e3 : k = k' := Fin.ext (by omega)
  have e4 : r = r' := Fin.ext (by omega)
  rw [e1, e2, e3, e4]

theorem piece_cover : (Finset.univ : Finset PIx).biUnion piece = Finset.univ := by
  ext j
  simp only [Finset.mem_biUnion, Finset.mem_univ, true_and, iff_true]
  have h0 : (j 0).val < 2 := (j 0).isLt
  have h1 : (j 1).val < 16777216 := (j 1).isLt
  refine ⟨(⟨((j 1).val / 524288) % 2, by omega⟩, ⟨(j 1).val / 1048576, by omega⟩,
    ⟨((j 1).val % 524288) / 16384, by rw [trips_eq]; omega⟩, ⟨(j 0).val, h0⟩), ?_⟩
  rw [mem_piece]
  refine ⟨rfl, ?_, ?_⟩ <;> simp only <;> omega

theorem piece_zero (c : Fin 2) (s : Fin 16) (k : Fin k2_t1_loop.trips) : piece (c, s, k, 0) = (chunk0 (tileAt c s) k).view.set := if_pos rfl
theorem piece_one (c : Fin 2) (s : Fin 16) (k : Fin k2_t1_loop.trips) : piece (c, s, k, 1) = (chunk1 (tileAt c s) k).view.set :=
  if_neg (show ¬ ((1 : Fin 2) = 0) by decide)

/-! ## The whole array against its chunks -/

/-- The whole array at `g` is, chunk by chunk, the chunks at `g`. -/
theorem cover_eq (d : Dev nD) (g : Buf (Elt F) (oLoc d)) :
    (oLoc d ↦{fullShare} g : sProp 𝕄)
      = bigSep Finset.univ fun c : Fin 2 => bigSep Finset.univ fun s : Fin 16 => bigSep Finset.univ fun k : Fin k2_t1_loop.trips =>
          iprop((oLoc d ↦[(chunk0 (tileAt c s) k).view.set]{fullShare} g) ∗ (oLoc d ↦[(chunk1 (tileAt c s) k).view.set]{fullShare} g)) := by
  have h := pointsTo_biUnion (Ix := HIx 1) (Val := Elt F) (Name := ℕ) (U := UU) (Lvl := ℕ) (ℓ := oLoc d) (q := fullShare) (f := g)
    (Finset.univ : Finset PIx) piece (fun t _ t' _ h => piece_disjoint t t' h)
  rw [piece_cover] at h
  rw [h, bigSep_univ_prod]
  refine bigSep_congr fun c _ => ?_
  rw [bigSep_univ_prod]
  refine bigSep_congr fun s _ => ?_
  rw [bigSep_univ_prod]
  refine bigSep_congr fun k _ => ?_
  rw [bigSep_univ_two, piece_zero, piece_one]

variable [FloatOps F]

theorem out_split (d : Dev nD) (f : Buf (Elt F) (oLoc d)) :
    (oLoc d ↦{fullShare} f : sProp 𝕄) ⊢ bigSep Finset.univ fun c : Fin 2 => bigSep Finset.univ fun s : Fin 16 => tileGo (F := F) d (tileAt c s) := by
  rw [cover_eq]
  unfold tileGo
  refine bigSep_mono fun c _ => bigSep_mono fun s _ => bigSep_mono fun k _ => ?_
  show iprop((oLoc d ↦[(chunk0 (tileAt c s) k).view.set]{fullShare} f) ∗ (oLoc d ↦[(chunk1 (tileAt c s) k).view.set]{fullShare} f))
    ⊢ iprop((∃ f, oLoc d ↦[(chunk0 (tileAt c s) k).view.set]{fullShare} f) ∗ (∃ f, oLoc d ↦[(chunk1 (tileAt c s) k).view.set]{fullShare} f))
  iintro ⟨H0, H1⟩
  isplitl [H0]
  · iexists f; iexact H0
  · iexists f; iexact H1

theorem out_join (d : Dev nD) :
    (bigSep Finset.univ fun c : Fin 2 => bigSep Finset.univ fun s : Fin 16 => tileTd (F := F) d (tileAt c s)) ⊢ (oLoc d ↦{fullShare} idxBuf (F := F) d : sProp 𝕄) := by
  rw [cover_eq]
  unfold tileTd
  exact .rfl

/-! ## A core's sixteen subcores, as the call numbers them -/

theorem P_st (d : Dev nD) (c : Fin ((K (F := F)).nCore 0)) :
    (P (F := F)).st 0 d c = bigSep Finset.univ fun s : Fin 16 => tileGo (F := F) d (tileAt (Fin.cast nCore_zero c) s) := by unfold P; rfl
theorem P_dn (d : Dev nD) (c : Fin ((K (F := F)).nCore 0)) :
    (P (F := F)).dn 0 d c = bigSep Finset.univ fun s : Fin 16 => tileTd (F := F) d (tileAt (Fin.cast nCore_zero c) s) := by unfold P; rfl
theorem P_go (d : Dev nD) (c : Fin ((K (F := F)).nCore 0)) (i : Fin ((K (F := F)).nSub 0)) :
    (P (F := F)).go 0 d c i = tileGo (F := F) d (tileAt (Fin.cast nCore_zero c) (Fin.cast nSub_zero i)) := by unfold P; rfl
theorem P_td (d : Dev nD) (c : Fin ((K (F := F)).nCore 0)) (i : Fin ((K (F := F)).nSub 0)) :
    (P (F := F)).td 0 d c i = tileTd (F := F) d (tileAt (Fin.cast nCore_zero c) (Fin.cast nSub_zero i)) := by unfold P; rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P (F := F)) 0 := by
  intro d c
  simp only [P_go, P_td]
  rw [P_st, P_dn,
    bigSep_tasks (F := F) (fun s => tileGo (F := F) d (tileAt (Fin.cast nCore_zero c) s)),
    bigSep_tasks (F := F) (fun s => tileTd (F := F) d (tileAt (Fin.cast nCore_zero c) s))]
  iintro H; imodintro
  isplitl [H]; · iexact H
  iintro H; iexact H

end Cert.Proof.KB
-- ==== Proof.KB.TileArith.lean ====
/-
  The arithmetic of one vector subcore's task of the index kernel. Subcore (c, s) of the 2 x 16 grid fills the
  524288 columns from 1048576 s + 524288 c of the 2 x 16777216 index array, chunk k of 32 being the 16384 columns from
  there + 16384 k; inside a chunk, trip t of 1024 computes the 16 lanes 16 t .. 16 t + 15. Here: the column a lane of a
  chunk stands for; that lane x of trip t's two stored vectors is that column shifted right by 12, and its low
  12 bits; and that the element of the index array under lane y of the chunk's slice of row 0 (of row 1) is
  the specification's value at that column.
-/
import proofs.«215737_g33157147525312_cont_8to1_b_501_7_alg».proof.Proof.KB.Common

noncomputable section

namespace Cert.Proof.KB

namespace Tile

open Cert.Kernel Cert.Kernel.Gen
open Idealize.ShloMosaic
open Idealize.ShloMosaic.SparseCore (S V T)

variable {F : FTy → Type}

/-- The column of the index array that lane `j` of chunk `k`'s scratch stands for. -/
def colOf (L : grid2.Coords) (k : Fin k2_t1_loop.trips) (j : S16384.Idx) : Nat :=
  1048576 * (L 1).val + 524288 * (L 0).val + 16384 * k.val + (j 0).val

/-- What the two scratch buffers hold for chunk `k`: the column shifted right by 12, and its low 12 bits. -/
def valA (L : grid2.Coords) (k : Fin k2_t1_loop.trips) (j : S16384.Idx) : BitVec 32 := (BitVec.ofNat 32 (colOf L k j)).sshiftRight 12
def valB (L : grid2.Coords) (k : Fin k2_t1_loop.trips) (j : S16384.Idx) : BitVec 32 := (BitVec.ofNat 32 (colOf L k j)) &&& 4095#32

theorem size_S16384 (a : Fin 1) : S16384.size a = 16384 := by
  obtain rfl : a = 0 := Subsingleton.elim _ _
  rfl
theorem size_S16 (a : Fin 1) : S16.size a = 16 := by
  obtain rfl : a = 0 := Subsingleton.elim _ _
  rfl

/-- Lane `x` of trip `t` of the filling loop, as a lane of the scratch. -/
def laneAt (t : Fin k2_t2_loop.trips) (x : S16.Idx) : S16384.Idx :=
  fun a => ⟨16 * t.val + (x 0).val, by
    have ht : t.val < 1024 := Nat.lt_of_lt_of_le t.isLt k2_t2_abs.2.1
    have hx : (x 0).val < 16 := (x 0).isLt
    rw [size_S16384]
    omega⟩

theorem pay1_lane (L : grid2.Coords) (k : Fin k2_t1_loop.trips) (t : Fin k2_t2_loop.trips) (x : S16.Idx) :
    k2_pay1 L k t x = BitVec.ofNat 32 (colOf L k (laneAt t x)) := by
  unfold k2_pay1
  simp only [addi, broadcast, iota, Scalar.muli, Scalar.addi, IntOp.muli, IntOp.addi, Scf.iv, List.foldl]
  simp only [← BitVec.ofNat_mul, ← BitVec.ofNat_add]
  congr 1
  show _ = 1048576 * (L 1).val + 524288 * (L 0).val + 16384 * k.val + (16 * t.val + (x 0).val)
  rw [Nat.zero_mul]
  omega

theorem pay2_lane (L : grid2.Coords) (k : Fin k2_t1_loop.trips) (t : Fin k2_t2_loop.trips) (x : S16.Idx) :
    k2_pay2 L k t x = valA L k (laneAt t x) := by
  unfold k2_pay2 valA
  simp only [shapeCast, shrsi, broadcast, Shape.reshapeEquiv_self, IntOp.shrsi]
  rw [pay1_lane, if_pos (by decide)]
  rfl

theorem pay3_lane (L : grid2.Coords) (k : Fin k2_t1_loop.trips) (t : Fin k2_t2_loop.trips) (x : S16.Idx) :
    k2_pay3 L k t x = valB L k (laneAt t x) := by
  unfold k2_pay3 valB
  simp only [shapeCast, andi, broadcast, Shape.reshapeEquiv_self, IntOp.andi]
  rw [pay1_lane]

theorem idx_chunk0 (d : Dev nD) (L : grid2.Coords) (k : Fin k2_t1_loop.trips) (y : S16384.Idx) :
    idxBuf (F := F) d ((chunk0 L k).view.emb y) = valA L k y := by
  have e : (chunk0 L k).view.emb y = (rect0 L k).emb (Shape.reshapeEquiv squeezes_S1x16384_S16384.numel_eq y) := rfl
  rw [e]
  have e2 : Shape.reshapeEquiv squeezes_S1x16384_S16384.numel_eq y = Fin.cons ⟨0, Nat.one_pos⟩ y :=
    Shape.reshapeEquiv_cons_one (n := 1) (d := ![16384]) _ y
  have h0 : (((rect0 L k).emb (Shape.reshapeEquiv squeezes_S1x16384_S16384.numel_eq y)) 0).val = 0 := by
    rw [Rect.emb_apply, e2]
    show k2_off2 L k 0 + 1 * 0 = 0
    rw [k2_off2_eq]; rfl
  have h1 : (((rect0 L k).emb (Shape.reshapeEquiv squeezes_S1x16384_S16384.numel_eq y)) 1).val = colOf L k y := by
    rw [Rect.emb_apply, e2]
    show k2_off2 L k 1 + 1 * (y 0).val = colOf L k y
    rw [k2_off2_eq]
    show 1048576 * (L 1).val + 524288 * (L 0).val + 16384 * k.val + 1 * (y 0).val = _
    unfold colOf; omega
  show Cert.Proof.Math.idxG _ = _
  unfold Cert.Proof.Math.idxG valA
  rw [if_pos h0, h1]

theorem idx_chunk1 (d : Dev nD) (L : grid2.Coords) (k : Fin k2_t1_loop.trips) (y : S16384.Idx) :
    idxBuf (F := F) d ((chunk1 L k).view.emb y) = valB L k y := by
  have e : (chunk1 L k).view.emb y = (rect1 L k).emb (Shape.reshapeEquiv squeezes_S1x16384_S16384.numel_eq y) := rfl
  rw [e]
  have e2 : Shape.reshapeEquiv squeezes_S1x16384_S16384.numel_eq y = Fin.cons ⟨0, Nat.one_pos⟩ y :=
    Shape.reshapeEquiv_cons_one (n := 1) (d := ![16384]) _ y
  have h0 : ¬ (((rect1 L k).emb (Shape.reshapeEquiv squeezes_S1x16384_S16384.numel_eq y)) 0).val = 0 := by
    rw [Rect.emb_apply, e2]
    show ¬ k2_off3 L k 0 + 1 * 0 = 0
    rw [k2_off3_eq]
    show ¬ (1 + 1 * 0 = 0)
    omega
  have h1 : (((rect1 L k).emb (Shape.reshapeEquiv squeezes_S1x16384_S16384.numel_eq y)) 1).val = colOf L k y := by
    rw [Rect.emb_apply, e2]
    show k2_off3 L k 1 + 1 * (y 0).val = colOf L k y
    rw [k2_off3_eq]
    show 1048576 * (L 1).val + 524288 * (L 0).val + 16384 * k.val + 1 * (y 0).val = _
    unfold colOf; omega
  show Cert.Proof.Math.idxG _ = _
  unfold Cert.Proof.Math.idxG valB
  rw [if_neg h0, h1]

end Tile

end Cert.Proof.KB
end
-- ==== Proof.KB.Tile.lean ====
/-
  One vector subcore's task of the index kernel: at a symbolic subcore, 32 chunks of 16384 consecutive columns,
  each chunk computed 16 lanes at a time into the two scratch buffers (the column numbers shifted right by 12;
  their low 12 bits) and copied out to row 0 and row 1 of the index array, each copy waited for before the scratch
  is written again.
-/
import proofs.«215737_g33157147525312_cont_8to1_b_501_7_alg».proof.Proof.KB.TileArith

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

namespace Tile

/-! ## The subcore's thread, scratch and semaphores -/

section Tile

variable (d : Dev nD) (L : grid2.Coords)

abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

abbrev sA : Memref sig .scVector .vmem S16384 .i32 := Memref.whole cc2_scratch0
abbrev sB : Memref sig .scVector .vmem S16384 .i32 := Memref.whole cc2_scratch1

abbrev cellA (d : Dev nD) (L : grid2.Coords) : GSem nD τ sig := (thr d L, .dma cc2_scoped0.sem)
abbrev cellB (d : Dev nD) (L : grid2.Coords) : GSem nD τ sig := (thr d L, .dma cc2_scoped1.sem)

theorem ownSems0_V :
    (ownSems0 (thr d L) : sProp 𝕄)
      = iprop(semVal (cellA d L) 0 ∗ semVal (cellB d L) 0
          ∗ bigSep (((ownCells (thr d L)).erase (cellA d L)).erase (cellB d L)) fun g => semVal g 0) := by
  unfold SparseCore.Cfg.ownSems0
  rw [SparseCore.bigSep_erase' ((mem_ownCells (g := cellA d L)).mpr ⟨rfl, by
      show (SemLoc.dma cc2_scoped0.sem : SemLoc sig).isScoped .scVector = true; decide⟩),
    SparseCore.bigSep_erase' (Finset.mem_erase.mpr ⟨by simp [cellA, cellB]; decide, (mem_ownCells (g := cellB d L)).mpr ⟨rfl, by
      show (SemLoc.dma cc2_scoped1.sem : SemLoc sig).isScoped .scVector = true; decide⟩⟩)]

/-- The two scratch buffers are among the subcore's own: they are them, at some contents, and the rest. -/
theorem ownBufs_V :
    (ownBufs (thr d L) : sProp 𝕄)
      = iprop((∃ f, (thr d L).loc cc2_scratch0 ↦{fullShare} f) ∗ (∃ f, (thr d L).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

theorem pts_sA (f : Buf (Elt F) ((thr d L).loc cc2_scratch0)) :
    ((sA : Memref sig .scVector .vmem S16384 .i32).view.loc (thr d L) ↦{fullShare} f : sProp 𝕄) = (thr d L).loc cc2_scratch0 ↦{fullShare} f := rfl
theorem pts_sB (f : Buf (Elt F) ((thr d L).loc cc2_scratch1)) :
    ((sB : Memref sig .scVector .vmem S16384 .i32).view.loc (thr d L) ↦{fullShare} f : sProp 𝕄) = (thr d L).loc cc2_scratch1 ↦{fullShare} f := rfl

/-- A chunk of row 0, and of row 1, as the subcore's copy addresses it is the device's array on that chunk. -/
theorem pts_c0 (k : Fin k2_t1_loop.trips) (f : Buf (Elt F) (oLoc d)) :
    ((chunk0 L k).view.loc (thr d L) ↦[(chunk0 L k).view.set]{fullShare} f : sProp 𝕄) = oLoc d ↦[(chunk0 L k).view.set]{fullShare} f := rfl
theorem pts_c1 (k : Fin k2_t1_loop.trips) (f : Buf (Elt F) (oLoc d)) :
    ((chunk1 L k).view.loc (thr d L) ↦[(chunk1 L k).view.set]{fullShare} f : sProp 𝕄) = oLoc d ↦[(chunk1 L k).view.set]{fullShare} f := rfl

variable [FloatOps F]

/-- A chunk pair not yet written, and written. -/
abbrev chunkSome (d : Dev nD) (L : grid2.Coords) (k : Fin k2_t1_loop.trips) : sProp 𝕄 :=
  iprop((∃ f, oLoc d ↦[(chunk0 L k).view.set]{fullShare} f) ∗ (∃ f, oLoc d ↦[(chunk1 L k).view.set]{fullShare} f))
abbrev chunkDone (d : Dev nD) (L : grid2.Coords) (k : Fin k2_t1_loop.trips) : sProp 𝕄 :=
  iprop((oLoc d ↦[(chunk0 L k).view.set]{fullShare} idxBuf (F := F) d) ∗ (oLoc d ↦[(chunk1 L k).view.set]{fullShare} idxBuf (F := F) d))

/-- The subcore's chunks before chunk `n`: those below `n` written, the others as they were handed over. -/
abbrev chunksAt (d : Dev nD) (L : grid2.Coords) (n : Nat) : sProp 𝕄 :=
  bigSep Finset.univ fun k : Fin k2_t1_loop.trips => if k.val < n then chunkDone (F := F) d L k else chunkSome (F := F) d L k

theorem chunksAt_zero : chunksAt (F := F) d L 0 = bigSep Finset.univ fun k : Fin k2_t1_loop.trips => chunkSome (F := F) d L k :=
  bigSep_congr fun k _ => if_neg (Nat.not_lt_zero _)

theorem chunksAt_all : chunksAt (F := F) d L k2_t1_loop.trips = bigSep Finset.univ fun k : Fin k2_t1_loop.trips => chunkDone (F := F) d L k :=
  bigSep_congr fun k _ => if_pos k.isLt

/-- Chunk `k` taken out of the chunks before it is written, -/
theorem chunksAt_take (k : Fin k2_t1_loop.trips) :
    chunksAt (F := F) d L k.val = iprop(chunkSome (F := F) d L k
      ∗ bigSep (Finset.univ.erase k) fun k' : Fin k2_t1_loop.trips => if k'.val < k.val then chunkDone (F := F) d L k' else chunkSome (F := F) d L k') := by
  unfold chunksAt
  rw [SparseCore.bigSep_erase' (Finset.mem_univ k), if_neg (Nat.lt_irrefl _)]

/-- and put back written. -/
theorem chunksAt_put (k : Fin k2_t1_loop.trips) :
    iprop(chunkDone (F := F) d L k
      ∗ bigSep (Finset.univ.erase k) fun k' : Fin k2_t1_loop.trips => if k'.val < k.val then chunkDone (F := F) d L k' else chunkSome (F := F) d L k')
      = chunksAt (F := F) d L (k.val + 1) := by
  unfold chunksAt
  rw [SparseCore.bigSep_erase' (Finset.mem_univ k) (Φ := fun k' : Fin k2_t1_loop.trips => if k'.val < k.val + 1 then chunkDone (F := F) d L k' else chunkSome (F := F) d L k'),
    if_pos (Nat.lt_succ_self _)]
  congr 1
  refine bigSep_congr fun k' hk' => ?_
  have hne : k'.val ≠ k.val := fun e => (Finset.mem_erase.mp hk').1 (Fin.ext e)
  by_cases h : k'.val < k.val
  · rw [if_pos h, if_pos (Nat.lt_succ_of_lt h)]
  · rw [if_neg h, if_neg (by omega)]

/-- Before chunk `n`: the scratch buffers at some contents, both counters at zero, the chunks below `n` written and the
    others as they were handed over, and what the subcore owes with the waits recorded so far. -/
def invO (O : CellTallies nD τ sig (HIx 1)) (W : Waits sig (HIx 1)) (n : Nat) (_ : PUnit) : sProp 𝕄 :=
  iprop(Transfers.MayWaits (thr d L) (none : HIx 1) O
    ∗ (∃ f, (sA : Memref sig .scVector .vmem S16384 .i32).view.loc (thr d L) ↦{fullShare} f)
    ∗ (∃ f, (sB : Memref sig .scVector .vmem S16384 .i32).view.loc (thr d L) ↦{fullShare} f)
    ∗ semVal (cellA d L) 0 ∗ semVal (cellB d L) 0
    ∗ chunksAt (F := F) d L n
    ∗ ∃ W', ⌜∀ p ∈ W', p ∈ W ∨ p.2 = none⌝ ∗ owes (thr d L) O W')

/-- The 16 lanes trip `t` stores. -/
abbrev laneRect (t : Fin k2_t2_loop.trips) : Rect S16384 := Rect.unit (s := S16384) (k2_off1 t) S16.size (k2_off1_inb t)

theorem laneRect_emb (t : Fin k2_t2_loop.trips) (x : S16.Idx) : (laneRect t).emb x = laneAt t x := by
  funext a
  apply Fin.ext
  rw [Rect.emb_apply]
  show k2_off1 t a + 1 * (x a).val = 16 * t.val + (x 0).val
  rw [k2_off1_eq]
  obtain rfl : a = 0 := Subsingleton.elim _ _
  simp

theorem not_mem_laneRect (t : Fin k2_t2_loop.trips) {j : S16384.Idx} (h : (j 0).val < 16 * t.val) : j ∉ (laneRect t).set := by
  intro hm
  obtain ⟨i, _, hi⟩ := (LoadRect.mem_set _).mp hm 0
  have : (laneRect t).off 0 = 16 * t.val := by
    show k2_off1 t 0 = _
    rw [k2_off1_eq]; rfl
  rw [this] at hi
  have h1 : (laneRect t).stride 0 = 1 := rfl
  rw [h1] at hi
  omega

/-- One trip of the filling loop: the lanes below `16 t` are kept, the next 16 are the payload's. -/
theorem fill_step {sp : Space} (v : View sig .scVector sp S16384 .i32) (f : v.ty.Contents (Elt F)) (t : Fin k2_t2_loop.trips)
    (pay : IVec S16 32) (G : S16384.Idx → BitVec 32)
    (hf : ∀ j : S16384.Idx, (j 0).val < 16 * t.val → v.read (Elt F) f j = G j)
    (hpay : ∀ x : S16.Idx, pay x = G (laneAt t x)) :
    ∀ j : S16384.Idx, (j 0).val < 16 * (t.val + 1) → v.read (Elt F) (v.writes (Elt F) f [⟨laneRect t, pay⟩]) j = G j := by
  intro j hj
  by_cases h : (j 0).val < 16 * t.val
  · rw [View.read_writes_apply_of_forall_not_mem v f j _ (by
      intro p hp
      obtain rfl : p = ⟨laneRect t, pay⟩ := by simpa using hp
      exact not_mem_laneRect t h)]
    exact hf j h
  · have hx : (j 0).val - 16 * t.val < 16 := by omega
    have hjx : j = laneAt t (fun a => ⟨(j 0).val - 16 * t.val, by rw [size_S16]; exact hx⟩) := by
      funext a
      obtain rfl : a = 0 := Subsingleton.elim _ _
      apply Fin.ext
      show (j 0).val = 16 * t.val + ((j 0).val - 16 * t.val)
      omega
    rw [hjx, ← laneRect_emb, View.read_writes_cons_emb, laneRect_emb]
    exact hpay _

theorem trips_t2 : k2_t2_loop.trips = 1024 := by decide

/-- What an unmasked write of `w` through a view leaves on the view's own elements, over any prior contents, is any
    contents that read back as `w` through the view. -/
theorem land_gen (c : Thread nD τ) {sp : Space} (v : View sig c.2.kind sp S16384 .i32) (g0 G : Buf (Elt F) (v.loc c))
    (w : S16384.Idx → Elt F .i32) (hG : ∀ y : S16384.Idx, v.read (Elt F) G y = w y) :
    (v.loc c ↦[v.set]{fullShare} v.writes (Elt F) g0 [⟨Rect.whole S16384, w⟩] : sProp 𝕄) = v.loc c ↦[v.set]{fullShare} G := by
  refine pointsTo_congr fun i hi => ?_
  obtain ⟨y, -, rfl⟩ := Finset.mem_map.mp hi
  have h1 := View.read_writes_cons_emb v g0 (Rect.whole S16384) w [] y
  rw [Rect.emb_whole_apply] at h1
  have h2 := hG y
  rw [View.read_apply] at h1 h2
  exact eq_of_heq ((cast_heq _ _).symm.trans ((heq_of_eq (h1.trans h2.symm)).trans (cast_heq _ _)))

/-- A chunk after its copy has landed holds the specification, given the scratch held the chunk's values. -/
theorem land0 (k : Fin k2_t1_loop.trips) (g0 : Buf (Elt F) (oLoc d)) (w : S16384.Idx → Elt F .i32) (hw : ∀ j, w j = valA L k j) :
    ((chunk0 L k).view.loc (thr d L) ↦[(chunk0 L k).view.set]{fullShare} (chunk0 L k).view.writes (Elt F) g0 [⟨Rect.whole S16384, w⟩] : sProp 𝕄)
      = oLoc d ↦[(chunk0 L k).view.set]{fullShare} idxBuf (F := F) d :=
  land_gen (F := F) (thr d L) (chunk0 L k).view g0 (idxBuf (F := F) d) w fun y => (idx_chunk0 (F := F) d L k y).trans (hw y).symm
theorem land1 (k : Fin k2_t1_loop.trips) (g1 : Buf (Elt F) (oLoc d)) (w : S16384.Idx → Elt F .i32) (hw : ∀ j, w j = valB L k j) :
    ((chunk1 L k).view.loc (thr d L) ↦[(chunk1 L k).view.set]{fullShare} (chunk1 L k).view.writes (Elt F) g1 [⟨Rect.whole S16384, w⟩] : sProp 𝕄)
      = oLoc d ↦[(chunk1 L k).view.set]{fullShare} idxBuf (F := F) d :=
  land_gen (F := F) (thr d L) (chunk1 L k).view g1 (idxBuf (F := F) d) w fun y => (idx_chunk1 (F := F) d L k y).trans (hw y).symm

/-- Before trip `t` of chunk `k`'s filling loop: the first `16 t` lanes of each scratch hold the chunk's values. -/
def invI (k : Fin k2_t1_loop.trips) (t : Nat) (_ : PUnit) : sProp 𝕄 :=
  iprop((∃ f, ((sA : Memref sig .scVector .vmem S16384 .i32).view.loc (thr d L) ↦{fullShare} f)
        ∗ ⌜∀ j : S16384.Idx, (j 0).val < 16 * t → (sA : Memref sig .scVector .vmem S16384 .i32).view.read (Elt F) f j = valA L k j⌝)
    ∗ (∃ f, ((sB : Memref sig .scVector .vmem S16384 .i32).view.loc (thr d L) ↦{fullShare} f)
        ∗ ⌜∀ j : S16384.Idx, (j 0).val < 16 * t → (sB : Memref sig .scVector .vmem S16384 .i32).view.read (Elt F) f j = valB L k j⌝))

theorem tile_body (hF : (K (F := F)).Facts) (O : CellTallies nD τ sig (HIx 1)) (W : Waits sig (HIx 1)) (hO : ∀ g, O g none = 0) :
    iprop(levAts (K (F := F)).L (K (F := F)).lev ∗ emp ∗ tileGo (F := F) d L
        ∗ scopedBufs (thr d L) ∗ scopedSems0 (thr d L) ∗ owes (thr d L) O W)
      ⊢ wp frame (wpE (defs₀ (F := F)) 𝒱₀ (thr d L) none) Set.univ
          (cc2__idx_sc L oV (Memref.isWhole_whole _) sA (Memref.isWhole_whole _) sB (Memref.isWhole_whole _) cc2_scoped0 cc2_scoped1)
          fun _ => iprop(tileTd (F := F) d L ∗ scopedBufs (thr d L) ∗ scopedSems0 (thr d L)
            ∗ ∃ W', ⌜∀ p ∈ W', p ∈ W ∨ p.2 = none⌝ ∗ owes (thr d L) O W') := by
  simp only [cc2__idx_sc_eq_skeleton]; unfold cc2__idx_sc_skel
  rw [(K (F := F)).scopedBufs_V hF d (cV L) (jV L), SparseCore.Cfg.scopedSems0_V (Val := Elt F) d (cV L) (jV L), ownSems0_V, ownBufs_V]
  unfold tileGo tileTd
  iintro ⟨#Hlv, -, Hgo, ⟨⟨%fa, Ha⟩, ⟨%fb, Hb⟩, Hbufs⟩, ⟨HsemA, HsemB, Hsems⟩, HO⟩
  ihave Hmw := ((K (F := F)).mayWaits_none (thr := thr d L) hO) $$ Hlv
  ihave Ha' := (Entails.of_eq (pts_sA (F := F) d L _).symm) $$ Ha
  ihave Hb' := (Entails.of_eq (pts_sB (F := F) d L _).symm) $$ Hb
  sl_exec
  sl_for (invO (F := F) d L O W) $$ [Hmw Ha' Hb' HsemA HsemB Hgo HO]
  case region =>
    intro k _
    unfold invO
    rw [chunksAt_take]
    iintro ⟨#Hmw, ⟨%fa, Ha⟩, ⟨%fb, Hb⟩, HsemA, HsemB, ⟨⟨⟨%g0, Hc0⟩, ⟨%g1, Hc1⟩⟩, Hrest⟩, %W', %hW', HO⟩
    sl_exec
    sl_for (invI (F := F) d L k) $$ [Ha Hb]
    case region =>
      intro t _
      unfold invI
      iintro ⟨⟨%fa, Ha, %hfa⟩, ⟨%fb, Hb, %hfb⟩⟩
      sl_exec
      sl_step
      isplitl [Ha]
      · iexists _; isplitl [Ha]; · iexact Ha
        ipureintro
        exact fill_step (F := F) (sA : Memref sig .scVector .vmem S16384 .i32).view fa t _ (valA L k) hfa (pay2_lane L k t)
      · iexists _; isplitl [Hb]; · iexact Hb
        ipureintro
        exact fill_step (F := F) (sB : Memref sig .scVector .vmem S16384 .i32).view fb t _ (valB L k) hfb (pay3_lane L k t)
    · unfold invI
      isplitl [Ha]
      · iexists _; isplitl [Ha]; · iexact Ha
        ipureintro; intro j hj; omega
      · iexists _; isplitl [Hb]; · iexact Hb
        ipureintro; intro j hj; omega
    iintro %_ HI
    unfold invI
    icases HI with ⟨⟨%fa', Ha, %hfa⟩, ⟨%fb', Hb, %hfb⟩⟩
    ihave Hc0' := (Entails.of_eq (pts_c0 (F := F) d L k _).symm) $$ Hc0
    ihave Hc1' := (Entails.of_eq (pts_c1 (F := F) d L k _).symm) $$ Hc1
    sl_exec
    have hlanes : ∀ j : S16384.Idx, (j 0).val < 16 * Scf.trips k2_t2_loop.lb k2_t2_loop.ub k2_t2_loop.st := fun j => by
      have h1 : (j 0).val < 16384 := (j 0).isLt
      have h2 : Scf.trips k2_t2_loop.lb k2_t2_loop.ub k2_t2_loop.st = 1024 := trips_t2
      omega
    sl_unfold_run_names
    ihave Hd0 := (Entails.of_eq (land0 (F := F) d L k g0 _ (fun j => hfa j (hlanes j)))) $$ Hc0'
    ihave Hd1 := (Entails.of_eq (land1 (F := F) d L k g1 _ (fun j => hfb j (hlanes j)))) $$ Hc1'
    sl_step
    rw [← chunksAt_put]
    isplitl [Hmw]; · iexact Hmw
    isplitl [Ha]; · iexists _; iexact Ha
    isplitl [Hb]; · iexists _; iexact Hb
    isplitl [HsemA]; · iexact HsemA
    isplitl [HsemB]; · iexact HsemB
    isplitl [Hd0 Hd1 Hrest]
    · isplitl [Hd0 Hd1]
      · isplitl [Hd0]; · iexact Hd0
        iexact Hd1
      · iexact Hrest
    iexists (insert (SemLoc.dma cc2_scoped1.sem, (default : HIx 1)) (insert (SemLoc.dma cc2_scoped0.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invO
    rw [chunksAt_zero]
    isplitl [Hmw]; · iexact Hmw
    isplitl [Ha']; · iexists _; iexact Ha'
    isplitl [Hb']; · iexists _; iexact Hb'
    isplitl [HsemA]; · iexact HsemA
    isplitl [HsemB]; · iexact HsemB
    isplitl [Hgo]; · iexact Hgo
    iexists W; isplitr
    · ipureintro; exact fun p hp => .inl hp
    · iexact HO
  iintro %_ HI
  unfold invO
  rw [chunksAt_all]
  icases HI with ⟨-, ⟨%fa', Ha⟩, ⟨%fb', Hb⟩, HsemA, HsemB, Hdone, %W', %hW', HO⟩
  sl_exec
  sl_step
  isplitl [Hdone]; · iexact Hdone
  isplitl [Ha Hb Hbufs]
  · isplitl [Ha]; · iexists _; iapply (Entails.of_eq (pts_sA (F := F) d L _)); iexact Ha
    isplitl [Hb]; · iexists _; iapply (Entails.of_eq (pts_sB (F := F) d L _)); iexact Hb
    iexact Hbufs
  isplitl [HsemA HsemB Hsems]
  · isplitl [HsemA]; · iexact HsemA
    isplitl [HsemB]; · iexact HsemB
    iexact Hsems
  iexists W'; isplitr
  · ipureintro; exact hW'
  · iexact HO

end Tile

/-! ## The launch's obligation -/

variable [FloatOps F]

theorem defs₀_vector (c : Fin τ.nSC) (s : Fin τ.nSub) :
    defs₀ (F := F) (.scVector c s) 2 ()
      = SparseCore.onTile hcore2 hsub2 (fun c s => cc2__idx_sc (tileAt c s)
          oV (Memref.isWhole_whole _) sA (Memref.isWhole_whole _) sB (Memref.isWhole_whole _) cc2_scoped0 cc2_scoped1) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem obl : (K (F := F)).TileObl (D (F := F)) 𝒱 (P (F := F)) v₀ 0 := by
  intro d c i O W hO _ _
  simp only [show (P (F := F)).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact (tile_body (F := F) d (tileAt ⟨_, hc.1⟩ ⟨_, hc.2⟩) facts O W hO).trans (wp_mono frame _ _ fun _ => obl_post)

end Tile

/-- The body obligation of the one SparseCore call: every vector subcore's task, from its chunks at any contents to its
    chunks at the specification. -/
theorem tileObl [FloatOps F] : (K (F := F)).TileObl (D (F := F)) 𝒱 (P (F := F)) v₀ 0 := Tile.obl

end Cert.Proof.KB

end
-- ==== Proof.KB.Run.lean ====
/-
  The whole run. On the TensorCore: the two pipelines' regions one after the other, each entered from the region
  boundary with its own cells and duty tokens, then the SparseCore call over the index array split into the subcores'
  chunks, then the reshape. Beside it the two sequencers dispatch, and the 2 x 16 subcores run, the index kernel. The
  launch theorem for such programs turns these into: every weakly fair execution of all the threads terminates
  without a fault, and the final memory holds the six arrays at the contents named here; in particular the argument
  array is as launched.
-/
import proofs.«215737_g33157147525312_cont_8to1_b_501_7_alg».proof.Proof.KB.Segs1
import proofs.«215737_g33157147525312_cont_8to1_b_501_7_alg».proof.Proof.KB.Ghost
import proofs.«215737_g33157147525312_cont_8to1_b_501_7_alg».proof.Proof.KB.Cover
import proofs.«215737_g33157147525312_cont_8to1_b_501_7_alg».proof.Proof.KB.Tile

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the launch deals the TensorCore -/

theorem unscopedBufs_eq (d : Dev nD) (Wb : (b : Ref sig .tc) → Buf (Elt F) ((d.tc : Thread nD τ).loc b)) :
    (unscopedBufs d Wb : sProp 𝕄)
      = iprop(((SparseCore.T d).loc main_arg0 ↦{fullShare} Wb main_arg0) ∗ ((SparseCore.T d).loc main_v0 ↦{fullShare} Wb main_v0)
          ∗ ((SparseCore.T d).loc main_v1_0 ↦{fullShare} Wb main_v1_0) ∗ ((SparseCore.T d).loc main_v1_1 ↦{fullShare} Wb main_v1_1)
          ∗ (oLoc d ↦{fullShare} Wb main_v2) ∗ ((SparseCore.T d).loc main_v3 ↦{fullShare} Wb main_v3)) := by
  unfold unscopedBufs
  rw [show (Finset.univ.filter fun b : Ref sig .tc => ¬ b.isScoped) = {main_arg0, main_v0, main_v1_0, main_v1_1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) :
    (unscopedBufs d (fun b => m ((SparseCore.T d).loc b)) : sProp 𝕄) = held (T d) S6 (W0 m d) := by
  rw [unscopedBufs_eq, held_S6]

/-- The TensorCore's state before the call is what it owes, with its recorded waits bounded, beside the rest. -/
theorem tcSt0_split (d : Dev nD) : ∃ R : sProp 𝕄, (K (F := F)).tcSt EH d 0
    = iprop((∃ W, ⌜(K (F := F)).WBelow (T d) W (8 * 0)⌝ ∗ owes (T d) ((K (F := F)).Otc d 0) W) ∗ R) := ⟨_, rfl⟩

/-- A recorded pair at level 0 sits at the kernels' own index, and conversely. -/
theorem none_of_WBelow (d : Dev nD) (W : Waits sig (HIx 1)) (h : (K (F := F)).WBelow (T d) W (8 * 0)) : ∀ p ∈ W, p.2 = none := by
  intro p hp
  rcases p with ⟨s, _ | q⟩
  · rfl
  · have h1 : (K (F := F)).lev (T d, s) (some q) ≤ 8 * 0 := h _ hp
    have h2 : 0 < (K (F := F)).lev (T d, s) (some q) := (K (F := F)).lev_some_pos (T d, s) q
    omega
theorem WBelow_of_none (d : Dev nD) (W : Waits sig (HIx 1)) (h : ∀ p ∈ W, p.2 = none) : (K (F := F)).WBelow (T d) W (8 * 0) := by
  intro p hp
  rcases p with ⟨s, q⟩
  have hq : q = none := h _ hp
  subst hq
  exact le_of_eq (SparseCore.Cfg.lev_none _ _)

/-- The first region is entered from the launch contents; -/
theorem pre0_intro (d : Dev nD) (r : PrngReg) (Wt : Waits sig (HIx 1)) (hWt : ∀ p ∈ Wt, p.2 = none) :
    iprop(held (T d) S6 (W0 m d) ∗ prngReg d r ∗ owes (T d) ((K (F := F)).Otc d 0) Wt) ⊢ ((reg0 m).pre d : sProp 𝕄) := by
  show _ ⊢ St d (W0 m d)
  unfold St owesN
  iintro ⟨H1, H2, H3⟩
  isplitl [H1]; · iexact H1
  isplitl [H2]; · iexists r; iexact H2
  iexists Wt; isplitr; · ipureintro; exact hWt
  iexact H3
/-- the second from what the first leaves; -/
theorem post0_pre1 (d : Dev nD) : ((reg0 m).post d : sProp 𝕄) ⊢ (reg1 m).pre d := by
  show St d (W1 m d) ⊢ St d (W1 m d)
  exact .rfl
/-- and it leaves the six arrays at the last contents, the register, the debt. -/
theorem post1_elim (d : Dev nD) : ((reg1 m).post d : sProp 𝕄)
    ⊢ iprop(held (T d) S6 (W2 m d) ∗ (∃ r, prngReg d r)
        ∗ ∃ Wt : Waits sig (HIx 1), ⌜∀ p ∈ Wt, p.2 = none⌝ ∗ owes (T d) ((K (F := F)).Otc d 0) Wt) := by
  show St d (W2 m d) ⊢ _
  unfold St owesN
  exact .rfl

/-! ## The pipelines' cells, as the region rule spells them -/

set_option backward.isDefEq.respectTransparency.types false in
/-- The staging cells of the two pipelines are pairwise distinct. -/
theorem phinj' : Function.Injective (Pipeline.cellOf (nD := nD) (τ := τ) (Pipeline.pin (pcfgs (F := F)) adm)) := cellOf_inj
set_option backward.isDefEq.respectTransparency.types false in
theorem cg_conv (p : Fin 2) (d : Dev nD) :
    (Pipeline.cellsGhost (Ix := HIx 1) (Val := Elt F) (Name := ℕ) (U := UU) (Lvl := ℕ) cfgs (EP (F := F)) p d : sProp 𝕄)
      = Pipeline.cellsGhost (Ix := HIx 1) (Val := Elt F) (Name := ℕ) (U := UU) (Lvl := ℕ) (Pipeline.pin (pcfgs (F := F)) adm) (EP (F := F)) p d := rfl
set_option backward.isDefEq.respectTransparency.types false in
theorem tk_conv (p : Fin 2) (d : Dev nD) :
    (Pipeline.toksInit (Ix := HIx 1) (Val := Elt F) (Name := ℕ) (U := UU) (Lvl := ℕ) cfgs (EP (F := F)) p d : sProp 𝕄)
      = Pipeline.toksInit (Ix := HIx 1) (Val := Elt F) (Name := ℕ) (U := UU) (Lvl := ℕ) (Pipeline.pin (pcfgs (F := F)) adm) (EP (F := F)) p d := rfl

/-- The call and the reshape from the contents the second region leaves, the boundary dropped at the end. -/
theorem tail2 (κ : GSem nD τ sig → ℕ) (d : Dev nD) :
    iprop((K (F := F)).ctx EH (P (F := F)) κ ∗ (K (F := F)).tcSt EH d 0 ∗ boundary (T d) ∗ held (T d) S6 (W2 m d))
      ⊢ wp frame (wpE ((K (F := F)).defs (D (F := F))) 𝒱 (SparseCore.T d) none) Set.univ (sc.run d 0)
          fun _ => wp frame (wpE ((K (F := F)).defs (D (F := F))) 𝒱 (SparseCore.T d) none) Set.univ
            (hlo rfl (opFlat (F := F)) (fun _ => (.ret ⟨⟩ : Prog (TpuEff nD τ sig (Elt F) (SparseCore.Sig (ΛP (F := F)) 1) .tc) PUnit)))
            fun _ => iprop(|={Set.univ}=> ((K (F := F)).tcSt EH d 1 ∗ FIN d (W2 m d))) :=
  (tail κ d (W2 m d) (out_split d) (out_join d)).trans
    (wp_mono frame _ _ fun _ => wp_mono frame _ _ fun _ => by
      iintro ⟨H1, -, H3⟩; imodintro; isplitl [H1] <;> iassumption)

/-! ## @main on the TensorCore -/

set_option maxHeartbeats 1000000 in
theorem hmain [∀ e, Nonempty (Elt F e)] (κ : GSem nD τ sig → ℕ) (d : Dev nD) :
    iprop((K (F := F)).ctx EH (P (F := F)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN d (W2 m d)) := by
  obtain ⟨Rst, hRst⟩ := tcSt0_split (F := F) d
  have htail := tail2 m κ d
  rw [hRst] at htail ⊢
  unfold SparseCore.Cfg.tcRes G
  rw [unscoped_held, bigSep_W0, bigSep_W0, cg_conv 0 d, cg_conv 1 d, tk_conv 0 d, tk_conv 1 d]
  simp only [main, wp_bind, wp_pure]
  iintro ⟨#Hctx, ⟨⟨%Wt, %hWt, HO⟩, HR⟩, ⟨Hb, Hheld, -, Hprng⟩, ⟨Hcg0, Hcg1⟩, ⟨Htk0, Htk1⟩⟩
  ihave Hlev := (SparseCore.Cfg.ctx_levAts κ) $$ Hctx
  iapply (wp_region (pdats m) phinj' (reg0 m) d _) $$ [HO HR Hb Hheld Hprng Hcg0 Hcg1 Htk0 Htk1]
  isplitl [HR Hcg1 Htk1]
  swap
  · isplitl [Hb]; · iexact Hb
    isplitl [Hheld Hprng HO]
    · iapply (pre0_intro m d (ρ d) Wt (none_of_WBelow d Wt hWt))
      isplitl [Hheld]; · iexact Hheld
      isplitl [Hprng]; · iexact Hprng
      iexact HO
    isplitr; · iexact Hlev
    isplitl [Hcg0]; · iexact Hcg0
    iexact Htk0
  iintro ⟨Hb, Hpost⟩
  iapply (wp_region (pdats m) phinj' (reg1 m) d _) $$ [HR Hb Hpost Hcg1 Htk1]
  isplitl [HR]
  swap
  · isplitl [Hb]; · iexact Hb
    isplitl [Hpost]; · iapply (post0_pre1 m d); iexact Hpost
    isplitr; · iexact Hlev
    isplitl [Hcg1]; · iexact Hcg1
    iexact Htk1
  iintro ⟨Hb, Hpost⟩
  ihave Hpost' := (post1_elim m d) $$ Hpost
  icases Hpost' with ⟨Hheld, -, ⟨%Wt', %hWt', HO⟩⟩
  iapply htail $$ [HR Hb Hheld HO]
  isplitr; · iexact Hctx
  isplitl [HO HR]
  · isplitl [HO]
    · iexists Wt'; isplitr; · ipureintro; exact WBelow_of_none d Wt' hWt'
      iexact HO
    iexact HR
  isplitl [Hb]; · iexact Hb
  iexact Hheld

/-! ## Reading the final memory -/

/-- The final memory holds the six arrays at the valuation the TensorCore returns with. -/
abbrev fq (d : Dev nD) (s' : Phys nD τ sig (Elt F)) : Prop :=
  ∀ b ∈ S6, s'.mem.mem ((SparseCore.T (τ := τ) d).1, b) = (opFlat (F := F)).result (Wcall d (W2 m d)) b

theorem hfin (d : Dev nD) (s' : Phys nD τ sig (Elt F)) : iprop(FIN d (W2 m d) ∗ SI s') ⊢ (⌜fq m d s'⌝ : sProp 𝕄) := by
  unfold FIN held
  iintro ⟨Hh, HSI⟩
  ihave H := (pointsTo_read_all S6 (fun b => ((SparseCore.T (τ := τ) d).1, b)) ((opFlat (F := F)).result (Wcall d (W2 m d))) s') $$ [Hh HSI]
  · isplitl [Hh] <;> iassumption
  icases H with ⟨%h, -⟩
  ipureintro; exact h

/-! ## The run -/

/-- Every final memory has the six arrays at the returned valuation, on every device. -/
abbrev QC : PUnit × MemSt nD τ sig (Elt F) → Prop :=
  fun r => ∀ d : Dev nD, ∀ b ∈ S6, r.2.mem ((SparseCore.T (τ := τ) d).1, b) = (opFlat (F := F)).result (Wcall d (W2 m d)) b

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (F := F)) facts v₀
    (fun q hq => match q with | 0 => nomatch hq)
    (fun q _ => match q with | 0 => tileObl)
    (fun q _ => match q with | 0 => SparseCore.Cfg.VecSplit.of_plain vecSplit)
    m ρ main (fun d => G (F := F) d) (fun d => FIN d (W2 m d)) (u₀ (F := F)) hu₀ (hmain m ρ) (fq m) (hfin m) (QC m)
    (fun _ h d => h d)

/-- The argument array ends as launched. -/
theorem arg_kept (d : Dev nD) : (opFlat (F := F)).result (Wcall d (W2 m d)) rArg0 = m ((SparseCore.T d).loc main_arg0) := by
  rw [(opFlat (F := F)).result_of_not_mem _ (b := rArg0) (show rArg0 ∉ ({rV3} : Finset (DevRef τ sig)) by decide),
    Wcall_of_ne d _ rArg0 (by decide), W2_of_ne m d rArg0 (by decide) (by decide), W1_of_ne m d rArg0 (by decide)]

/-- The frame: the run, read at the argument array. -/
theorem frame [∀ e, Nonempty (Elt F e)] :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)) :=
  (θ_run _ _ _).mono (fun _ h c => (h c rArg0 (by decide)).trans (arg_kept m c)) (run_main m ρ)

end Cert.Proof.KB

end
-- ==== Proof.KI.Common.lean ====
/-
  The vocabulary the kernel's run is stated in. The program is three calls on one device: two TensorCore
  pipelines (the row normalisation of the 4096 x 128 array; the 16 blocks of 256 rows of the clamped,
  diagonal-free Gram matrix, stored once as 256 x 4096 and once re-laid as 8192 x 128) and one SparseCore call
  whose 2 x 16 vector subcores each fill 524288 consecutive columns of the 2 x 16777216 index array, 16384
  columns at a time: row 0 the column number shifted right by 12, row 1 its low 12 bits.
  Here: the launch's configuration and body table, the ghost state (the handshakes' rounds, the pipelines' rounds and
  the transfers' counters side by side), the index array's chunks as the subcores slice them, and what the
  handshakes carry: a subcore is handed its 32 + 32 chunks at any contents and hands them back at `idxG`.
-/
import proofs.«215737_g33157147525312_cont_8to1_b_501_7_alg».proof.KernelIdeal
import proofs.«215737_g33157147525312_cont_8to1_b_501_7_alg».proof.Proof.Gen.KernelIdeal
import proofs.«215737_g33157147525312_cont_8to1_b_501_7_alg».proof.Proof.Gen.KernelIdeal.Skeleton
import proofs.«215737_g33157147525312_cont_8to1_b_501_7_alg».proof.Proof.Gen.KernelIdeal.Launch
import proofs.«215737_g33157147525312_cont_8to1_b_501_7_alg».proof.Proof.Gen.KernelIdeal.Points
import proofs.«215737_g33157147525312_cont_8to1_b_501_7_alg».proof.Proof.SpecIdx
import Idealize.ShloMosaic.Lib.SparseCore.Launch
import Idealize.ShloMosaic.Lib.Pipeline.Kit
import Idealize.ShloMosaic.Lib.Pipeline.Frame
import Idealize.ShloMosaic.Lib.Pipeline.Regions
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

abbrev UH : Type := URounds (GSem nD τ sig) ℕ
abbrev UU : Type := UH × Pipeline.UD sig nD τ

local notation "𝕄" => MT nD τ sig (HIx 1) (Elt F) ℕ UU ℕ

/-- The handshakes' component, on the left. -/
abbrev EH : Emb UH (MT nD τ sig (HIx 1) (Elt F) ℕ UU ℕ) := embL
/-- The pipelines' component: the left of the right. -/
def EP : Emb (UR sig nD τ) (MT nD τ sig (HIx 1) (Elt F) ℕ UU ℕ) :=
  (Emb.inl : Emb (UR sig nD τ) (Pipeline.UD sig nD τ)).trans embR

instance EP_landsIn : (EP : Emb (UR sig nD τ) 𝕄).LandsIn (upEmb : UEmb _ 𝕄) := by unfold EP embR; infer_instance

/-! ## The index array and its chunks -/

/-- The index array as the device's location, and as a vector subcore addresses it. -/
abbrev oLoc (d : Dev nD) : Loc nD τ sig := (SparseCore.T d).loc main_v2
abbrev oV : Memref sig .scVector .hbm S2x16777216 .i32 := Memref.whole main_v2_scv

/-- The subcore at core `c`, position `s`, as a point of the call's grid. -/
def tileAt (c : Fin 2) (s : Fin 16) : grid2.Coords := fun | 0 => c | 1 => s | ⟨_ + 2, h⟩ => absurd h (Nat.not_lt.2 (Nat.le_add_left _ _))

/-- Chunk `k` of subcore `L` in row 0 and in row 1: 16384 consecutive columns from
    `1048576 * L 1 + 524288 * L 0 + 16384 * k`, sliced and squeezed as the subcore does. -/
abbrev rect0 (L : grid2.Coords) (k : Fin k2_t1_loop.trips) : Rect S2x16777216 := Rect.unit (s := S2x16777216) (k2_off2 L k) S1x16384.size (k2_off2_inb L k)
abbrev rect1 (L : grid2.Coords) (k : Fin k2_t1_loop.trips) : Rect S2x16777216 := Rect.unit (s := S2x16777216) (k2_off3 L k) S1x16384.size (k2_off3_inb L k)
abbrev chunk0 (L : grid2.Coords) (k : Fin k2_t1_loop.trips) : Memref sig .scVector .hbm S16384 .i32 :=
  ((oV : Memref sig .scVector .hbm S2x16777216 .i32).slice (rect0 L k) (fun _ => rfl)).squeeze S16384 squeezes_S1x16384_S16384
abbrev chunk1 (L : grid2.Coords) (k : Fin k2_t1_loop.trips) : Memref sig .scVector .hbm S16384 .i32 :=
  ((oV : Memref sig .scVector .hbm S2x16777216 .i32).slice (rect1 L k) (fun _ => rfl)).squeeze S16384 squeezes_S1x16384_S16384

/-- The index array's final contents (the specification's), at the buffer's type. -/
abbrev idxBuf (d : Dev nD) : Buf (Elt F) (oLoc d) := Cert.Proof.Math.idxG

variable [FloatOps F]

/-- What a subcore is handed: its chunks, each at some contents; -/
def tileGo (d : Dev nD) (L : grid2.Coords) : sProp 𝕄 :=
  bigSep Finset.univ fun k : Fin k2_t1_loop.trips =>
    iprop((∃ f, oLoc d ↦[(chunk0 L k).view.set]{fullShare} f) ∗ (∃ f, oLoc d ↦[(chunk1 L k).view.set]{fullShare} f))
/-- and what it hands back: the same chunks at the specification. -/
def tileTd (d : Dev nD) (L : grid2.Coords) : sProp 𝕄 :=
  bigSep Finset.univ fun k : Fin k2_t1_loop.trips =>
    iprop((oLoc d ↦[(chunk0 L k).view.set]{fullShare} idxBuf (F := F) d) ∗ (oLoc d ↦[(chunk1 L k).view.set]{fullShare} idxBuf (F := F) d))

/-- The one SparseCore call: a core is handed its sixteen subcores' chunks, a subcore its own. -/
def P : (K (F := F)).Pay (nD := nD) (Val := Elt F) (Name := ℕ) (U := UU) where
  st := fun q d c => match q with | 0 => bigSep Finset.univ fun s : Fin 16 => tileGo d (tileAt (Fin.cast nCore_zero c) s)
  dn := fun q d c => match q with | 0 => bigSep Finset.univ fun s : Fin 16 => tileTd d (tileAt (Fin.cast nCore_zero c) s)
  go := fun q d c i => match q with | 0 => tileGo d (tileAt (Fin.cast nCore_zero c) (Fin.cast nSub_zero i))
  td := fun q d c i => match q with | 0 => tileTd d (tileAt (Fin.cast nCore_zero c) (Fin.cast nSub_zero i))
  x := fun _ _ => iprop(emp)

instance P_storable : (P (F := F)).IsStorable where
  st q d c := match q with | 0 => by unfold P tileGo; infer_instance
  dn q d c := match q with | 0 => by unfold P tileTd; infer_instance
  go q d c i := match q with | 0 => by unfold P tileGo; infer_instance
  td q d c i := match q with | 0 => by unfold P tileTd; infer_instance

end Cert.Proof.KI

end
-- ==== Proof.KI.Region.lean ====
/-
  A TensorCore pipeline's region inside the SparseCore program. @main's call of pipeline `p` is the pipeline
  library's call lifted to the extended body table, so the library's region rule applies to it unchanged: from the
  region boundary, the state the region is entered from, the level facts and the pipeline's cells and duty tokens, the
  call runs to the boundary and the state the region leaves.
-/
import proofs.«215737_g33157147525312_cont_8to1_b_501_7_alg».proof.Proof.KI.Common
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- No pipeline has a prefetched table. -/
abbrev adm : (p : Fin 2) → (pcfgs (F := F) p).Adm := fun p => (cfgs p).toPCfg_adm

variable (pdats : (p : Fin 2) → (c : Dev nD) → Pipeline.Dat τ (Elt F) (HIx 1) ℕ UU ℕ (Pipeline.pin (pcfgs (F := F)) adm p) c)

set_option backward.isDefEq.respectTransparency.types false in
/-- The region rule at @main's call of pipeline `p`, under the extended body table. -/
theorem wp_region [∀ e, Nonempty (Elt F e)] {p : Fin 2}
    (phinj : Function.Injective (Pipeline.cellOf (nD := nD) (τ := τ) (Pipeline.pin (pcfgs (F := F)) adm)))
    (R : Pipeline.RegionSeg (pcfgs (F := F)) adm pdats (none : HIx 1) defs₀ 𝒱₀ (K (F := F)).L (K (F := F)).lev p) (d : Dev nD)
    (Φ : PUnit → sProp 𝕄) :
    iprop((iprop(boundary (T d) ∗ R.post d) -∗ Φ ⟨⟩)
        ∗ boundary (T d) ∗ R.pre d ∗ levAts (K (F := F)).L (K (F := F)).lev
        ∗ Pipeline.cellsGhost (Ix := HIx 1) (Val := Elt F) (Name := ℕ) (U := UU) (Lvl := ℕ) (Pipeline.pin (pcfgs (F := F)) adm) (EP (F := F)) p d
        ∗ Pipeline.toksInit (Ix := HIx 1) (Val := Elt F) (Name := ℕ) (U := UU) (Lvl := ℕ) (Pipeline.pin (pcfgs (F := F)) adm) (EP (F := F)) p d)
      ⊢ wp frame (wpE ((K (F := F)).defs (D (F := F))) 𝒱 (SparseCore.T d) none) Set.univ
          (Prog.lift (.customCall (SparseCore.inner (Pipeline.entry p)) ())) Φ := by
  have hwp := R.wp (pcfgs (F := F)) adm pdats (none : HIx 1) phinj (EP (F := F)) defs₀ 𝒱₀ (K (F := F)).L (K (F := F)).lev d none
    (fun _ h => nomatch h) (fun u => .ret u) Φ
  have hlift := (K (F := F)).wp_liftProg (D (F := F)) 𝒱 (SparseCore.T d) Set.univ none
    (Prog.op (.customCall (Pipeline.entry p) ()) fun u => .ret u) Φ
  refine BIBase.Entails.trans ?_ hlift
  refine BIBase.Entails.trans ?_ hwp
  iintro ⟨Hk, Hb, Hpre, Hlev, Hg, Ht⟩
  isplitl [Hk]
  · iintro H
    rw [wp_ret]; imodintro
    iapply Hk; iexact H
  isplitl [Hb]; · iexact Hb
  isplitl [Hpre]; · iexact Hpre
  isplitl [Hlev]; · iexact Hlev
  isplitl [Hg] <;> iassumption

end Cert.Proof.KI

end
-- ==== Proof.KI.Inv.lean ====
/-
  What a region's kernel body may use of its TensorCore and need not describe: the core's scoped buffers that
  no window of the region stages, each whole at some contents, and the core's generator register at some state.
  Neither kernel body of this program touches either, so this is carried across every point unchanged.
-/
import proofs.«215737_g33157147525312_cont_8to1_b_501_7_alg».proof.Proof.KI.Common

noncomputable section

namespace Cert.Proof.KI

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.Sem

variable {F : FTy → Type}

local notation "𝕄" => MT nD τ sig (HIx 1) (Elt F) ℕ UU ℕ

/-- The region invariant on core `c` for the windows `win`: the scoped buffers outside the windows' staging
    buffers, and the generator register. -/
def Φreg {gr W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

end Cert.Proof.KI

end
-- ==== Proof.KI.Reg0.lean ====
/-
  Region 0: the row normalisation, as one pipeline point. The call has no grid, so its single point stages the
  whole 4096 x 128 input array, the body divides every row by the larger of its Euclidean norm and 1e-8, and the
  whole result is written back. Stated at the contents `V` the TensorCore's buffers hold when the region is
  entered, for any float instance: the block each window stages, what the body leaves in the output window's
  buffer, the body's triple, the pipeline's proof data with the body obligation, and the two arrays after the
  region in closed form (the input as found, the output the normalisation of the input array).
-/
import proofs.«215737_g33157147525312_cont_8to1_b_501_7_alg».proof.Proof.KI.Inv
import Idealize.ShloMosaic.Lib.Pipeline.FrameBody
import Idealize.ShloMosaic.Lib.Pipeline.Value
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The windows' blocks -/

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block when the body runs, for any proof data over the entry
    contents whose body leaves that block where it found it. -/
theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The one rectangle the body loads and stores through: the whole 4096 x 128 buffer. -/
abbrev r0_0 : Rect S4096x128 := Rect.unit (s := S4096x128) ![0, 0] S4096x128.size inb_S4096x128_S4096x128_0_0

/-- The output buffer after the body: its single store, of the normalisation of what was loaded from the input
    buffer, laid over the whole buffer. -/
def out0_1 (x0 : Vec F S4096x128 .f32) : Vec F S4096x128 .f32 :=
  View.canon [⟨r0_0, k0_pay1 (View.ld x0 r0_0)⟩]

/-- That store covers the buffer. -/
theorem cover0_1 (p0 : Vec F S4096x128 .f32) (y : S4096x128.Idx) :
    ∃ pc ∈ ([⟨r0_0, p0⟩] : List (View.Piece (Elt F) S4096x128 .f32)), y ∈ pc.1.set :=
  View.cover_of_tiled [⟨r0_0, p0⟩] S4096x128.size (by rfl) y

/-! ## The body's triple -/

set_option maxHeartbeats 1000000 in
/-- On whole memrefs, the input's at contents read as `x0` and the output's at anything, the body runs to the
    input's unchanged and the output's at `out0_1 x0`. (It loads the output buffer before storing into it; the
    loaded value is not used.) -/
theorem sound_kernel0 (c : Dev nD) (E : Set ℕ) (arg0 : Memref sig .tc .vmem S4096x128 .f32) (harg0 : arg0.IsWhole) (arg1 : Memref sig .tc .vmem S4096x128 .f32) (harg1 : arg1.IsWhole)
    (x0 : Vec F S4096x128 .f32) (Q : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ Q ⟨⟩))
      ⊢ wp frame (wpE (defs₀ (F := F)) Variants.none c none) E (cc0__norm_body arg0 harg0 arg1 harg1) Q := by
  simp only [cc0__norm_body_eq_skeleton]; unfold cc0__norm_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- Pipeline 0's proof data on core `c`: the arrays at the entry contents; after the body the input buffer at
    its block and the output buffer at `out0_1` of that block; the invariant `Φreg`; full shares; what the
    TensorCore owes the SparseCores' start signals, the same at every point; its recorded waits at index `none`. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => out0_1 (iblk0 V c 0 t)
  Φ _ := Φreg spec0 c
  q _ := fullShare
  owed _ := (K (F := F)).Otc c 0
  recorded _ := {p : SemLoc sig × HIx 1 | p.2 = none}

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt (none : HIx 1) t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt (none : HIx 1) t.succ
    ∗ owns (c : Thread nD τ) (st0_0 t) fullShare ((dat0 V c).after 0 t)
    ∗ owns (c : Thread nD τ) (st0_1 t) fullShare ((dat0 V c).after 1 t))

/-- The body at the point: the input's memref holds its block, so the triple applies; the invariant and what the
    core owes are the same before and after and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt (none : HIx 1) t.succ = (dat0 V c).owesAt (none : HIx 1) t.castSucc from rfl,
    after0_0, after0_1]
  iintro ⟨HΦ, Ho, ⟨%d0, H0⟩, ⟨%d1, H1⟩⟩
  iapply (sound_kernel0 c Set.univ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none (none : HIx 1) Set.univ := fun t => by
  rw [bigSep_W0, bigSep_W0]
  exact sound_body0 V c t

end Cert.Proof.KI

end
-- ==== Proof.KI.Reg1.lean ====
/-
  Region 1: the clamped, diagonal-free Gram matrix, sixteen pipeline points. Point `t` stages rows
  256 t .. 256 t + 255 of the normalised 4096 x 128 array (window 0) beside the whole array (window 1, staged
  once at the first point and kept); the body multiplies the row block by the transpose of the whole array,
  clamps below at zero, zeroes the entries whose global row equals their column, and stores the 256 x 4096
  result once as it is (window 2) and once re-laid row-major as 8192 x 128 (window 3); both are written back at
  every point. The two input windows read one array, so each holds half of its share. Stated at the contents
  `V` the TensorCore's buffers hold when the region is entered, for any float instance: the windows' blocks,
  what the body leaves in the two output buffers, the body's triple, the proof data and the body obligation.
-/
import proofs.«215737_g33157147525312_cont_8to1_b_501_7_alg».proof.Proof.KI.Inv
import Idealize.ShloMosaic.Lib.Pipeline.FrameBody
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The windows' blocks -/

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block when the body runs, for any proof data over the entry
    contents whose body leaves that block where it found it. -/
theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole-array window's staging buffer holds the array at every point, though it is staged at the first
    only: its block index never moves, so what the body left is still this point's block. -/
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output windows' buffers -/

/-- The rectangles the body loads and stores through: each buffer whole. -/
abbrev r1_0 : Rect S256x128 := Rect.unit (s := S256x128) ![0, 0] S256x128.size inb_S256x128_S256x128_0_0
abbrev r1_1 : Rect S4096x128 := Rect.unit (s := S4096x128) ![0, 0] S4096x128.size inb_S4096x128_S4096x128_0_0
abbrev r1_2 : Rect S256x4096 := Rect.unit (s := S256x4096) ![0, 0] S256x4096.size inb_S256x4096_S256x4096_0_0
abbrev r1_3 : Rect S8192x128 := Rect.unit (s := S8192x128) ![0, 0] S8192x128.size inb_S8192x128_S8192x128_0_0

/-- The 256 x 4096 buffer after the body at grid coordinates `i`: its single store, of the clamped diagonal-free
    product of the loaded row block and the loaded whole array, over the whole buffer. -/
def out1_2 (i : grid1.Coords) (x0 : Vec F S256x128 .f32) (x1 : Vec F S4096x128 .f32) : Vec F S256x4096 .f32 :=
  View.canon [⟨r1_2, k1_pay1 i (View.ld x0 r1_0) (View.ld x1 r1_1)⟩]

/-- The 8192 x 128 buffer after the body: the same values re-laid row-major, over the whole buffer. -/
def out1_3 (i : grid1.Coords) (x0 : Vec F S256x128 .f32) (x1 : Vec F S4096x128 .f32) : Vec F S8192x128 .f32 :=
  View.canon [⟨r1_3, k1_pay2 i (View.ld x0 r1_0) (View.ld x1 r1_1)⟩]

/-- Each store covers its buffer. -/
theorem cover1_2 (p0 : Vec F S256x4096 .f32) (y : S256x4096.Idx) :
    ∃ pc ∈ ([⟨r1_2, p0⟩] : List (View.Piece (Elt F) S256x4096 .f32)), y ∈ pc.1.set :=
  View.cover_of_tiled [⟨r1_2, p0⟩] S256x4096.size (by rfl) y

theorem cover1_3 (p0 : Vec F S8192x128 .f32) (y : S8192x128.Idx) :
    ∃ pc ∈ ([⟨r1_3, p0⟩] : List (View.Piece (Elt F) S8192x128 .f32)), y ∈ pc.1.set :=
  View.cover_of_tiled [⟨r1_3, p0⟩] S8192x128.size (by rfl) y

/-! ## The body's triple -/

set_option maxHeartbeats 1000000 in
/-- On whole memrefs, the inputs' at contents read as `x0`, `x1` and the outputs' at anything, the body at grid
    coordinates `i` runs to the inputs' unchanged and the outputs' at `out1_2`, `out1_3`. (It loads each output
    buffer before storing into it; the loaded values are not used.) -/
theorem sound_kernel1 (c : Dev nD) (E : Set ℕ) (i : grid1.Coords)
    (arg1 : Memref sig .tc .vmem S256x128 .f32) (harg1 : arg1.IsWhole) (arg2 : Memref sig .tc .vmem S4096x128 .f32) (harg2 : arg2.IsWhole)
    (arg3 : Memref sig .tc .vmem S256x4096 .f32) (harg3 : arg3.IsWhole) (arg4 : Memref sig .tc .vmem S8192x128 .f32) (harg4 : arg4.IsWhole)
    (x0 : Vec F S256x128 .f32) (x1 : Vec F S4096x128 .f32) (Q : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1_2 i x0 x1) ∗ owns (c : Thread nD τ) arg4 fullShare (out1_3 i x0 x1)) -∗ Q ⟨⟩))
      ⊢ wp frame (wpE (defs₀ (F := F)) Variants.none c none) E (cc1__main_body i arg1 harg1 arg2 harg2 arg3 harg3 arg4 harg4) Q := by
  simp only [cc1__main_body_eq_skeleton]; unfold cc1__main_body_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The pipeline's proof data -/

/-- Pipeline 1's proof data on core `c`: the arrays at the entry contents; after the body at point `t` each
    input buffer at its block and each output buffer at `out1_2` / `out1_3` of the input blocks at the point's grid
    coordinates; the invariant `Φreg`; the shared input array's share split in halves between the two windows
    that read it; what the TensorCore owes the SparseCores' start signals, the same at every point; its recorded
    waits at index `none`. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
    | ⟨3, _⟩ => out1_3 (grid1.coords t) (iblk1 V c 0 t) (iblk1 V c 1 t)
  Φ _ := Φreg spec1 c
  q := fun w => match w with
    | ⟨0, _⟩ => fullShare.left
    | ⟨1, _⟩ => fullShare.right
    | ⟨2, _⟩ => fullShare
    | ⟨3, _⟩ => fullShare
  owed _ := (K (F := F)).Otc c 0
  recorded _ := {p : SemLoc sig × HIx 1 | p.2 = none}

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (grid1.coords t) (iblk1 V c 0 t) (iblk1 V c 1 t) := by dsimp only [dat1]
theorem after1_3 (c : Dev nD) (t : Fin cfg1.N) : (dat1 V c).after 3 t = out1_3 (grid1.coords t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt (none : HIx 1) t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt (none : HIx 1) t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies at the point's grid
    coordinates; the invariant and what the core owes are the same before and after and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt (none : HIx 1) t.succ = (dat1 V c).owesAt (none : HIx 1) t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none (none : HIx 1) Set.univ := fun t => by
  rw [bigSep_W1, bigSep_W1]
  exact sound_body1 V c t

end Cert.Proof.KI

end
-- ==== Proof.KI.Tail.lean ====
/-
  The end of the TensorCore's program: the SparseCore call and the reshape. At the call the TensorCore holds its six
  arrays whole; it hands the index array to the two SparseCores as the 2 x 16 subcores' chunks (the chunks partition
  the array) and gets them back at the specified contents; the reshape then copies the 131072 x 128 array into the
  flat one. Every other array is as the two pipelines left it.
-/
import proofs.«215737_g33157147525312_cont_8to1_b_501_7_alg».proof.Proof.KI.Common
import Idealize.ShloMosaic.Lib.StableHlo.Run

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-! ## The TensorCore's arrays -/

abbrev rArg0 : DevRef τ sig := Proc.devRef .tc (main_arg0 : Ref sig .tc)
abbrev rV0 : DevRef τ sig := Proc.devRef .tc (main_v0 : Ref sig .tc)
abbrev rV10 : DevRef τ sig := Proc.devRef .tc (main_v1_0 : Ref sig .tc)
abbrev rV11 : DevRef τ sig := Proc.devRef .tc (main_v1_1 : Ref sig .tc)
abbrev rV2 : DevRef τ sig := Proc.devRef .tc (main_v2 : Ref sig .tc)
abbrev rV3 : DevRef τ sig := Proc.devRef .tc (main_v3 : Ref sig .tc)

/-- The six unscoped arrays. -/
abbrev S6 : Finset (DevRef τ sig) := {rArg0, rV0, rV10, rV11, rV2, rV3}

theorem held_S6 (d : Dev nD) (W : Valuation τ sig (Elt F)) :
    (held (T d) S6 W : sProp 𝕄)
      = iprop(((SparseCore.T d).loc main_arg0 ↦{fullShare} W rArg0) ∗ ((SparseCore.T d).loc main_v0 ↦{fullShare} W rV0)
          ∗ ((SparseCore.T d).loc main_v1_0 ↦{fullShare} W rV10) ∗ ((SparseCore.T d).loc main_v1_1 ↦{fullShare} W rV11)
          ∗ (oLoc d ↦{fullShare} W rV2) ∗ ((SparseCore.T d).loc main_v3 ↦{fullShare} W rV3)) := by
  unfold held S6
  rw [SparseCore.bigSep_insert' (by decide), SparseCore.bigSep_insert' (by decide), SparseCore.bigSep_insert' (by decide),
    SparseCore.bigSep_insert' (by decide), SparseCore.bigSep_insert' (by decide), bigSep_singleton]

variable [FloatOps F]

/-- The reshape of the re-laid matrix into the flat result. -/
abbrev opFlat : HloOp τ sig (Elt F) := StableHlo.reshape main_v1_1 main_v3 rfl shapeCasts_S131072x128_S16777216

theorem hFlat : (opFlat (F := F)).bufs ⊆ S6 := show ({rV11, rV3} : Finset (DevRef τ sig)) ⊆ S6 by decide

/-- The arrays after the call: the index array at the specification. -/
def Wcall (d : Dev nD) (W : Valuation τ sig (Elt F)) : Valuation τ sig (Elt F) := Function.update W rV2 (idxBuf (F := F) d)

theorem Wcall_v2 (d : Dev nD) (W : Valuation τ sig (Elt F)) : Wcall d W rV2 = idxBuf (F := F) d := Function.update_self _ _ _
theorem Wcall_of_ne (d : Dev nD) (W : Valuation τ sig (Elt F)) (b : DevRef τ sig) (h : b ≠ rV2) : Wcall d W b = W b := Function.update_of_ne h _ _

/-- What the TensorCore holds at its return. -/
abbrev FIN (d : Dev nD) (W : Valuation τ sig (Elt F)) : sProp 𝕄 := held (T d) S6 ((opFlat (F := F)).result (Wcall d W))

/-- What the call takes for the two SparseCores, and what it hands back. -/
theorem st0_eq (d : Dev nD) : (bigSep Finset.univ fun c : Fin ((K (F := F)).nCore 0) => (P (F := F)).st 0 d c)
    = bigSep Finset.univ fun c : Fin 2 => bigSep Finset.univ fun s : Fin 16 => tileGo (F := F) d (tileAt c s) := rfl
theorem dn0_eq (d : Dev nD) : (bigSep Finset.univ fun c : Fin ((K (F := F)).nCore 0) => (P (F := F)).dn 0 d c)
    = bigSep Finset.univ fun c : Fin 2 => bigSep Finset.univ fun s : Fin 16 => tileTd (F := F) d (tileAt c s) := rfl

/-- The call and the reshape, from the six arrays at `W`. -/
theorem tail (κ : GSem nD τ sig → ℕ) (d : Dev nD) (W : Valuation τ sig (Elt F))
    (hsplit : ∀ f : Buf (Elt F) (oLoc d), (oLoc d ↦{fullShare} f : sProp 𝕄)
      ⊢ bigSep Finset.univ fun c : Fin 2 => bigSep Finset.univ fun s : Fin 16 => tileGo (F := F) d (tileAt c s))
    (hjoin : (bigSep Finset.univ fun c : Fin 2 => bigSep Finset.univ fun s : Fin 16 => tileTd (F := F) d (tileAt c s))
      ⊢ (oLoc d ↦{fullShare} idxBuf (F := F) d : sProp 𝕄)) :
    iprop((K (F := F)).ctx EH (P (F := F)) κ ∗ (K (F := F)).tcSt EH d 0 ∗ boundary (T d) ∗ held (T d) S6 W)
      ⊢ wp frame (wpE ((K (F := F)).defs (D (F := F))) 𝒱 (SparseCore.T d) none) Set.univ (sc.run d 0)
          fun _ => wp frame (wpE ((K (F := F)).defs (D (F := F))) 𝒱 (SparseCore.T d) none) Set.univ
            (hlo rfl (opFlat (F := F)) (fun _ => (.ret ⟨⟩ : Prog (TpuEff nD τ sig (Elt F) (SparseCore.Sig (ΛP (F := F)) 1) .tc) PUnit)))
            fun _ => iprop((K (F := F)).tcSt EH d 1 ∗ boundary (T d) ∗ FIN d W) := by
  iintro ⟨#Hctx, Hst, Hb, Hheld⟩
  ihave Hh := (Entails.of_eq (held_S6 (F := F) d _)) $$ Hheld
  icases Hh with ⟨Ha, H0, H10, H11, H2, H3⟩
  iapply ((K (F := F)).wp_run (D (F := F)) 𝒱 (EH := EH) (P := P (F := F)) κ d 0) $$ [Hst Ha H0 H10 H11 H2 H3 Hb]
  isplitr; · iexact Hctx
  isplitl [Hst]; · iexact Hst
  isplitl [H2]
  · rw [st0_eq]; iapply (hsplit _); iexact H2
  iintro ⟨Hst, Hdn⟩
  ihave Hdn' := (Entails.of_eq (dn0_eq (F := F) d)) $$ Hdn
  ihave H2 := hjoin $$ Hdn'
  iapply (wp_hlo_within 𝒱 (SparseCore.T d) none Set.univ (op := opFlat (F := F)) (S := S6) hFlat (V := Wcall d W)) $$ [Hb Ha H0 H10 H11 H2 H3]
  · isplitl [Hb]; · iexact Hb
    rw [held_S6, Wcall_v2, Wcall_of_ne d W rArg0 (by decide), Wcall_of_ne d W rV0 (by decide), Wcall_of_ne d W rV10 (by decide),
      Wcall_of_ne d W rV11 (by decide), Wcall_of_ne d W rV3 (by decide)]
    isplitl [Ha]; · iexact Ha
    isplitl [H0]; · iexact H0
    isplitl [H10]; · iexact H10
    isplitl [H11]; · iexact H11
    isplitl [H2]; · iexact H2
    iexact H3
  iintro ⟨Hb, Hheld⟩
  rw [wp_ret]; imodintro
  isplitl [Hst]; · iexact Hst
  isplitl [Hb]; · iexact Hb
  iexact Hheld

end Cert.Proof.KI

end
-- ==== Proof.KI.Segs.lean ====
/-
  The two TensorCore pipelines as regions of @main. The thread state between segments is the TensorCore's six arrays
  held whole at a valuation, its generator register at some state, and what it owes the SparseCores (the start
  signals of the call to come) with every wait recorded so far at the kernels' own index. Region 0 is entered at the
  launch contents and leaves the normalised array where the pipeline's write-back put it; region 1 reads that array
  through two windows at once, each at half the share, and leaves the two result arrays.
-/
import proofs.«215737_g33157147525312_cont_8to1_b_501_7_alg».proof.Proof.KI.Region
import proofs.«215737_g33157147525312_cont_8to1_b_501_7_alg».proof.Proof.KI.Reg0
import proofs.«215737_g33157147525312_cont_8to1_b_501_7_alg».proof.Proof.KI.Reg1
import proofs.«215737_g33157147525312_cont_8to1_b_501_7_alg».proof.Proof.KI.Tail

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)

/-! ## The contents at each boundary -/

/-- At launch. -/
abbrev W0 (d : Dev nD) : Valuation τ sig (Elt F) := fun b => m (d, b)
abbrev V0 : (c : Dev nD) → (b : Ref sig .tc) → Buf (Elt F) ((c : Thread nD τ).loc b) := fun c b => W0 m c b
/-- After region 0: the normalised array where the write-back put it. -/
def W1 (d : Dev nD) : Valuation τ sig (Elt F) := Function.update (W0 m d) rV0 ((dat0 (V0 m) d).arrAt 1 cfg0.N)
abbrev V1 : (c : Dev nD) → (b : Ref sig .tc) → Buf (Elt F) ((c : Thread nD τ).loc b) := fun c b => W1 m c b
/-- After region 1: the two result arrays. -/
def W2 (d : Dev nD) : Valuation τ sig (Elt F) :=
  Function.update (Function.update (W1 m d) rV10 ((dat1 (V1 m) d).arrAt 2 cfg1.N)) rV11 ((dat1 (V1 m) d).arrAt 3 cfg1.N)

theorem W1_v0 (d : Dev nD) : W1 m d rV0 = (dat0 (V0 m) d).arrAt 1 cfg0.N := Function.update_self _ _ _
theorem W1_of_ne (d : Dev nD) (b : DevRef τ sig) (h : b ≠ rV0) : W1 m d b = W0 m d b := Function.update_of_ne h _ _
theorem W2_v11 (d : Dev nD) : W2 m d rV11 = (dat1 (V1 m) d).arrAt 3 cfg1.N := Function.update_self _ _ _
theorem W2_v10 (d : Dev nD) : W2 m d rV10 = (dat1 (V1 m) d).arrAt 2 cfg1.N :=
  (Function.update_of_ne (show rV10 ≠ rV11 by decide) _ _).trans (Function.update_self _ _ _)
theorem W2_of_ne (d : Dev nD) (b : DevRef τ sig) (h : b ≠ rV10) (h' : b ≠ rV11) : W2 m d b = W1 m d b :=
  (Function.update_of_ne h' _ _).trans (Function.update_of_ne h _ _)

/-- Every pipeline's proof data, each at its region's entry contents. -/
def pdats : (p : Fin 2) → (c : Dev nD) → Dat τ (Elt F) (HIx 1) ℕ UU ℕ (Pipeline.pin (pcfgs (F := F)) adm p) c
  | ⟨0, _⟩ => fun c => dat0 (V0 m) c
  | ⟨1, _⟩ => fun c => dat1 (V1 m) c

/-! ## The thread state -/

/-- What the TensorCore owes the SparseCores before the call, every recorded wait at the kernels' own index. -/
def owesN (d : Dev nD) : sProp 𝕄 :=
  iprop(∃ Wt : Waits sig (HIx 1), ⌜∀ p ∈ Wt, p.2 = none⌝ ∗ owes (T d) ((K (F := F)).Otc d 0) Wt)

/-- The six arrays at `W`, the generator register, the debt. -/
def St (d : Dev nD) (W : Valuation τ sig (Elt F)) : sProp 𝕄 :=
  iprop(held (T d) S6 W ∗ (∃ r, prngReg d r) ∗ owesN (F := F) d)

/-- The TensorCore owes nothing at the kernels' own index. -/
theorem Otc_none (d : Dev nD) (g : GSem nD τ sig) : (K (F := F)).Otc d 0 g none = 0 := by
  by_contra h
  have := (K (F := F)).lev_of_Otc_pos (Nat.pos_of_ne_zero h)
  rw [SparseCore.Cfg.lev_none] at this; omega

/-- So it may wait on any staging cell at that index. -/
theorem hwaits (p : Fin 2) (c : Dev nD) :
    (levAts (K (F := F)).L (K (F := F)).lev : sProp 𝕄) ⊢ Pipeline.cellsWaits (Pipeline.pin (pcfgs (F := F)) adm) (pdats m) (none : HIx 1) p c :=
  Pipeline.cellsWaits_intro _ _ _ p c fun w s t => by
    have h : (pdats m p c).owed t = (K (F := F)).Otc c 0 := by
      match p with
      | ⟨0, _⟩ => rfl
      | ⟨1, _⟩ => rfl
    rw [h]
    exact (K (F := F)).mayWait_none _ (Otc_none c)

/-- The bound the regions hand back: the recorded pairs and the loop's own, all at the kernels' own index. -/
theorem bound_none {p : Fin 2} (c : Dev nD) (t : Fin ((Pipeline.pin (pcfgs (F := F)) adm p).N + 1)) (Wt : Waits sig (HIx 1))
    (h : (↑Wt : Set (SemLoc sig × HIx 1)) ⊆ (pdats m p c).bound none t) : ∀ q ∈ Wt, q.2 = none := by
  intro q hq
  have hb : (pdats m p c).bound none t = ({x : SemLoc sig × HIx 1 | x.2 = none} ∪ (Pipeline.pin (pcfgs (F := F)) adm p).waitPairs none) := by
    match p with
    | ⟨0, _⟩ => rfl
    | ⟨1, _⟩ => rfl
  rw [hb] at h
  rcases h (Finset.mem_coe.mpr hq) with h | ⟨w, s, rfl⟩
  · exact h
  · rfl

theorem into_bound {p : Fin 2} (c : Dev nD) (t : Fin ((Pipeline.pin (pcfgs (F := F)) adm p).N + 1)) (Wt : Waits sig (HIx 1))
    (h : ∀ q ∈ Wt, q.2 = none) : (↑Wt : Set (SemLoc sig × HIx 1)) ⊆ (pdats m p c).bound none t := by
  intro q hq
  have hb : (pdats m p c).bound none t = ({x : SemLoc sig × HIx 1 | x.2 = none} ∪ (Pipeline.pin (pcfgs (F := F)) adm p).waitPairs none) := by
    match p with
    | ⟨0, _⟩ => rfl
    | ⟨1, _⟩ => rfl
  rw [hb]
  exact Or.inl (h q (Finset.mem_coe.mp hq))

/-! ## Region 0 -/

/-- Pipeline 0's arrays: the argument and the normalised array, each whole at the full share. -/
theorem arrays0_eq (c : Dev nD) (G : (w : Fin cfg0.W) → Buf (Elt F) ((cfg0.win w).arr.view.loc (c.tc : Thread nD τ))) :
    ((dat0 (V0 m) c).arrays G : sProp 𝕄)
      = iprop(((SparseCore.T c).loc main_arg0 ↦{fullShare} G 0) ∗ ((SparseCore.T c).loc main_v0 ↦{fullShare} G 1)) := by
  unfold Pipeline.Dat.arrays
  rw [bigSep_W0, (arr_whole0 0).set_eq_univ, (arr_whole0 1).set_eq_univ]
  rfl

set_option backward.isDefEq.respectTransparency.types false in
/-- REGION 0: entered at the launch contents, left with the normalised array written back. -/
def reg0 : Pipeline.RegionSeg (pcfgs (F := F)) adm (pdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V0 m) c).loose
  hwaits c := hwaits m 0 c
  pre c := St c (W0 m c)
  post c := St c (W1 m c)
  X c := iprop(∃ r, prngReg c r)
  Y c := iprop(∃ r, prngReg c r)
  Z c := iprop(((SparseCore.T c).loc main_v1_0 ↦{fullShare} W0 m c rV10) ∗ ((SparseCore.T c).loc main_v1_1 ↦{fullShare} W0 m c rV11)
    ∗ (oLoc c ↦{fullShare} W0 m c rV2) ∗ ((SparseCore.T c).loc main_v3 ↦{fullShare} W0 m c rV3))
  hentry c := by
    rw [Pipeline.ownSems0_none]
    unfold St owesN
    iintro ⟨⟨Hh, Hp, ⟨%Wt, %hWt, HO⟩⟩, -, -⟩
    ihave Hh' := (Entails.of_eq (held_S6 (F := F) c _)) $$ Hh
    icases Hh' with ⟨Ha, H0, H10, H11, H2, H3⟩
    imodintro
    isplitl [Ha H0]
    · iapply (Entails.of_eq (arrays0_eq m c _).symm)
      isplitl [Ha]; · iexact Ha
      iexact H0
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact into_bound m c 0 Wt hWt
      iexact HO
    isplitl [Hp]; · iexact Hp
    isplitl [H10]; · iexact H10
    isplitl [H11]; · iexact H11
    isplitl [H2]; · iexact H2
    iexact H3
  hin c := by
    rw [show (pdats m 0 c).Φ 0 = Φreg spec0 c from rfl]; unfold Φreg
    iintro ⟨Hp, -, Hr⟩
    isplitl [Hr]; · iexact Hr
    iexact Hp
  hout c := by
    rw [Pipeline.ownSems0_none, show (pdats m 0 c).Φ (Fin.last _) = Φreg spec0 c from rfl]; unfold Φreg
    iintro ⟨Hr, Hp⟩
    isplitl [Hp]; · iexact Hp
    isplitr; · iempintro
    iexact Hr
  hexit c := by
    unfold St owesN
    iintro ⟨Ha, HO, HY, H10, H11, H2, H3⟩
    ihave Ha' := (Entails.of_eq (show ((pdats m 0 c).arrays fun w => (pdats m 0 c).arrAt w (Pipeline.pin (pcfgs (F := F)) adm 0).N) = _ from arrays0_eq m c _)) $$ Ha
    icases Ha' with ⟨Ha, H0⟩
    unfold Pipeline.Dat.owesAt Pipeline.owesWithin
    icases HO with ⟨%Wt, %hWt, HO⟩
    imodintro
    isplitl [Ha H0 H10 H11 H2 H3]
    · rw [held_S6, W1_v0, W1_of_ne m c rArg0 (by decide), W1_of_ne m c rV10 (by decide), W1_of_ne m c rV11 (by decide),
        W1_of_ne m c rV2 (by decide), W1_of_ne m c rV3 (by decide)]
      isplitl [Ha]
      · rw [show (pdats m 0 c).arrAt 0 (Pipeline.pin (pcfgs (F := F)) adm 0).N = W0 m c rArg0 from (dat0 (V0 m) c).arrAt_in 0 rfl _]; iexact Ha
      isplitl [H0]; · iexact H0
      isplitl [H10]; · iexact H10
      isplitl [H11]; · iexact H11
      isplitl [H2]; · iexact H2
      iexact H3
    isplitl [HY]; · iexact HY
    iexists Wt; isplitr; · ipureintro; exact bound_none m c _ Wt hWt
    iexact HO

end Cert.Proof.KI

end
-- ==== Proof.KI.Arr1.lean ====
/-
  Region 1's windowed arrays as four points-tos. The two input windows read one array, the normalised one, so the
  pipeline holds it twice, once at each half of the full share; a whole array held at the full share splits into
  those two halves and the halves rejoin. The two result arrays are held outright.
-/
import proofs.«215737_g33157147525312_cont_8to1_b_501_7_alg».proof.Proof.KI.Reg1
import Idealize.ShloMosaic.Lib.SparseCore.Cells

set_option maxRecDepth 16384

noncomputable section

namespace Cert.Proof.KI

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig (HIx 1) (Elt F) ℕ UU ℕ

/-- A whole buffer held at the full share is the same buffer held at the left half and at the right half. -/
theorem pointsTo_halves (ℓ : Loc nD τ sig) (f : Buf (Elt F) ℓ) :
    (ℓ ↦{fullShare} f : sProp 𝕄) ⊣⊢ iprop((ℓ ↦{fullShare.left} f) ∗ (ℓ ↦{fullShare.right} f)) :=
  pointsTo_share (PosShare.mem_left_op_right fullShare)

variable (V : (c : Dev nD) → (b : Ref sig .tc) → Buf (Elt F) ((c : Thread nD τ).loc b))

/-- Pipeline 1's arrays at contents `G`: the normalised array at the left half for the row-block window and at
    the right half for the whole-array window, and the two result arrays whole at the full share. -/
theorem arrays1_eq_of (c : Dev nD) (G : (w : Fin cfg1.W) → Buf (Elt F) ((cfg1.win w).arr.view.loc (c.tc : Thread nD τ))) :
    ((dat1 V c).arrays G : sProp 𝕄)
      = iprop(((SparseCore.T c).loc main_v0 ↦{fullShare.left} G 0) ∗ ((SparseCore.T c).loc main_v0 ↦{fullShare.right} G 1)
          ∗ ((SparseCore.T c).loc main_v1_0 ↦{fullShare} G 2) ∗ ((SparseCore.T c).loc main_v1_1 ↦{fullShare} G 3)) := by
  unfold Pipeline.Dat.arrays
  -- windows 0 and 1 have one array, so one rewrite serves both
  rw [bigSep_W1, (arr_whole1 0).set_eq_univ, (arr_whole1 2).set_eq_univ, (arr_whole1 3).set_eq_univ]
  rfl

end Cert.Proof.KI

end
-- ==== Proof.KI.Segs1.lean ====
/-
  Region 1 as a region of @main. It is entered with the six arrays as region 0 left them. The normalised array is
  read through two windows at once, so its full share is split in halves on the way in and the halves, whose
  contents the pipeline never changes, are rejoined on the way out; the two result arrays go in whole at whatever
  they held and come back as the sixteen write-backs left them; the argument, the index array and the flat result
  bypass the region.
-/
import proofs.«215737_g33157147525312_cont_8to1_b_501_7_alg».proof.Proof.KI.Segs
import proofs.«215737_g33157147525312_cont_8to1_b_501_7_alg».proof.Proof.KI.Arr1

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)

/-- Pipeline 1's arrays: the normalised array at each half of the share, the two result arrays whole. -/
theorem arrays1_eq (c : Dev nD) (G : (w : Fin cfg1.W) → Buf (Elt F) ((cfg1.win w).arr.view.loc (c.tc : Thread nD τ))) :
    ((dat1 (V1 m) c).arrays G : sProp 𝕄)
      = iprop(((SparseCore.T c).loc main_v0 ↦{fullShare.left} G 0) ∗ ((SparseCore.T c).loc main_v0 ↦{fullShare.right} G 1)
          ∗ ((SparseCore.T c).loc main_v1_0 ↦{fullShare} G 2) ∗ ((SparseCore.T c).loc main_v1_1 ↦{fullShare} G 3)) :=
  arrays1_eq_of (V1 m) c G

/-- The pipeline writes neither window's view of the normalised array. -/
theorem arrAt1_0 (c : Dev nD) : (pdats m 1 c).arrAt (0 : Fin cfg1.W) (Pipeline.pin (pcfgs (F := F)) adm 1).N = W1 m c rV0 :=
  (dat1 (V1 m) c).arrAt_in 0 rfl _
theorem arrAt1_1 (c : Dev nD) : (pdats m 1 c).arrAt (1 : Fin cfg1.W) (Pipeline.pin (pcfgs (F := F)) adm 1).N = W1 m c rV0 :=
  (dat1 (V1 m) c).arrAt_in 1 rfl _

set_option backward.isDefEq.respectTransparency.types false in
/-- REGION 1: entered with the normalised array in place, left with the two result arrays written back. -/
def reg1 : Pipeline.RegionSeg (pcfgs (F := F)) adm (pdats m) (none : HIx 1) defs₀ 𝒱₀ (K (F := F)).L (K (F := F)).lev 1 where
  win := winFacts₀1
  block_pos := block_pos1
  stage_whole := stage_whole1
  K := PEmpty
  osem k := k.elim
  ho := Pipeline.OwnSemFacts.none _
  hbody c := (body_obligation1 (V1 m) c).loose
  hwaits c := hwaits m 1 c
  pre c := St c (W1 m c)
  post c := St c (W2 m c)
  X c := iprop(∃ r, prngReg c r)
  Y c := iprop(∃ r, prngReg c r)
  Z c := iprop(((SparseCore.T c).loc main_arg0 ↦{fullShare} W1 m c rArg0) ∗ (oLoc c ↦{fullShare} W1 m c rV2)
    ∗ ((SparseCore.T c).loc main_v3 ↦{fullShare} W1 m c rV3))
  hentry c := by
    rw [Pipeline.ownSems0_none]
    unfold St owesN
    iintro ⟨⟨Hh, Hp, ⟨%Wt, %hWt, HO⟩⟩, -, -⟩
    ihave Hh' := (Entails.of_eq (held_S6 (F := F) c _)) $$ Hh
    icases Hh' with ⟨Ha, H0, H10, H11, H2, H3⟩
    ihave H0' := (pointsTo_halves (F := F) _ _).1 $$ H0
    icases H0' with ⟨H0l, H0r⟩
    imodintro
    isplitl [H0l H0r H10 H11]
    · iapply (Entails.of_eq (arrays1_eq m c _).symm)
      isplitl [H0l]; · iexact H0l
      isplitl [H0r]; · iexact H0r
      isplitl [H10]; · iexact H10
      iexact H11
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact into_bound m c 0 Wt hWt
      iexact HO
    isplitl [Hp]; · iexact Hp
    isplitl [Ha]; · iexact Ha
    isplitl [H2]; · iexact H2
    iexact H3
  hin c := by
    rw [show (pdats m 1 c).Φ 0 = Φreg spec1 c from rfl]; unfold Φreg
    iintro ⟨Hp, -, Hr⟩
    isplitl [Hr]; · iexact Hr
    iexact Hp
  hout c := by
    rw [Pipeline.ownSems0_none, show (pdats m 1 c).Φ (Fin.last _) = Φreg spec1 c from rfl]; unfold Φreg
    iintro ⟨Hr, Hp⟩
    isplitl [Hp]; · iexact Hp
    isplitr; · iempintro
    iexact Hr
  hexit c := by
    refine (sep_mono (Entails.of_eq (arrays1_eq m c _)) .rfl).trans ?_
    beta_reduce
    rw [arrAt1_0, arrAt1_1]
    unfold St owesN
    iintro ⟨⟨H0l, H0r, H10, H11⟩, HO, HY, Harg, H2, H3⟩
    ihave H0 := (pointsTo_halves (F := F) _ _).2 $$ [H0l H0r]
    · isplitl [H0l]; · iexact H0l
      iexact H0r
    unfold Pipeline.Dat.owesAt Pipeline.owesWithin
    icases HO with ⟨%Wt, %hWt, HO⟩
    imodintro
    isplitl [Harg H0 H10 H11 H2 H3]
    · rw [held_S6, W2_v10, W2_v11, W2_of_ne m c rArg0 (by decide) (by decide), W2_of_ne m c rV0 (by decide) (by decide),
        W2_of_ne m c rV2 (by decide) (by decide), W2_of_ne m c rV3 (by decide) (by decide)]
      isplitl [Harg]; · iexact Harg
      isplitl [H0]; · iexact H0
      isplitl [H10]; · iexact H10
      isplitl [H11]; · iexact H11
      isplitl [H2]; · iexact H2
      iexact H3
    isplitl [HY]; · iexact HY
    iexists Wt; isplitr; · ipureintro; exact bound_none m c _ Wt hWt
    iexact HO

end Cert.Proof.KI

end
-- ==== Proof.KI.Ghost.lean ====
/-
  The launch element. The ghost state the run starts from is a pair: the handshake cells' rounds at their launch
  schedule, and beside them the two pipelines' staging cells' rounds with the transfers' counters. It splits into the
  handshakes' part, which the launch keeps, and per device the two pipelines' cells and duty tokens, which the
  TensorCore spends when it enters each pipeline's region; the SparseCore kernel consumes nothing of it.
-/
import proofs.«215737_g33157147525312_cont_8to1_b_501_7_alg».proof.Proof.KI.Common
import Idealize.ShloMosaic.Lib.Pipeline.Sound

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The launch element: the handshakes' schedule, the pipelines' cells and tokens, the counters at nothing. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- A conjunction of nothing, over any index set, is nothing. -/
theorem bigSep_emp' {I : Type} (s : Finset I) : (bigSep s fun _ => iprop(emp)) = (iprop(emp) : sProp 𝕄) := bigSep_emp_const s

variable [FloatOps F]

/-- What device `d`'s TensorCore starts from beyond the handshakes: both pipelines' cells and duty tokens. -/
def G (d : Dev nD) : sProp 𝕄 :=
  iprop((bigSep Finset.univ fun p : Fin 2 => Pipeline.cellsGhost (Ix := HIx 1) (Val := Elt F) (Name := ℕ) (U := UU) (Lvl := ℕ) cfgs (EP (F := F)) p d)
    ∗ (bigSep Finset.univ fun p : Fin 2 => (Pipeline.toksInit (Ix := HIx 1) (Val := Elt F) (Name := ℕ) (U := UU) (Lvl := ℕ) cfgs (EP (F := F)) p d : sProp 𝕄)))

theorem hu₀ : iprop(ownU (u₀ (F := F)) ∗ (P (F := F)).oxCred ∗ (K (F := F)).freeSems0 (nD := nD) (Val := Elt F) (Name := ℕ) (U := UU))
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 1 => (P (F := F)).x q thr) := by
  unfold u₀
  iintro ⟨Hu, -, -⟩
  ihave H := (ownU_pair _ _) $$ Hu
  icases H with ⟨HH, HR⟩
  ihave H2 := (own_pair_emb (embR : Emb (Pipeline.UD sig nD τ) 𝕄) _ _) $$ HR
  icases H2 with ⟨HP, -⟩
  have hfund := Pipeline.fund_ghost (Ix := HIx 1) (Val := Elt F) (Name := ℕ) (U := UU) (Lvl := ℕ) cfgs (EP (F := F)) cellOf_inj
  unfold EP at hfund
  imod (hfund) $$ HP with ⟨Hg, Ht⟩
  imodintro
  isplitl [HH]; · iexact HH
  isplitl [Hg Ht]
  · unfold G EP; rw [bigSep_sep']
    isplitl [Hg] <;> iassumption
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.Proof.KI

end
-- ==== Proof.KI.Cover.lean ====
/-
  The index array against its chunks. The 2 x 16777216 array is cut into 2 x 16 x 32 x 2 pieces: core `c`, subcore
  `s`, chunk `k` and row `r` name the 16384 columns from `1048576 s + 524288 c + 16384 k` of row `r`. A column `x`
  below 16777216 lies in exactly one of them, that of `s = x / 1048576`, `c = x / 524288 mod 2` and
  `k = (x mod 524288) / 16384`, so the pieces are pairwise disjoint and cover the array, and a points-to of the whole
  array is the separating conjunction of the pieces' points-tos. Read left to right this hands every subcore its
  chunks at whatever the array holds; read right to left it gathers the chunks, all at the one final contents, back into
  the whole array. Last, a core's sixteen subcores are the same sixteen whether numbered by the call or by `Fin 16`.
-/
import proofs.«215737_g33157147525312_cont_8to1_b_501_7_alg».proof.Proof.KI.Common

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The chunks as sets of columns -/

theorem trips_eq : k2_t1_loop.trips = 32 := by decide

theorem chunk0_set (L : grid2.Coords) (k : Fin k2_t1_loop.trips) :
    (chunk0 L k).view.set = (rect0 L k).set := by
  show (((View.whole main_v2_scv).slice (rect0 L k)).reshape S16384 _).set = _
  rw [View.set_reshape, View.set_slice_whole]

theorem chunk1_set (L : grid2.Coords) (k : Fin k2_t1_loop.trips) :
    (chunk1 L k).view.set = (rect1 L k).set := by
  show (((View.whole main_v2_scv).slice (rect1 L k)).reshape S16384 _).set = _
  rw [View.set_reshape, View.set_slice_whole]

/-- The first column of chunk `k` of the subcore at `L`. -/
def colOff (L : grid2.Coords) (k : Fin k2_t1_loop.trips) : ℕ := 1048576 * (L 1).val + 524288 * (L 0).val + 16384 * k.val

theorem mem_chunk0 (L : grid2.Coords) (k : Fin k2_t1_loop.trips) (j : S2x16777216.Idx) :
    j ∈ (chunk0 L k).view.set ↔ (j 0).val = 0 ∧ colOff L k ≤ (j 1).val ∧ (j 1).val < colOff L k + 16384 := by
  rw [chunk0_set, Rect.mem_set_unit, k2_off2_eq, Fin.forall_fin_two]
  simp only [colOff, Matrix.cons_val_zero, Matrix.cons_val_one]
  omega

theorem mem_chunk1 (L : grid2.Coords) (k : Fin k2_t1_loop.trips) (j : S2x16777216.Idx) :
    j ∈ (chunk1 L k).view.set ↔ (j 0).val = 1 ∧ colOff L k ≤ (j 1).val ∧ (j 1).val < colOff L k + 16384 := by
  rw [chunk1_set, Rect.mem_set_unit, k2_off3_eq, Fin.forall_fin_two]
  simp only [colOff, Matrix.cons_val_zero, Matrix.cons_val_one]
  omega

/-! ## The 2 x 16 x 32 x 2 chunks partition the array -/

/-- The chunks as one family: core, subcore, chunk number, row. -/
abbrev PIx : Type := Fin 2 × Fin 16 × Fin k2_t1_loop.trips × Fin 2

def piece (t : PIx) : Finset S2x16777216.Idx :=
  if t.2.2.2 = 0 then (chunk0 (tileAt t.1 t.2.1) t.2.2.1).view.set else (chunk1 (tileAt t.1 t.2.1) t.2.2.1).view.set

theorem mem_piece (t : PIx) (j : S2x16777216.Idx) :
    j ∈ piece t ↔ (j 0).val = t.2.2.2.val ∧
      1048576 * t.2.1.val + 524288 * t.1.val + 16384 * t.2.2.1.val ≤ (j 1).val ∧
      (j 1).val < 1048576 * t.2.1.val + 524288 * t.1.val + 16384 * t.2.2.1.val + 16384 := by
  obtain ⟨c, s, k, r⟩ := t
  unfold piece
  have hr := r.isLt
  split
  next h =>
    rw [mem_chunk0]; simp only [colOff, tileAt]
    have : r.val = 0 := by simpa using congrArg Fin.val h
    omega
  next h =>
    rw [mem_chunk1]; simp only [colOff, tileAt]
    have : r.val ≠ 0 := fun e => h (Fin.ext e)
    omega

theorem piece_disjoint (t t' : PIx) (h : t ≠ t') : Disjoint (piece t) (piece t') := by
  rw [Finset.disjoint_left]
  intro j hj hj'
  rw [mem_piece] at hj hj'
  obtain ⟨c, s, k, r⟩ := t
  obtain ⟨c', s', k', r'⟩ := t'
  simp only at hj hj'
  have hk : k.val < 32 := Nat.lt_of_lt_of_le k.isLt trips_eq.le
  have hk' : k'.val < 32 := Nat.lt_of_lt_of_le k'.isLt trips_eq.le
  have hc := c.isLt; have hc' := c'.isLt; have hs := s.isLt; have hs' := s'.isLt
  apply h
  have e1 : c = c' := Fin.ext (by omega)
  have e2 : s = s' := Fin.ext (by omega)
  have e3 : k = k' := Fin.ext (by omega)
  have e4 : r = r' := Fin.ext (by omega)
  rw [e1, e2, e3, e4]

theorem piece_cover : (Finset.univ : Finset PIx).biUnion piece = Finset.univ := by
  ext j
  simp only [Finset.mem_biUnion, Finset.mem_univ, true_and, iff_true]
  have h0 : (j 0).val < 2 := (j 0).isLt
  have h1 : (j 1).val < 16777216 := (j 1).isLt
  refine ⟨(⟨((j 1).val / 524288) % 2, by omega⟩, ⟨(j 1).val / 1048576, by omega⟩,
    ⟨((j 1).val % 524288) / 16384, by rw [trips_eq]; omega⟩, ⟨(j 0).val, h0⟩), ?_⟩
  rw [mem_piece]
  refine ⟨rfl, ?_, ?_⟩ <;> simp only <;> omega

theorem piece_zero (c : Fin 2) (s : Fin 16) (k : Fin k2_t1_loop.trips) : piece (c, s, k, 0) = (chunk0 (tileAt c s) k).view.set := if_pos rfl
theorem piece_one (c : Fin 2) (s : Fin 16) (k : Fin k2_t1_loop.trips) : piece (c, s, k, 1) = (chunk1 (tileAt c s) k).view.set :=
  if_neg (show ¬ ((1 : Fin 2) = 0) by decide)

/-! ## The whole array against its chunks -/

/-- The whole array at `g` is, chunk by chunk, the chunks at `g`. -/
theorem cover_eq (d : Dev nD) (g : Buf (Elt F) (oLoc d)) :
    (oLoc d ↦{fullShare} g : sProp 𝕄)
      = bigSep Finset.univ fun c : Fin 2 => bigSep Finset.univ fun s : Fin 16 => bigSep Finset.univ fun k : Fin k2_t1_loop.trips =>
          iprop((oLoc d ↦[(chunk0 (tileAt c s) k).view.set]{fullShare} g) ∗ (oLoc d ↦[(chunk1 (tileAt c s) k).view.set]{fullShare} g)) := by
  have h := pointsTo_biUnion (Ix := HIx 1) (Val := Elt F) (Name := ℕ) (U := UU) (Lvl := ℕ) (ℓ := oLoc d) (q := fullShare) (f := g)
    (Finset.univ : Finset PIx) piece (fun t _ t' _ h => piece_disjoint t t' h)
  rw [piece_cover] at h
  rw [h, bigSep_univ_prod]
  refine bigSep_congr fun c _ => ?_
  rw [bigSep_univ_prod]
  refine bigSep_congr fun s _ => ?_
  rw [bigSep_univ_prod]
  refine bigSep_congr fun k _ => ?_
  rw [bigSep_univ_two, piece_zero, piece_one]

variable [FloatOps F]

theorem out_split (d : Dev nD) (f : Buf (Elt F) (oLoc d)) :
    (oLoc d ↦{fullShare} f : sProp 𝕄) ⊢ bigSep Finset.univ fun c : Fin 2 => bigSep Finset.univ fun s : Fin 16 => tileGo (F := F) d (tileAt c s) := by
  rw [cover_eq]
  unfold tileGo
  refine bigSep_mono fun c _ => bigSep_mono fun s _ => bigSep_mono fun k _ => ?_
  show iprop((oLoc d ↦[(chunk0 (tileAt c s) k).view.set]{fullShare} f) ∗ (oLoc d ↦[(chunk1 (tileAt c s) k).view.set]{fullShare} f))
    ⊢ iprop((∃ f, oLoc d ↦[(chunk0 (tileAt c s) k).view.set]{fullShare} f) ∗ (∃ f, oLoc d ↦[(chunk1 (tileAt c s) k).view.set]{fullShare} f))
  iintro ⟨H0, H1⟩
  isplitl [H0]
  · iexists f; iexact H0
  · iexists f; iexact H1

theorem out_join (d : Dev nD) :
    (bigSep Finset.univ fun c : Fin 2 => bigSep Finset.univ fun s : Fin 16 => tileTd (F := F) d (tileAt c s)) ⊢ (oLoc d ↦{fullShare} idxBuf (F := F) d : sProp 𝕄) := by
  rw [cover_eq]
  unfold tileTd
  exact .rfl

/-! ## A core's sixteen subcores, as the call numbers them -/

theorem P_st (d : Dev nD) (c : Fin ((K (F := F)).nCore 0)) :
    (P (F := F)).st 0 d c = bigSep Finset.univ fun s : Fin 16 => tileGo (F := F) d (tileAt (Fin.cast nCore_zero c) s) := by unfold P; rfl
theorem P_dn (d : Dev nD) (c : Fin ((K (F := F)).nCore 0)) :
    (P (F := F)).dn 0 d c = bigSep Finset.univ fun s : Fin 16 => tileTd (F := F) d (tileAt (Fin.cast nCore_zero c) s) := by unfold P; rfl
theorem P_go (d : Dev nD) (c : Fin ((K (F := F)).nCore 0)) (i : Fin ((K (F := F)).nSub 0)) :
    (P (F := F)).go 0 d c i = tileGo (F := F) d (tileAt (Fin.cast nCore_zero c) (Fin.cast nSub_zero i)) := by unfold P; rfl
theorem P_td (d : Dev nD) (c : Fin ((K (F := F)).nCore 0)) (i : Fin ((K (F := F)).nSub 0)) :
    (P (F := F)).td 0 d c i = tileTd (F := F) d (tileAt (Fin.cast nCore_zero c) (Fin.cast nSub_zero i)) := by unfold P; rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P (F := F)) 0 := by
  intro d c
  simp only [P_go, P_td]
  rw [P_st, P_dn,
    bigSep_tasks (F := F) (fun s => tileGo (F := F) d (tileAt (Fin.cast nCore_zero c) s)),
    bigSep_tasks (F := F) (fun s => tileTd (F := F) d (tileAt (Fin.cast nCore_zero c) s))]
  iintro H; imodintro
  isplitl [H]; · iexact H
  iintro H; iexact H

end Cert.Proof.KI
-- ==== Proof.KI.TileArith.lean ====
/-
  The arithmetic of one vector subcore's task of the index kernel. Subcore (c, s) of the 2 x 16 grid fills the
  524288 columns from 1048576 s + 524288 c of the 2 x 16777216 index array, chunk k of 32 being the 16384 columns from
  there + 16384 k; inside a chunk, trip t of 1024 computes the 16 lanes 16 t .. 16 t + 15. Here: the column a lane of a
  chunk stands for; that lane x of trip t's two stored vectors is that column shifted right by 12, and its low
  12 bits; and that the element of the index array under lane y of the chunk's slice of row 0 (of row 1) is
  the specification's value at that column.
-/
import proofs.«215737_g33157147525312_cont_8to1_b_501_7_alg».proof.Proof.KI.Common

noncomputable section

namespace Cert.Proof.KI

namespace Tile

open Cert.KernelIdeal Cert.KernelIdeal.Gen
open Idealize.ShloMosaic
open Idealize.ShloMosaic.SparseCore (S V T)

variable {F : FTy → Type}

/-- The column of the index array that lane `j` of chunk `k`'s scratch stands for. -/
def colOf (L : grid2.Coords) (k : Fin k2_t1_loop.trips) (j : S16384.Idx) : Nat :=
  1048576 * (L 1).val + 524288 * (L 0).val + 16384 * k.val + (j 0).val

/-- What the two scratch buffers hold for chunk `k`: the column shifted right by 12, and its low 12 bits. -/
def valA (L : grid2.Coords) (k : Fin k2_t1_loop.trips) (j : S16384.Idx) : BitVec 32 := (BitVec.ofNat 32 (colOf L k j)).sshiftRight 12
def valB (L : grid2.Coords) (k : Fin k2_t1_loop.trips) (j : S16384.Idx) : BitVec 32 := (BitVec.ofNat 32 (colOf L k j)) &&& 4095#32

theorem size_S16384 (a : Fin 1) : S16384.size a = 16384 := by
  obtain rfl : a = 0 := Subsingleton.elim _ _
  rfl
theorem size_S16 (a : Fin 1) : S16.size a = 16 := by
  obtain rfl : a = 0 := Subsingleton.elim _ _
  rfl

/-- Lane `x` of trip `t` of the filling loop, as a lane of the scratch. -/
def laneAt (t : Fin k2_t2_loop.trips) (x : S16.Idx) : S16384.Idx :=
  fun a => ⟨16 * t.val + (x 0).val, by
    have ht : t.val < 1024 := Nat.lt_of_lt_of_le t.isLt k2_t2_abs.2.1
    have hx : (x 0).val < 16 := (x 0).isLt
    rw [size_S16384]
    omega⟩

theorem pay1_lane (L : grid2.Coords) (k : Fin k2_t1_loop.trips) (t : Fin k2_t2_loop.trips) (x : S16.Idx) :
    k2_pay1 L k t x = BitVec.ofNat 32 (colOf L k (laneAt t x)) := by
  unfold k2_pay1
  simp only [addi, broadcast, iota, Scalar.muli, Scalar.addi, IntOp.muli, IntOp.addi, Scf.iv, List.foldl]
  simp only [← BitVec.ofNat_mul, ← BitVec.ofNat_add]
  congr 1
  show _ = 1048576 * (L 1).val + 524288 * (L 0).val + 16384 * k.val + (16 * t.val + (x 0).val)
  rw [Nat.zero_mul]
  omega

theorem pay2_lane (L : grid2.Coords) (k : Fin k2_t1_loop.trips) (t : Fin k2_t2_loop.trips) (x : S16.Idx) :
    k2_pay2 L k t x = valA L k (laneAt t x) := by
  unfold k2_pay2 valA
  simp only [shapeCast, shrsi, broadcast, Shape.reshapeEquiv_self, IntOp.shrsi]
  rw [pay1_lane, if_pos (by decide)]
  rfl

theorem pay3_lane (L : grid2.Coords) (k : Fin k2_t1_loop.trips) (t : Fin k2_t2_loop.trips) (x : S16.Idx) :
    k2_pay3 L k t x = valB L k (laneAt t x) := by
  unfold k2_pay3 valB
  simp only [shapeCast, andi, broadcast, Shape.reshapeEquiv_self, IntOp.andi]
  rw [pay1_lane]

theorem idx_chunk0 (d : Dev nD) (L : grid2.Coords) (k : Fin k2_t1_loop.trips) (y : S16384.Idx) :
    idxBuf (F := F) d ((chunk0 L k).view.emb y) = valA L k y := by
  have e : (chunk0 L k).view.emb y = (rect0 L k).emb (Shape.reshapeEquiv squeezes_S1x16384_S16384.numel_eq y) := rfl
  rw [e]
  have e2 : Shape.reshapeEquiv squeezes_S1x16384_S16384.numel_eq y = Fin.cons ⟨0, Nat.one_pos⟩ y :=
    Shape.reshapeEquiv_cons_one (n := 1) (d := ![16384]) _ y
  have h0 : (((rect0 L k).emb (Shape.reshapeEquiv squeezes_S1x16384_S16384.numel_eq y)) 0).val = 0 := by
    rw [Rect.emb_apply, e2]
    show k2_off2 L k 0 + 1 * 0 = 0
    rw [k2_off2_eq]; rfl
  have h1 : (((rect0 L k).emb (Shape.reshapeEquiv squeezes_S1x16384_S16384.numel_eq y)) 1).val = colOf L k y := by
    rw [Rect.emb_apply, e2]
    show k2_off2 L k 1 + 1 * (y 0).val = colOf L k y
    rw [k2_off2_eq]
    show 1048576 * (L 1).val + 524288 * (L 0).val + 16384 * k.val + 1 * (y 0).val = _
    unfold colOf; omega
  show Cert.Proof.Math.idxG _ = _
  unfold Cert.Proof.Math.idxG valA
  rw [if_pos h0, h1]

theorem idx_chunk1 (d : Dev nD) (L : grid2.Coords) (k : Fin k2_t1_loop.trips) (y : S16384.Idx) :
    idxBuf (F := F) d ((chunk1 L k).view.emb y) = valB L k y := by
  have e : (chunk1 L k).view.emb y = (rect1 L k).emb (Shape.reshapeEquiv squeezes_S1x16384_S16384.numel_eq y) := rfl
  rw [e]
  have e2 : Shape.reshapeEquiv squeezes_S1x16384_S16384.numel_eq y = Fin.cons ⟨0, Nat.one_pos⟩ y :=
    Shape.reshapeEquiv_cons_one (n := 1) (d := ![16384]) _ y
  have h0 : ¬ (((rect1 L k).emb (Shape.reshapeEquiv squeezes_S1x16384_S16384.numel_eq y)) 0).val = 0 := by
    rw [Rect.emb_apply, e2]
    show ¬ k2_off3 L k 0 + 1 * 0 = 0
    rw [k2_off3_eq]
    show ¬ (1 + 1 * 0 = 0)
    omega
  have h1 : (((rect1 L k).emb (Shape.reshapeEquiv squeezes_S1x16384_S16384.numel_eq y)) 1).val = colOf L k y := by
    rw [Rect.emb_apply, e2]
    show k2_off3 L k 1 + 1 * (y 0).val = colOf L k y
    rw [k2_off3_eq]
    show 1048576 * (L 1).val + 524288 * (L 0).val + 16384 * k.val + 1 * (y 0).val = _
    unfold colOf; omega
  show Cert.Proof.Math.idxG _ = _
  unfold Cert.Proof.Math.idxG valB
  rw [if_neg h0, h1]

end Tile

end Cert.Proof.KI
end
-- ==== Proof.KI.Tile.lean ====
/-
  One vector subcore's task of the index kernel: at a symbolic subcore, 32 chunks of 16384 consecutive columns,
  each chunk computed 16 lanes at a time into the two scratch buffers (the column numbers shifted right by 12;
  their low 12 bits) and copied out to row 0 and row 1 of the index array, each copy waited for before the scratch
  is written again.
-/
import proofs.«215737_g33157147525312_cont_8to1_b_501_7_alg».proof.Proof.KI.TileArith

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

namespace Tile

/-! ## The subcore's thread, scratch and semaphores -/

section Tile

variable (d : Dev nD) (L : grid2.Coords)

abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

abbrev sA : Memref sig .scVector .vmem S16384 .i32 := Memref.whole cc2_scratch0
abbrev sB : Memref sig .scVector .vmem S16384 .i32 := Memref.whole cc2_scratch1

abbrev cellA (d : Dev nD) (L : grid2.Coords) : GSem nD τ sig := (thr d L, .dma cc2_scoped0.sem)
abbrev cellB (d : Dev nD) (L : grid2.Coords) : GSem nD τ sig := (thr d L, .dma cc2_scoped1.sem)

theorem ownSems0_V :
    (ownSems0 (thr d L) : sProp 𝕄)
      = iprop(semVal (cellA d L) 0 ∗ semVal (cellB d L) 0
          ∗ bigSep (((ownCells (thr d L)).erase (cellA d L)).erase (cellB d L)) fun g => semVal g 0) := by
  unfold SparseCore.Cfg.ownSems0
  rw [SparseCore.bigSep_erase' ((mem_ownCells (g := cellA d L)).mpr ⟨rfl, by
      show (SemLoc.dma cc2_scoped0.sem : SemLoc sig).isScoped .scVector = true; decide⟩),
    SparseCore.bigSep_erase' (Finset.mem_erase.mpr ⟨by simp [cellA, cellB]; decide, (mem_ownCells (g := cellB d L)).mpr ⟨rfl, by
      show (SemLoc.dma cc2_scoped1.sem : SemLoc sig).isScoped .scVector = true; decide⟩⟩)]

/-- The two scratch buffers are among the subcore's own: they are them, at some contents, and the rest. -/
theorem ownBufs_V :
    (ownBufs (thr d L) : sProp 𝕄)
      = iprop((∃ f, (thr d L).loc cc2_scratch0 ↦{fullShare} f) ∗ (∃ f, (thr d L).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

theorem pts_sA (f : Buf (Elt F) ((thr d L).loc cc2_scratch0)) :
    ((sA : Memref sig .scVector .vmem S16384 .i32).view.loc (thr d L) ↦{fullShare} f : sProp 𝕄) = (thr d L).loc cc2_scratch0 ↦{fullShare} f := rfl
theorem pts_sB (f : Buf (Elt F) ((thr d L).loc cc2_scratch1)) :
    ((sB : Memref sig .scVector .vmem S16384 .i32).view.loc (thr d L) ↦{fullShare} f : sProp 𝕄) = (thr d L).loc cc2_scratch1 ↦{fullShare} f := rfl

/-- A chunk of row 0, and of row 1, as the subcore's copy addresses it is the device's array on that chunk. -/
theorem pts_c0 (k : Fin k2_t1_loop.trips) (f : Buf (Elt F) (oLoc d)) :
    ((chunk0 L k).view.loc (thr d L) ↦[(chunk0 L k).view.set]{fullShare} f : sProp 𝕄) = oLoc d ↦[(chunk0 L k).view.set]{fullShare} f := rfl
theorem pts_c1 (k : Fin k2_t1_loop.trips) (f : Buf (Elt F) (oLoc d)) :
    ((chunk1 L k).view.loc (thr d L) ↦[(chunk1 L k).view.set]{fullShare} f : sProp 𝕄) = oLoc d ↦[(chunk1 L k).view.set]{fullShare} f := rfl

variable [FloatOps F]

/-- A chunk pair not yet written, and written. -/
abbrev chunkSome (d : Dev nD) (L : grid2.Coords) (k : Fin k2_t1_loop.trips) : sProp 𝕄 :=
  iprop((∃ f, oLoc d ↦[(chunk0 L k).view.set]{fullShare} f) ∗ (∃ f, oLoc d ↦[(chunk1 L k).view.set]{fullShare} f))
abbrev chunkDone (d : Dev nD) (L : grid2.Coords) (k : Fin k2_t1_loop.trips) : sProp 𝕄 :=
  iprop((oLoc d ↦[(chunk0 L k).view.set]{fullShare} idxBuf (F := F) d) ∗ (oLoc d ↦[(chunk1 L k).view.set]{fullShare} idxBuf (F := F) d))

/-- The subcore's chunks before chunk `n`: those below `n` written, the others as they were handed over. -/
abbrev chunksAt (d : Dev nD) (L : grid2.Coords) (n : Nat) : sProp 𝕄 :=
  bigSep Finset.univ fun k : Fin k2_t1_loop.trips => if k.val < n then chunkDone (F := F) d L k else chunkSome (F := F) d L k

theorem chunksAt_zero : chunksAt (F := F) d L 0 = bigSep Finset.univ fun k : Fin k2_t1_loop.trips => chunkSome (F := F) d L k :=
  bigSep_congr fun k _ => if_neg (Nat.not_lt_zero _)

theorem chunksAt_all : chunksAt (F := F) d L k2_t1_loop.trips = bigSep Finset.univ fun k : Fin k2_t1_loop.trips => chunkDone (F := F) d L k :=
  bigSep_congr fun k _ => if_pos k.isLt

/-- Chunk `k` taken out of the chunks before it is written, -/
theorem chunksAt_take (k : Fin k2_t1_loop.trips) :
    chunksAt (F := F) d L k.val = iprop(chunkSome (F := F) d L k
      ∗ bigSep (Finset.univ.erase k) fun k' : Fin k2_t1_loop.trips => if k'.val < k.val then chunkDone (F := F) d L k' else chunkSome (F := F) d L k') := by
  unfold chunksAt
  rw [SparseCore.bigSep_erase' (Finset.mem_univ k), if_neg (Nat.lt_irrefl _)]

/-- and put back written. -/
theorem chunksAt_put (k : Fin k2_t1_loop.trips) :
    iprop(chunkDone (F := F) d L k
      ∗ bigSep (Finset.univ.erase k) fun k' : Fin k2_t1_loop.trips => if k'.val < k.val then chunkDone (F := F) d L k' else chunkSome (F := F) d L k')
      = chunksAt (F := F) d L (k.val + 1) := by
  unfold chunksAt
  rw [SparseCore.bigSep_erase' (Finset.mem_univ k) (Φ := fun k' : Fin k2_t1_loop.trips => if k'.val < k.val + 1 then chunkDone (F := F) d L k' else chunkSome (F := F) d L k'),
    if_pos (Nat.lt_succ_self _)]
  congr 1
  refine bigSep_congr fun k' hk' => ?_
  have hne : k'.val ≠ k.val := fun e => (Finset.mem_erase.mp hk').1 (Fin.ext e)
  by_cases h : k'.val < k.val
  · rw [if_pos h, if_pos (Nat.lt_succ_of_lt h)]
  · rw [if_neg h, if_neg (by omega)]

/-- Before chunk `n`: the scratch buffers at some contents, both counters at zero, the chunks below `n` written and the
    others as they were handed over, and what the subcore owes with the waits recorded so far. -/
def invO (O : CellTallies nD τ sig (HIx 1)) (W : Waits sig (HIx 1)) (n : Nat) (_ : PUnit) : sProp 𝕄 :=
  iprop(Transfers.MayWaits (thr d L) (none : HIx 1) O
    ∗ (∃ f, (sA : Memref sig .scVector .vmem S16384 .i32).view.loc (thr d L) ↦{fullShare} f)
    ∗ (∃ f, (sB : Memref sig .scVector .vmem S16384 .i32).view.loc (thr d L) ↦{fullShare} f)
    ∗ semVal (cellA d L) 0 ∗ semVal (cellB d L) 0
    ∗ chunksAt (F := F) d L n
    ∗ ∃ W', ⌜∀ p ∈ W', p ∈ W ∨ p.2 = none⌝ ∗ owes (thr d L) O W')

/-- The 16 lanes trip `t` stores. -/
abbrev laneRect (t : Fin k2_t2_loop.trips) : Rect S16384 := Rect.unit (s := S16384) (k2_off1 t) S16.size (k2_off1_inb t)

theorem laneRect_emb (t : Fin k2_t2_loop.trips) (x : S16.Idx) : (laneRect t).emb x = laneAt t x := by
  funext a
  apply Fin.ext
  rw [Rect.emb_apply]
  show k2_off1 t a + 1 * (x a).val = 16 * t.val + (x 0).val
  rw [k2_off1_eq]
  obtain rfl : a = 0 := Subsingleton.elim _ _
  simp

theorem not_mem_laneRect (t : Fin k2_t2_loop.trips) {j : S16384.Idx} (h : (j 0).val < 16 * t.val) : j ∉ (laneRect t).set := by
  intro hm
  obtain ⟨i, _, hi⟩ := (LoadRect.mem_set _).mp hm 0
  have : (laneRect t).off 0 = 16 * t.val := by
    show k2_off1 t 0 = _
    rw [k2_off1_eq]; rfl
  rw [this] at hi
  have h1 : (laneRect t).stride 0 = 1 := rfl
  rw [h1] at hi
  omega

/-- One trip of the filling loop: the lanes below `16 t` are kept, the next 16 are the payload's. -/
theorem fill_step {sp : Space} (v : View sig .scVector sp S16384 .i32) (f : v.ty.Contents (Elt F)) (t : Fin k2_t2_loop.trips)
    (pay : IVec S16 32) (G : S16384.Idx → BitVec 32)
    (hf : ∀ j : S16384.Idx, (j 0).val < 16 * t.val → v.read (Elt F) f j = G j)
    (hpay : ∀ x : S16.Idx, pay x = G (laneAt t x)) :
    ∀ j : S16384.Idx, (j 0).val < 16 * (t.val + 1) → v.read (Elt F) (v.writes (Elt F) f [⟨laneRect t, pay⟩]) j = G j := by
  intro j hj
  by_cases h : (j 0).val < 16 * t.val
  · rw [View.read_writes_apply_of_forall_not_mem v f j _ (by
      intro p hp
      obtain rfl : p = ⟨laneRect t, pay⟩ := by simpa using hp
      exact not_mem_laneRect t h)]
    exact hf j h
  · have hx : (j 0).val - 16 * t.val < 16 := by omega
    have hjx : j = laneAt t (fun a => ⟨(j 0).val - 16 * t.val, by rw [size_S16]; exact hx⟩) := by
      funext a
      obtain rfl : a = 0 := Subsingleton.elim _ _
      apply Fin.ext
      show (j 0).val = 16 * t.val + ((j 0).val - 16 * t.val)
      omega
    rw [hjx, ← laneRect_emb, View.read_writes_cons_emb, laneRect_emb]
    exact hpay _

theorem trips_t2 : k2_t2_loop.trips = 1024 := by decide

/-- What an unmasked write of `w` through a view leaves on the view's own elements, over any prior contents, is any
    contents that read back as `w` through the view. -/
theorem land_gen (c : Thread nD τ) {sp : Space} (v : View sig c.2.kind sp S16384 .i32) (g0 G : Buf (Elt F) (v.loc c))
    (w : S16384.Idx → Elt F .i32) (hG : ∀ y : S16384.Idx, v.read (Elt F) G y = w y) :
    (v.loc c ↦[v.set]{fullShare} v.writes (Elt F) g0 [⟨Rect.whole S16384, w⟩] : sProp 𝕄) = v.loc c ↦[v.set]{fullShare} G := by
  refine pointsTo_congr fun i hi => ?_
  obtain ⟨y, -, rfl⟩ := Finset.mem_map.mp hi
  have h1 := View.read_writes_cons_emb v g0 (Rect.whole S16384) w [] y
  rw [Rect.emb_whole_apply] at h1
  have h2 := hG y
  rw [View.read_apply] at h1 h2
  exact eq_of_heq ((cast_heq _ _).symm.trans ((heq_of_eq (h1.trans h2.symm)).trans (cast_heq _ _)))

/-- A chunk after its copy has landed holds the specification, given the scratch held the chunk's values. -/
theorem land0 (k : Fin k2_t1_loop.trips) (g0 : Buf (Elt F) (oLoc d)) (w : S16384.Idx → Elt F .i32) (hw : ∀ j, w j = valA L k j) :
    ((chunk0 L k).view.loc (thr d L) ↦[(chunk0 L k).view.set]{fullShare} (chunk0 L k).view.writes (Elt F) g0 [⟨Rect.whole S16384, w⟩] : sProp 𝕄)
      = oLoc d ↦[(chunk0 L k).view.set]{fullShare} idxBuf (F := F) d :=
  land_gen (F := F) (thr d L) (chunk0 L k).view g0 (idxBuf (F := F) d) w fun y => (idx_chunk0 (F := F) d L k y).trans (hw y).symm
theorem land1 (k : Fin k2_t1_loop.trips) (g1 : Buf (Elt F) (oLoc d)) (w : S16384.Idx → Elt F .i32) (hw : ∀ j, w j = valB L k j) :
    ((chunk1 L k).view.loc (thr d L) ↦[(chunk1 L k).view.set]{fullShare} (chunk1 L k).view.writes (Elt F) g1 [⟨Rect.whole S16384, w⟩] : sProp 𝕄)
      = oLoc d ↦[(chunk1 L k).view.set]{fullShare} idxBuf (F := F) d :=
  land_gen (F := F) (thr d L) (chunk1 L k).view g1 (idxBuf (F := F) d) w fun y => (idx_chunk1 (F := F) d L k y).trans (hw y).symm

/-- Before trip `t` of chunk `k`'s filling loop: the first `16 t` lanes of each scratch hold the chunk's values. -/
def invI (k : Fin k2_t1_loop.trips) (t : Nat) (_ : PUnit) : sProp 𝕄 :=
  iprop((∃ f, ((sA : Memref sig .scVector .vmem S16384 .i32).view.loc (thr d L) ↦{fullShare} f)
        ∗ ⌜∀ j : S16384.Idx, (j 0).val < 16 * t → (sA : Memref sig .scVector .vmem S16384 .i32).view.read (Elt F) f j = valA L k j⌝)
    ∗ (∃ f, ((sB : Memref sig .scVector .vmem S16384 .i32).view.loc (thr d L) ↦{fullShare} f)
        ∗ ⌜∀ j : S16384.Idx, (j 0).val < 16 * t → (sB : Memref sig .scVector .vmem S16384 .i32).view.read (Elt F) f j = valB L k j⌝))

theorem tile_body (hF : (K (F := F)).Facts) (O : CellTallies nD τ sig (HIx 1)) (W : Waits sig (HIx 1)) (hO : ∀ g, O g none = 0) :
    iprop(levAts (K (F := F)).L (K (F := F)).lev ∗ emp ∗ tileGo (F := F) d L
        ∗ scopedBufs (thr d L) ∗ scopedSems0 (thr d L) ∗ owes (thr d L) O W)
      ⊢ wp frame (wpE (defs₀ (F := F)) 𝒱₀ (thr d L) none) Set.univ
          (cc2__idx_sc L oV (Memref.isWhole_whole _) sA (Memref.isWhole_whole _) sB (Memref.isWhole_whole _) cc2_scoped0 cc2_scoped1)
          fun _ => iprop(tileTd (F := F) d L ∗ scopedBufs (thr d L) ∗ scopedSems0 (thr d L)
            ∗ ∃ W', ⌜∀ p ∈ W', p ∈ W ∨ p.2 = none⌝ ∗ owes (thr d L) O W') := by
  simp only [cc2__idx_sc_eq_skeleton]; unfold cc2__idx_sc_skel
  rw [(K (F := F)).scopedBufs_V hF d (cV L) (jV L), SparseCore.Cfg.scopedSems0_V (Val := Elt F) d (cV L) (jV L), ownSems0_V, ownBufs_V]
  unfold tileGo tileTd
  iintro ⟨#Hlv, -, Hgo, ⟨⟨%fa, Ha⟩, ⟨%fb, Hb⟩, Hbufs⟩, ⟨HsemA, HsemB, Hsems⟩, HO⟩
  ihave Hmw := ((K (F := F)).mayWaits_none (thr := thr d L) hO) $$ Hlv
  ihave Ha' := (Entails.of_eq (pts_sA (F := F) d L _).symm) $$ Ha
  ihave Hb' := (Entails.of_eq (pts_sB (F := F) d L _).symm) $$ Hb
  sl_exec
  sl_for (invO (F := F) d L O W) $$ [Hmw Ha' Hb' HsemA HsemB Hgo HO]
  case region =>
    intro k _
    unfold invO
    rw [chunksAt_take]
    iintro ⟨#Hmw, ⟨%fa, Ha⟩, ⟨%fb, Hb⟩, HsemA, HsemB, ⟨⟨⟨%g0, Hc0⟩, ⟨%g1, Hc1⟩⟩, Hrest⟩, %W', %hW', HO⟩
    sl_exec
    sl_for (invI (F := F) d L k) $$ [Ha Hb]
    case region =>
      intro t _
      unfold invI
      iintro ⟨⟨%fa, Ha, %hfa⟩, ⟨%fb, Hb, %hfb⟩⟩
      sl_exec
      sl_step
      isplitl [Ha]
      · iexists _; isplitl [Ha]; · iexact Ha
        ipureintro
        exact fill_step (F := F) (sA : Memref sig .scVector .vmem S16384 .i32).view fa t _ (valA L k) hfa (pay2_lane L k t)
      · iexists _; isplitl [Hb]; · iexact Hb
        ipureintro
        exact fill_step (F := F) (sB : Memref sig .scVector .vmem S16384 .i32).view fb t _ (valB L k) hfb (pay3_lane L k t)
    · unfold invI
      isplitl [Ha]
      · iexists _; isplitl [Ha]; · iexact Ha
        ipureintro; intro j hj; omega
      · iexists _; isplitl [Hb]; · iexact Hb
        ipureintro; intro j hj; omega
    iintro %_ HI
    unfold invI
    icases HI with ⟨⟨%fa', Ha, %hfa⟩, ⟨%fb', Hb, %hfb⟩⟩
    ihave Hc0' := (Entails.of_eq (pts_c0 (F := F) d L k _).symm) $$ Hc0
    ihave Hc1' := (Entails.of_eq (pts_c1 (F := F) d L k _).symm) $$ Hc1
    sl_exec
    have hlanes : ∀ j : S16384.Idx, (j 0).val < 16 * Scf.trips k2_t2_loop.lb k2_t2_loop.ub k2_t2_loop.st := fun j => by
      have h1 : (j 0).val < 16384 := (j 0).isLt
      have h2 : Scf.trips k2_t2_loop.lb k2_t2_loop.ub k2_t2_loop.st = 1024 := trips_t2
      omega
    sl_unfold_run_names
    ihave Hd0 := (Entails.of_eq (land0 (F := F) d L k g0 _ (fun j => hfa j (hlanes j)))) $$ Hc0'
    ihave Hd1 := (Entails.of_eq (land1 (F := F) d L k g1 _ (fun j => hfb j (hlanes j)))) $$ Hc1'
    sl_step
    rw [← chunksAt_put]
    isplitl [Hmw]; · iexact Hmw
    isplitl [Ha]; · iexists _; iexact Ha
    isplitl [Hb]; · iexists _; iexact Hb
    isplitl [HsemA]; · iexact HsemA
    isplitl [HsemB]; · iexact HsemB
    isplitl [Hd0 Hd1 Hrest]
    · isplitl [Hd0 Hd1]
      · isplitl [Hd0]; · iexact Hd0
        iexact Hd1
      · iexact Hrest
    iexists (insert (SemLoc.dma cc2_scoped1.sem, (default : HIx 1)) (insert (SemLoc.dma cc2_scoped0.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invO
    rw [chunksAt_zero]
    isplitl [Hmw]; · iexact Hmw
    isplitl [Ha']; · iexists _; iexact Ha'
    isplitl [Hb']; · iexists _; iexact Hb'
    isplitl [HsemA]; · iexact HsemA
    isplitl [HsemB]; · iexact HsemB
    isplitl [Hgo]; · iexact Hgo
    iexists W; isplitr
    · ipureintro; exact fun p hp => .inl hp
    · iexact HO
  iintro %_ HI
  unfold invO
  rw [chunksAt_all]
  icases HI with ⟨-, ⟨%fa', Ha⟩, ⟨%fb', Hb⟩, HsemA, HsemB, Hdone, %W', %hW', HO⟩
  sl_exec
  sl_step
  isplitl [Hdone]; · iexact Hdone
  isplitl [Ha Hb Hbufs]
  · isplitl [Ha]; · iexists _; iapply (Entails.of_eq (pts_sA (F := F) d L _)); iexact Ha
    isplitl [Hb]; · iexists _; iapply (Entails.of_eq (pts_sB (F := F) d L _)); iexact Hb
    iexact Hbufs
  isplitl [HsemA HsemB Hsems]
  · isplitl [HsemA]; · iexact HsemA
    isplitl [HsemB]; · iexact HsemB
    iexact Hsems
  iexists W'; isplitr
  · ipureintro; exact hW'
  · iexact HO

end Tile

/-! ## The launch's obligation -/

variable [FloatOps F]

theorem defs₀_vector (c : Fin τ.nSC) (s : Fin τ.nSub) :
    defs₀ (F := F) (.scVector c s) 2 ()
      = SparseCore.onTile hcore2 hsub2 (fun c s => cc2__idx_sc (tileAt c s)
          oV (Memref.isWhole_whole _) sA (Memref.isWhole_whole _) sB (Memref.isWhole_whole _) cc2_scoped0 cc2_scoped1) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem obl : (K (F := F)).TileObl (D (F := F)) 𝒱 (P (F := F)) v₀ 0 := by
  intro d c i O W hO _ _
  simp only [show (P (F := F)).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact (tile_body (F := F) d (tileAt ⟨_, hc.1⟩ ⟨_, hc.2⟩) facts O W hO).trans (wp_mono frame _ _ fun _ => obl_post)

end Tile

/-- The body obligation of the one SparseCore call: every vector subcore's task, from its chunks at any contents to its
    chunks at the specification. -/
theorem tileObl [FloatOps F] : (K (F := F)).TileObl (D (F := F)) 𝒱 (P (F := F)) v₀ 0 := Tile.obl

end Cert.Proof.KI

end
-- ==== Proof.KI.Run.lean ====
/-
  The whole run. On the TensorCore: the two pipelines' regions one after the other, each entered from the region
  boundary with its own cells and duty tokens, then the SparseCore call over the index array split into the subcores'
  chunks, then the reshape. Beside it the two sequencers dispatch, and the 2 x 16 subcores run, the index kernel. The
  launch theorem for such programs turns these into: every weakly fair execution of all the threads terminates
  without a fault, and the final memory holds the six arrays at the contents named here; in particular the argument
  array is as launched.
-/
import proofs.«215737_g33157147525312_cont_8to1_b_501_7_alg».proof.Proof.KI.Segs1
import proofs.«215737_g33157147525312_cont_8to1_b_501_7_alg».proof.Proof.KI.Ghost
import proofs.«215737_g33157147525312_cont_8to1_b_501_7_alg».proof.Proof.KI.Cover
import proofs.«215737_g33157147525312_cont_8to1_b_501_7_alg».proof.Proof.KI.Tile

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the launch deals the TensorCore -/

theorem unscopedBufs_eq (d : Dev nD) (Wb : (b : Ref sig .tc) → Buf (Elt F) ((d.tc : Thread nD τ).loc b)) :
    (unscopedBufs d Wb : sProp 𝕄)
      = iprop(((SparseCore.T d).loc main_arg0 ↦{fullShare} Wb main_arg0) ∗ ((SparseCore.T d).loc main_v0 ↦{fullShare} Wb main_v0)
          ∗ ((SparseCore.T d).loc main_v1_0 ↦{fullShare} Wb main_v1_0) ∗ ((SparseCore.T d).loc main_v1_1 ↦{fullShare} Wb main_v1_1)
          ∗ (oLoc d ↦{fullShare} Wb main_v2) ∗ ((SparseCore.T d).loc main_v3 ↦{fullShare} Wb main_v3)) := by
  unfold unscopedBufs
  rw [show (Finset.univ.filter fun b : Ref sig .tc => ¬ b.isScoped) = {main_arg0, main_v0, main_v1_0, main_v1_1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) :
    (unscopedBufs d (fun b => m ((SparseCore.T d).loc b)) : sProp 𝕄) = held (T d) S6 (W0 m d) := by
  rw [unscopedBufs_eq, held_S6]

/-- The TensorCore's state before the call is what it owes, with its recorded waits bounded, beside the rest. -/
theorem tcSt0_split (d : Dev nD) : ∃ R : sProp 𝕄, (K (F := F)).tcSt EH d 0
    = iprop((∃ W, ⌜(K (F := F)).WBelow (T d) W (8 * 0)⌝ ∗ owes (T d) ((K (F := F)).Otc d 0) W) ∗ R) := ⟨_, rfl⟩

/-- A recorded pair at level 0 sits at the kernels' own index, and conversely. -/
theorem none_of_WBelow (d : Dev nD) (W : Waits sig (HIx 1)) (h : (K (F := F)).WBelow (T d) W (8 * 0)) : ∀ p ∈ W, p.2 = none := by
  intro p hp
  rcases p with ⟨s, _ | q⟩
  · rfl
  · have h1 : (K (F := F)).lev (T d, s) (some q) ≤ 8 * 0 := h _ hp
    have h2 : 0 < (K (F := F)).lev (T d, s) (some q) := (K (F := F)).lev_some_pos (T d, s) q
    omega
theorem WBelow_of_none (d : Dev nD) (W : Waits sig (HIx 1)) (h : ∀ p ∈ W, p.2 = none) : (K (F := F)).WBelow (T d) W (8 * 0) := by
  intro p hp
  rcases p with ⟨s, q⟩
  have hq : q = none := h _ hp
  subst hq
  exact le_of_eq (SparseCore.Cfg.lev_none _ _)

/-- The first region is entered from the launch contents; -/
theorem pre0_intro (d : Dev nD) (r : PrngReg) (Wt : Waits sig (HIx 1)) (hWt : ∀ p ∈ Wt, p.2 = none) :
    iprop(held (T d) S6 (W0 m d) ∗ prngReg d r ∗ owes (T d) ((K (F := F)).Otc d 0) Wt) ⊢ ((reg0 m).pre d : sProp 𝕄) := by
  show _ ⊢ St d (W0 m d)
  unfold St owesN
  iintro ⟨H1, H2, H3⟩
  isplitl [H1]; · iexact H1
  isplitl [H2]; · iexists r; iexact H2
  iexists Wt; isplitr; · ipureintro; exact hWt
  iexact H3
/-- the second from what the first leaves; -/
theorem post0_pre1 (d : Dev nD) : ((reg0 m).post d : sProp 𝕄) ⊢ (reg1 m).pre d := by
  show St d (W1 m d) ⊢ St d (W1 m d)
  exact .rfl
/-- and it leaves the six arrays at the last contents, the register, the debt. -/
theorem post1_elim (d : Dev nD) : ((reg1 m).post d : sProp 𝕄)
    ⊢ iprop(held (T d) S6 (W2 m d) ∗ (∃ r, prngReg d r)
        ∗ ∃ Wt : Waits sig (HIx 1), ⌜∀ p ∈ Wt, p.2 = none⌝ ∗ owes (T d) ((K (F := F)).Otc d 0) Wt) := by
  show St d (W2 m d) ⊢ _
  unfold St owesN
  exact .rfl

/-! ## The pipelines' cells, as the region rule spells them -/

set_option backward.isDefEq.respectTransparency.types false in
/-- The staging cells of the two pipelines are pairwise distinct. -/
theorem phinj' : Function.Injective (Pipeline.cellOf (nD := nD) (τ := τ) (Pipeline.pin (pcfgs (F := F)) adm)) := cellOf_inj
set_option backward.isDefEq.respectTransparency.types false in
theorem cg_conv (p : Fin 2) (d : Dev nD) :
    (Pipeline.cellsGhost (Ix := HIx 1) (Val := Elt F) (Name := ℕ) (U := UU) (Lvl := ℕ) cfgs (EP (F := F)) p d : sProp 𝕄)
      = Pipeline.cellsGhost (Ix := HIx 1) (Val := Elt F) (Name := ℕ) (U := UU) (Lvl := ℕ) (Pipeline.pin (pcfgs (F := F)) adm) (EP (F := F)) p d := rfl
set_option backward.isDefEq.respectTransparency.types false in
theorem tk_conv (p : Fin 2) (d : Dev nD) :
    (Pipeline.toksInit (Ix := HIx 1) (Val := Elt F) (Name := ℕ) (U := UU) (Lvl := ℕ) cfgs (EP (F := F)) p d : sProp 𝕄)
      = Pipeline.toksInit (Ix := HIx 1) (Val := Elt F) (Name := ℕ) (U := UU) (Lvl := ℕ) (Pipeline.pin (pcfgs (F := F)) adm) (EP (F := F)) p d := rfl

/-- The call and the reshape from the contents the second region leaves, the boundary dropped at the end. -/
theorem tail2 (κ : GSem nD τ sig → ℕ) (d : Dev nD) :
    iprop((K (F := F)).ctx EH (P (F := F)) κ ∗ (K (F := F)).tcSt EH d 0 ∗ boundary (T d) ∗ held (T d) S6 (W2 m d))
      ⊢ wp frame (wpE ((K (F := F)).defs (D (F := F))) 𝒱 (SparseCore.T d) none) Set.univ (sc.run d 0)
          fun _ => wp frame (wpE ((K (F := F)).defs (D (F := F))) 𝒱 (SparseCore.T d) none) Set.univ
            (hlo rfl (opFlat (F := F)) (fun _ => (.ret ⟨⟩ : Prog (TpuEff nD τ sig (Elt F) (SparseCore.Sig (ΛP (F := F)) 1) .tc) PUnit)))
            fun _ => iprop(|={Set.univ}=> ((K (F := F)).tcSt EH d 1 ∗ FIN d (W2 m d))) :=
  (tail κ d (W2 m d) (out_split d) (out_join d)).trans
    (wp_mono frame _ _ fun _ => wp_mono frame _ _ fun _ => by
      iintro ⟨H1, -, H3⟩; imodintro; isplitl [H1] <;> iassumption)

/-! ## @main on the TensorCore -/

set_option maxHeartbeats 1000000 in
theorem hmain [∀ e, Nonempty (Elt F e)] (κ : GSem nD τ sig → ℕ) (d : Dev nD) :
    iprop((K (F := F)).ctx EH (P (F := F)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN d (W2 m d)) := by
  obtain ⟨Rst, hRst⟩ := tcSt0_split (F := F) d
  have htail := tail2 m κ d
  rw [hRst] at htail ⊢
  unfold SparseCore.Cfg.tcRes G
  rw [unscoped_held, bigSep_W0, bigSep_W0, cg_conv 0 d, cg_conv 1 d, tk_conv 0 d, tk_conv 1 d]
  simp only [main, wp_bind, wp_pure]
  iintro ⟨#Hctx, ⟨⟨%Wt, %hWt, HO⟩, HR⟩, ⟨Hb, Hheld, -, Hprng⟩, ⟨Hcg0, Hcg1⟩, ⟨Htk0, Htk1⟩⟩
  ihave Hlev := (SparseCore.Cfg.ctx_levAts κ) $$ Hctx
  iapply (wp_region (pdats m) phinj' (reg0 m) d _) $$ [HO HR Hb Hheld Hprng Hcg0 Hcg1 Htk0 Htk1]
  isplitl [HR Hcg1 Htk1]
  swap
  · isplitl [Hb]; · iexact Hb
    isplitl [Hheld Hprng HO]
    · iapply (pre0_intro m d (ρ d) Wt (none_of_WBelow d Wt hWt))
      isplitl [Hheld]; · iexact Hheld
      isplitl [Hprng]; · iexact Hprng
      iexact HO
    isplitr; · iexact Hlev
    isplitl [Hcg0]; · iexact Hcg0
    iexact Htk0
  iintro ⟨Hb, Hpost⟩
  iapply (wp_region (pdats m) phinj' (reg1 m) d _) $$ [HR Hb Hpost Hcg1 Htk1]
  isplitl [HR]
  swap
  · isplitl [Hb]; · iexact Hb
    isplitl [Hpost]; · iapply (post0_pre1 m d); iexact Hpost
    isplitr; · iexact Hlev
    isplitl [Hcg1]; · iexact Hcg1
    iexact Htk1
  iintro ⟨Hb, Hpost⟩
  ihave Hpost' := (post1_elim m d) $$ Hpost
  icases Hpost' with ⟨Hheld, -, ⟨%Wt', %hWt', HO⟩⟩
  iapply htail $$ [HR Hb Hheld HO]
  isplitr; · iexact Hctx
  isplitl [HO HR]
  · isplitl [HO]
    · iexists Wt'; isplitr; · ipureintro; exact WBelow_of_none d Wt' hWt'
      iexact HO
    iexact HR
  isplitl [Hb]; · iexact Hb
  iexact Hheld

/-! ## Reading the final memory -/

/-- The final memory holds the six arrays at the valuation the TensorCore returns with. -/
abbrev fq (d : Dev nD) (s' : Phys nD τ sig (Elt F)) : Prop :=
  ∀ b ∈ S6, s'.mem.mem ((SparseCore.T (τ := τ) d).1, b) = (opFlat (F := F)).result (Wcall d (W2 m d)) b

theorem hfin (d : Dev nD) (s' : Phys nD τ sig (Elt F)) : iprop(FIN d (W2 m d) ∗ SI s') ⊢ (⌜fq m d s'⌝ : sProp 𝕄) := by
  unfold FIN held
  iintro ⟨Hh, HSI⟩
  ihave H := (pointsTo_read_all S6 (fun b => ((SparseCore.T (τ := τ) d).1, b)) ((opFlat (F := F)).result (Wcall d (W2 m d))) s') $$ [Hh HSI]
  · isplitl [Hh] <;> iassumption
  icases H with ⟨%h, -⟩
  ipureintro; exact h

/-! ## The run -/

/-- Every final memory has the six arrays at the returned valuation, on every device. -/
abbrev QC : PUnit × MemSt nD τ sig (Elt F) → Prop :=
  fun r => ∀ d : Dev nD, ∀ b ∈ S6, r.2.mem ((SparseCore.T (τ := τ) d).1, b) = (opFlat (F := F)).result (Wcall d (W2 m d)) b

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (F := F)) facts v₀
    (fun q hq => match q with | 0 => nomatch hq)
    (fun q _ => match q with | 0 => tileObl)
    (fun q _ => match q with | 0 => SparseCore.Cfg.VecSplit.of_plain vecSplit)
    m ρ main (fun d => G (F := F) d) (fun d => FIN d (W2 m d)) (u₀ (F := F)) hu₀ (hmain m ρ) (fq m) (hfin m) (QC m)
    (fun _ h d => h d)

/-- The argument array ends as launched. -/
theorem arg_kept (d : Dev nD) : (opFlat (F := F)).result (Wcall d (W2 m d)) rArg0 = m ((SparseCore.T d).loc main_arg0) := by
  rw [(opFlat (F := F)).result_of_not_mem _ (b := rArg0) (show rArg0 ∉ ({rV3} : Finset (DevRef τ sig)) by decide),
    Wcall_of_ne d _ rArg0 (by decide), W2_of_ne m d rArg0 (by decide) (by decide), W1_of_ne m d rArg0 (by decide)]

/-- The frame: the run, read at the argument array. -/
theorem frame [∀ e, Nonempty (Elt F e)] :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)) :=
  (θ_run _ _ _).mono (fun _ h c => (h c rArg0 (by decide)).trans (arg_kept m c)) (run_main m ρ)

end Cert.Proof.KI

end
-- ==== Proof.KI.Val0.lean ====
/-
  Region 0 in closed form. The call has one point and each window's block is its whole array, so the input
  window's block is the input array as the region finds it, the one write-back writes the normalisation of that
  array over the whole output array, and the input array is never written.
-/
import proofs.«215737_g33157147525312_cont_8to1_b_501_7_alg».proof.Proof.KI.Reg0
import Idealize.ShloMosaic.Lib.Pipeline.Value

set_option maxRecDepth 16384

noncomputable section

namespace Cert.Proof.KI

open Cert.KernelIdeal Cert.KernelIdeal.Gen
open Idealize.ShloMosaic Idealize.ShloMosaic.TcCoe
open Idealize.ShloMosaic.SparseCore.Cfg (HIx)
open Idealize.SL.Sem
open Idealize.ShloMosaic.Pipeline (Dat)

variable {F : FTy → Type} [FloatOps F]

variable (V : (c : Dev nD) → (b : Ref sig .tc) → Buf (Elt F) ((c : Thread nD τ).loc b))

/-- The offsets of the body's one rectangle are zero on both axes. -/
theorem zeros2 : (![0, 0] : Fin 2 → Nat) = fun _ => 0 := funext fun a => by fin_cases a <;> rfl

/-- One store of a payload through the whole-buffer rectangle, after a load through it, leaves the payload of
    the buffer's contents. -/
theorem out0_1_eq (x0 : Vec F S4096x128 .f32) : out0_1 x0 = k0_pay1 x0 := by
  unfold out0_1
  rw [View.canon_unit_zero zeros2]
  simp only [View.ld_unit_zero (S := S4096x128) zeros2]

/-- Either window's block sits at offset zero of its array. -/
theorem off0_0 (t : Fin cfg0.N) : (fun a => win0_0.index t a * main_arg0.ty.shape.size a) = fun _ => 0 :=
  funext fun a => Nat.zero_mul _
theorem off0_1 (t : Fin cfg0.N) : (fun a => win0_1.index t a * main_v0.ty.shape.size a) = fun _ => 0 :=
  funext fun a => Nat.zero_mul _

/-- The input window's block is the input array. -/
theorem iblk0_0_eq (c : Dev nD) (t : Fin cfg0.N) : iblk0 V c 0 t = V c main_arg0 :=
  Memref.read_access_unit_zero (Elt F) main_arg0 (off0_0 t) (fun a => by rw [congrFun (off0_0 t) a]; simp) (V c main_arg0)

/-- What the point writes back is the whole of the normalised input array. -/
theorem flushed0_1_eq (c : Dev nD) (t : Fin cfg0.N) :
    (dat0 V c).flushed 1 t = ((cfg0.win 1).blk t).view.read (Elt F) (k0_pay1 (V c main_arg0)) := by
  show (cfg0.win 1).cut (grid0.coords t) ((dat0 V c).after 1 t) = _
  rw [after0_1, out0_1_eq, iblk0_0_eq]
  exact (Memref.read_access_unit_zero (Elt F) main_v0 (off0_1 t) (fun a => by rw [congrFun (off0_1 t) a]; simp) (k0_pay1 (V c main_arg0))).symm

/-- The output array after the region: the normalisation of the input array as the region found it. -/
theorem final0_1 (c : Dev nD) : (dat0 V c).arrAt 1 cfg0.N = k0_pay1 (V c main_arg0) :=
  (dat0 V c).arrAt_eq_of_cover 1 (k0_pay1 (V c main_arg0)) (fun t _ => flushed0_1_eq V c t) fun i =>
    ⟨t0_0, flush0_1 t0_0, by
      show i ∈ ((View.whole main_v0).slice (win0_1.rect t0_0)).set
      rw [View.set_slice_whole, Rect.mem_set_unit]
      intro a
      have hi : (i a).val < main_v0.ty.shape.size a := (i a).isLt
      show 0 * main_v0.ty.shape.size a ≤ (i a).val ∧ (i a).val < 0 * main_v0.ty.shape.size a + main_v0.ty.shape.size a
      omega⟩

/-- The input array after the region: as the region found it. -/
theorem final0_0 (c : Dev nD) : (dat0 V c).arrAt 0 cfg0.N = V c main_arg0 :=
  ((dat0 V c).arrAt_in 0 rfl cfg0.N).trans (A_eq0 V c 0)

end Cert.Proof.KI

end
-- ==== Proof.KI.Val1.lean ====
/-
  Region 1 in closed form. Point `t` of the sixteen writes back rows 256 t .. 256 t + 255 of the 4096 x 4096
  array and rows 8192 t .. 8192 t + 8191 of the 131072 x 128 array, so each output array after the region is one
  function of the normalised input array `y` as the region found it: at an index, the body's payload at the grid
  point whose block holds the index, of that point's 256-row block of `y` and of the whole `y`, read at the
  index's position inside the block. The blocks of each output tile its array; the input array is never written.
-/
import proofs.«215737_g33157147525312_cont_8to1_b_501_7_alg».proof.Proof.KI.Reg1
import Idealize.ShloMosaic.Lib.Pipeline.Value

set_option maxRecDepth 16384

noncomputable section

namespace Cert.Proof.KI

open Cert.KernelIdeal Cert.KernelIdeal.Gen
open Idealize.ShloMosaic Idealize.ShloMosaic.TcCoe
open Idealize.ShloMosaic.SparseCore.Cfg (HIx)
open Idealize.SL.Sem
open Idealize.ShloMosaic.Pipeline (Dat)

variable {F : FTy → Type} [FloatOps F]

/-! ## The whole-array functions -/

/-- The grid point whose block of 256 rows holds row `r` of 4096, -/
def ptRow (r : Nat) (h : r < 4096) : Fin grid1.N := ⟨r / 256, by rw [N_1]; omega⟩
/-- and the one whose block of 8192 rows holds row `r` of 131072. -/
def ptRow8 (r : Nat) (h : r < 131072) : Fin grid1.N := ⟨r / 8192, by rw [N_1]; omega⟩

/-- Rows 256 t .. 256 t + 255 of `y`: what the row-block window stages at point `t`. -/
def rowBlk (y : Vec F S4096x128 .f32) (t : Fin grid1.N) : Vec F S256x128 .f32 :=
  ((cfg1.win 0).blk t).view.read (Elt F) y

/-- An index of the 4096 x 4096 array, inside its block of 256 rows; -/
def inBlk2 (j : S4096x4096.Idx) : S256x4096.Idx := fun
  | ⟨0, _⟩ => ⟨(j 0).val % 256, Nat.mod_lt _ (by decide)⟩
  | ⟨1, _⟩ => ⟨(j 1).val, (j 1).isLt⟩
  | ⟨_ + 2, h⟩ => absurd h (Nat.not_lt.2 (Nat.le_add_left _ _))
/-- an index of the 131072 x 128 array, inside its block of 8192 rows. -/
def inBlk3 (j : S131072x128.Idx) : S8192x128.Idx := fun
  | ⟨0, _⟩ => ⟨(j 0).val % 8192, Nat.mod_lt _ (by decide)⟩
  | ⟨1, _⟩ => ⟨(j 1).val, (j 1).isLt⟩
  | ⟨_ + 2, h⟩ => absurd h (Nat.not_lt.2 (Nat.le_add_left _ _))

/-- The 4096 x 4096 array after the region, as a function of the normalised array `y`. -/
def adjK (y : Vec F S4096x128 .f32) : S4096x4096.Idx → F .f32 := fun j =>
  k1_pay1 (grid1.coords (ptRow (j 0).val (j 0).isLt)) (rowBlk y (ptRow (j 0).val (j 0).isLt)) y (inBlk2 j)

/-- The 131072 x 128 array after the region, as a function of `y`. -/
def attrK (y : Vec F S4096x128 .f32) : S131072x128.Idx → F .f32 := fun j =>
  k1_pay2 (grid1.coords (ptRow8 (j 0).val (j 0).isLt)) (rowBlk y (ptRow8 (j 0).val (j 0).isLt)) y (inBlk3 j)

/-- At row `256 t + z 0` and column `z 1`, `adjK` is point `t`'s payload at `z`. -/
theorem adjK_at (y : Vec F S4096x128 .f32) (t : Fin grid1.N) (j : S4096x4096.Idx) (z : S256x4096.Idx)
    (h0 : (j 0).val = 256 * t.val + (z 0).val) (h1 : (j 1).val = (z 1).val) :
    adjK y j = k1_pay1 (grid1.coords t) (rowBlk y t) y z := by
  have hz0 : (z 0).val < 256 := (z 0).isLt
  have pt : ptRow (j 0).val (j 0).isLt = t := Fin.ext (by show (j 0).val / 256 = t.val; omega)
  have pz : inBlk2 j = z := by
    funext a
    match a with
    | ⟨0, _⟩ => exact Fin.ext (by show (j 0).val % 256 = (z 0).val; omega)
    | ⟨1, _⟩ => exact Fin.ext (by show (j 1).val = (z 1).val; exact h1)
  unfold adjK
  rw [pt, pz]

/-- At row `8192 t + z 0` and column `z 1`, `attrK` is point `t`'s re-laid payload at `z`. -/
theorem attrK_at (y : Vec F S4096x128 .f32) (t : Fin grid1.N) (j : S131072x128.Idx) (z : S8192x128.Idx)
    (h0 : (j 0).val = 8192 * t.val + (z 0).val) (h1 : (j 1).val = (z 1).val) :
    attrK y j = k1_pay2 (grid1.coords t) (rowBlk y t) y z := by
  have hz0 : (z 0).val < 8192 := (z 0).isLt
  have pt : ptRow8 (j 0).val (j 0).isLt = t := Fin.ext (by show (j 0).val / 8192 = t.val; omega)
  have pz : inBlk3 j = z := by
    funext a
    match a with
    | ⟨0, _⟩ => exact Fin.ext (by show (j 0).val % 8192 = (z 0).val; omega)
    | ⟨1, _⟩ => exact Fin.ext (by show (j 1).val = (z 1).val; exact h1)
  unfold attrK
  rw [pt, pz]

/-! ## The block indices, decided over the grid -/

/-- Point `t` stages and writes back block `(t, 0)` of each tiled array and block `(0, 0)` of the whole one. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row `x 0` of block `t` of `y` is row `256 t + x 0` of `y`. -/
theorem rowBlk_apply (y : Vec F S4096x128 .f32) (t : Fin grid1.N) (x : S256x128.Idx) (k : S4096x128.Idx)
    (hk0 : (k 0).val = 256 * t.val + (x 0).val) (hk1 : (k 1).val = (x 1).val) : rowBlk y t x = y k := by
  obtain ⟨e0, e1, -⟩ := idx1 t
  unfold rowBlk
  rw [View.read_apply]
  show y _ = y k
  congr 1
  funext a
  apply Fin.ext
  match a with
  | ⟨0, _⟩ => show win1_0.index t (0 : Fin 2) * 256 + 1 * (x 0).val = (k 0).val; rw [e0, hk0]; omega
  | ⟨1, _⟩ => show win1_0.index t (1 : Fin 2) * 128 + 1 * (x 1).val = (k 1).val; rw [e1, hk1]; omega

variable (V : (c : Dev nD) → (b : Ref sig .tc) → Buf (Elt F) ((c : Thread nD τ).loc b))

/-! ## What the body leaves, and the whole-array window's block -/

theorem zeroOff1 : (![0, 0] : Fin 2 → Nat) = fun _ => 0 := funext fun a => by fin_cases a <;> rfl

theorem out1_2_eq (i : grid1.Coords) (x0 : Vec F S256x128 .f32) (x1 : Vec F S4096x128 .f32) : out1_2 i x0 x1 = k1_pay1 i x0 x1 := by
  unfold out1_2
  rw [View.canon_unit_zero zeroOff1]
  simp only [View.ld_unit_zero (S := S256x128) zeroOff1, View.ld_unit_zero (S := S4096x128) zeroOff1]

theorem out1_3_eq (i : grid1.Coords) (x0 : Vec F S256x128 .f32) (x1 : Vec F S4096x128 .f32) : out1_3 i x0 x1 = k1_pay2 i x0 x1 := by
  unfold out1_3
  rw [View.canon_unit_zero zeroOff1]
  simp only [View.ld_unit_zero (S := S256x128) zeroOff1, View.ld_unit_zero (S := S4096x128) zeroOff1]

/-- The whole-array window's block sits at offset zero at every point, -/
theorem off1_1 (t : Fin cfg1.N) : (fun a => win1_1.index t a * main_v0.ty.shape.size a) = fun _ => 0 := by
  obtain ⟨-, -, e0, e1, -⟩ := idx1 t
  funext a
  match a with
  | ⟨0, _⟩ => show win1_1.index t (0 : Fin 2) * _ = 0; rw [e0]; exact Nat.zero_mul _
  | ⟨1, _⟩ => show win1_1.index t (1 : Fin 2) * _ = 0; rw [e1]; exact Nat.zero_mul _

/-- so it is the array. -/
theorem iblk1_1_eq (c : Dev nD) (t : Fin cfg1.N) : iblk1 V c 1 t = V c main_v0 :=
  Memref.read_access_unit_zero (Elt F) main_v0 (off1_1 t) (fun a => by rw [congrFun (off1_1 t) a]; simp) (V c main_v0)

/-! ## What each point writes back -/

theorem flushed1_2_eq (c : Dev nD) (t : Fin cfg1.N) :
    (dat1 V c).flushed 2 t = ((cfg1.win 2).blk t).view.read (Elt F) (adjK (V c main_v0)) := by
  show (cfg1.win 2).cut (grid1.coords t) ((dat1 V c).after 2 t) = _
  rw [after1_2, out1_2_eq, iblk1_1_eq]
  obtain ⟨-, -, -, -, e4, e5, -, -⟩ := idx1 t
  funext z
  rw [View.read_apply]
  show k1_pay1 (grid1.coords t) (iblk1 V c 0 t) (V c main_v0) z = adjK (V c main_v0) (((cfg1.win 2).blk t).view.emb z)
  refine (adjK_at (V c main_v0) t _ z ?_ ?_).symm
  · show win1_2.index t (0 : Fin 2) * 256 + 1 * (z 0).val = 256 * t.val + (z 0).val
    rw [e4]; omega
  · show win1_2.index t (1 : Fin 2) * 4096 + 1 * (z 1).val = (z 1).val
    rw [e5]; omega

theorem flushed1_3_eq (c : Dev nD) (t : Fin cfg1.N) :
    (dat1 V c).flushed 3 t = ((cfg1.win 3).blk t).view.read (Elt F) (attrK (V c main_v0)) := by
  show (cfg1.win 3).cut (grid1.coords t) ((dat1 V c).after 3 t) = _
  rw [after1_3, out1_3_eq, iblk1_1_eq]
  obtain ⟨-, -, -, -, -, -, e6, e7⟩ := idx1 t
  funext z
  rw [View.read_apply]
  show k1_pay2 (grid1.coords t) (iblk1 V c 0 t) (V c main_v0) z = attrK (V c main_v0) (((cfg1.win 3).blk t).view.emb z)
  refine (attrK_at (V c main_v0) t _ z ?_ ?_).symm
  · show win1_3.index t (0 : Fin 2) * 8192 + 1 * (z 0).val = 8192 * t.val + (z 0).val
    rw [e6]; omega
  · show win1_3.index t (1 : Fin 2) * 128 + 1 * (z 1).val = (z 1).val
    rw [e7]; omega

/-! ## The blocks tile the arrays -/

theorem mem_blk1_2 (t : Fin cfg1.N) (i : S4096x4096.Idx) :
    i ∈ ((cfg1.win 2).blk t).view.set ↔ ∀ a : Fin 2, win1_2.index t a * S256x4096.size a ≤ (i a).val ∧ (i a).val < win1_2.index t a * S256x4096.size a + S256x4096.size a := by
  show i ∈ ((View.whole main_v1_0).slice (win1_2.rect t)).set ↔ _
  rw [View.set_slice_whole, Rect.mem_set_unit]
  exact Iff.rfl

theorem mem_blk1_3 (t : Fin cfg1.N) (i : S131072x128.Idx) :
    i ∈ ((cfg1.win 3).blk t).view.set ↔ ∀ a : Fin 2, win1_3.index t a * S8192x128.size a ≤ (i a).val ∧ (i a).val < win1_3.index t a * S8192x128.size a + S8192x128.size a := by
  show i ∈ ((View.whole main_v1_1).slice (win1_3.rect t)).set ↔ _
  rw [View.set_slice_whole, Rect.mem_set_unit]
  exact Iff.rfl

/-- Row `r` of the 4096 x 4096 array is in the block of point `r / 256`, which is written back. -/
theorem cover1_2_arr (i : S4096x4096.Idx) : ∃ t : Fin cfg1.N, (cfg1.win 2).flush t = true ∧ i ∈ ((cfg1.win 2).blk t).view.set := by
  have hi0 : (i 0).val < 4096 := (i 0).isLt
  have hi1 : (i 1).val < 4096 := (i 1).isLt
  refine ⟨ptRow (i 0).val hi0, flush1_2 _, ?_⟩
  rw [mem_blk1_2]
  obtain ⟨-, -, -, -, e4, e5, -, -⟩ := idx1 (ptRow (i 0).val hi0)
  have hp : (ptRow (i 0).val hi0).val = (i 0).val / 256 := rfl
  intro a
  match a with
  | ⟨0, _⟩ => show win1_2.index (ptRow (i 0).val hi0) (0 : Fin 2) * 256 ≤ (i 0).val ∧ (i 0).val < win1_2.index (ptRow (i 0).val hi0) (0 : Fin 2) * 256 + 256
              rw [e4, hp]; omega
  | ⟨1, _⟩ => show win1_2.index (ptRow (i 0).val hi0) (1 : Fin 2) * 4096 ≤ (i 1).val ∧ (i 1).val < win1_2.index (ptRow (i 0).val hi0) (1 : Fin 2) * 4096 + 4096
              rw [e5]; omega

/-- Row `r` of the 131072 x 128 array is in the block of point `r / 8192`, which is written back. -/
theorem cover1_3_arr (i : S131072x128.Idx) : ∃ t : Fin cfg1.N, (cfg1.win 3).flush t = true ∧ i ∈ ((cfg1.win 3).blk t).view.set := by
  have hi0 : (i 0).val < 131072 := (i 0).isLt
  have hi1 : (i 1).val < 128 := (i 1).isLt
  refine ⟨ptRow8 (i 0).val hi0, flush1_3 _, ?_⟩
  rw [mem_blk1_3]
  obtain ⟨-, -, -, -, -, -, e6, e7⟩ := idx1 (ptRow8 (i 0).val hi0)
  have hp : (ptRow8 (i 0).val hi0).val = (i 0).val / 8192 := rfl
  intro a
  match a with
  | ⟨0, _⟩ => show win1_3.index (ptRow8 (i 0).val hi0) (0 : Fin 2) * 8192 ≤ (i 0).val ∧ (i 0).val < win1_3.index (ptRow8 (i 0).val hi0) (0 : Fin 2) * 8192 + 8192
              rw [e6, hp]; omega
  | ⟨1, _⟩ => show win1_3.index (ptRow8 (i 0).val hi0) (1 : Fin 2) * 128 ≤ (i 1).val ∧ (i 1).val < win1_3.index (ptRow8 (i 0).val hi0) (1 : Fin 2) * 128 + 128
              rw [e7]; omega

/-! ## The arrays after the region -/

theorem final1_2 (c : Dev nD) : (dat1 V c).arrAt 2 cfg1.N = adjK (V c main_v0) :=
  (dat1 V c).arrAt_eq_of_cover 2 (adjK (V c main_v0)) (fun t _ => flushed1_2_eq V c t) fun i => cover1_2_arr i

theorem final1_3 (c : Dev nD) : (dat1 V c).arrAt 3 cfg1.N = attrK (V c main_v0) :=
  (dat1 V c).arrAt_eq_of_cover 3 (attrK (V c main_v0)) (fun t _ => flushed1_3_eq V c t) fun i => cover1_3_arr i

/-- The input array, read through either window, is as the region found it. -/
theorem final1_0 (c : Dev nD) : (dat1 V c).arrAt 0 cfg1.N = V c main_v0 :=
  ((dat1 V c).arrAt_in 0 rfl cfg1.N).trans (A_eq1 V c 0)
theorem final1_1 (c : Dev nD) : (dat1 V c).arrAt 1 cfg1.N = V c main_v0 :=
  ((dat1 V c).arrAt_in 1 rfl cfg1.N).trans (A_eq1 V c 1)

end Cert.Proof.KI

end
-- ==== Proof.KI.Values.lean ====
/-
  What the TensorCore's six arrays hold at its return, as pure terms of the launch memory.

  The valuation the run ends with is built in layers: the launch contents; the normalised array as the first call's
  write-back left it; the two result arrays as the second call's write-backs left them; the index array as the
  SparseCore call left it; the flat array as the reshape wrote it. Read at each result this gives: the argument
  array as launched (no call writes it), the index array at its specified contents, the 4096 x 4096 array as the one
  whole-array function of the second call's blocks applied to the first call's store of the argument array, and
  the flat array as the row-major reshape of the 131072 x 128 array, which is the other whole-array function of
  the same.
-/
import proofs.«215737_g33157147525312_cont_8to1_b_501_7_alg».proof.Proof.KI.Segs
import proofs.«215737_g33157147525312_cont_8to1_b_501_7_alg».proof.Proof.KI.Val0
import proofs.«215737_g33157147525312_cont_8to1_b_501_7_alg».proof.Proof.KI.Val1

set_option maxRecDepth 16384

noncomputable section

namespace Cert.Proof.KI

open Cert.KernelIdeal Cert.KernelIdeal.Gen
open Idealize.ShloMosaic Idealize.ShloMosaic.TcCoe
open Idealize.ShloMosaic.SparseCore (S V T)
open Idealize.SL.Sem
open Idealize.ShloMosaic.Pipeline (Dat)

variable {F : FTy → Type} [FloatOps F]

variable (m : (ℓ : Loc nD τ sig) → Buf (Elt F) ℓ)

/-- The array the second call reads is what the first call stored: the normalisation of the argument array. -/
theorem V1_v0 (d : Dev nD) : V1 m d main_v0 = k0_pay1 (m ((SparseCore.T d).loc main_arg0)) := by
  show W1 m d rV0 = _
  rw [W1_v0]
  exact final0_1 (V0 m) d

/-- The argument array: no call writes it. -/
theorem res_arg0 (d : Dev nD) :
    (opFlat (F := F)).result (Wcall d (W2 m d)) rArg0 = m ((SparseCore.T d).loc main_arg0) := by
  rw [(opFlat (F := F)).result_of_not_mem _ (b := rArg0) (show rArg0 ∉ ({rV3} : Finset (DevRef τ sig)) by decide),
    Wcall_of_ne d _ rArg0 (by decide), W2_of_ne m d rArg0 (by decide) (by decide), W1_of_ne m d rArg0 (by decide)]

/-- The index array: as the SparseCore call left it. -/
theorem res_v2 (d : Dev nD) : (opFlat (F := F)).result (Wcall d (W2 m d)) rV2 = idxBuf (F := F) d := by
  rw [(opFlat (F := F)).result_of_not_mem _ (b := rV2) (show rV2 ∉ ({rV3} : Finset (DevRef τ sig)) by decide), Wcall_v2]

/-- The 4096 x 4096 array: the second call's blocks, of the normalised argument array. -/
theorem res_v10 (d : Dev nD) :
    (opFlat (F := F)).result (Wcall d (W2 m d)) rV10 = adjK (k0_pay1 (m ((SparseCore.T d).loc main_arg0))) := by
  rw [(opFlat (F := F)).result_of_not_mem _ (b := rV10) (show rV10 ∉ ({rV3} : Finset (DevRef τ sig)) by decide),
    Wcall_of_ne d _ rV10 (by decide), W2_v10, final1_2 (V1 m) d, V1_v0]

/-- The flat array: the reshape of the second call's re-laid blocks. -/
theorem res_v3 (d : Dev nD) :
    (opFlat (F := F)).result (Wcall d (W2 m d)) rV3
      = shapeCast S16777216 (attrK (k0_pay1 (m ((SparseCore.T d).loc main_arg0)))) shapeCasts_S131072x128_S16777216 := by
  refine (StableHlo.reshape_result main_v1_1 main_v3 rfl shapeCasts_S131072x128_S16777216 _ _ (Wcall d (W2 m d))).trans ?_
  show shapeCast S16777216 (Wcall d (W2 m d) rV11) shapeCasts_S131072x128_S16777216 = _
  rw [Wcall_of_ne d _ rV11 (by decide), W2_v11, final1_3 (V1 m) d, V1_v0]

end Cert.Proof.KI

end
-- ==== Proof.Spec.lean ====
/-
  The result of the program as functions of the input array, entry by entry, over the extended reals.

  The input is a 4096 x 128 array `x`. Each row is divided by its Euclidean norm, the norm floored at a fixed
  positive constant (kept as the 32-bit word both programs print, never evaluated): `wnG x`. From the normalised
  array `y` the 4096 x 4096 matrix `adjG y` holds, off the diagonal, the inner product of rows `r` and `q` of `y`
  clamped below at zero, and zero on the diagonal. `flatG a` is the row-major flattening of a 4096 x 4096 matrix:
  position `k` holds entry `(k / 4096, k % 4096)`. (The index array's contents, `idxG`, are stated in the module
  imported here.)

  Every entry is written with the extended reals' own operations: the division with its conventions at zero and
  at the infinities (`Ideal.div`), the square root with its convention below zero (`Ideal.sqrt`), `max`, and
  finite sums of products. No finiteness of `x` is assumed anywhere: both programs compute these very terms.
-/
import proofs.«215737_g33157147525312_cont_8to1_b_501_7_alg».proof.Proof.SpecIdx
import Idealize.ShloMosaic.PureOps.Ideal
import Idealize.ShloMosaic.Lib.ValueIdx

noncomputable section

open scoped BigOperators

namespace Cert.Proof.Math

open Idealize.ShloMosaic Idealize.ShloMosaic.ValueIdx

/-- The sum of the squares of row `r` of a 4096 x 128 array. -/
def rowSq (x : (⟨2, ![4096, 128]⟩ : Shape).Idx → EReal) (r : Fin 4096) : EReal :=
  ∑ k : Fin 128, x (ix2 r k) * x (ix2 r k)

/-- What a row is divided by: the square root of the sum of its squares, floored at the constant. -/
def rowDen (x : (⟨2, ![4096, 128]⟩ : Shape).Idx → EReal) (r : Fin 4096) : EReal :=
  max (Ideal.sqrt (rowSq x r)) (Ideal.ofBits .f32 0x322BCC77#32)

/-- The normalised array: each entry divided by its row's floored norm. -/
def wnG (x : (⟨2, ![4096, 128]⟩ : Shape).Idx → EReal) : (⟨2, ![4096, 128]⟩ : Shape).Idx → EReal :=
  fun j => Ideal.div (x j) (rowDen x ⟨(j 0).val, idx2_lt0 j⟩)

/-- The inner product of rows `r` and `q` of a 4096 x 128 array. -/
def rowDot (y : (⟨2, ![4096, 128]⟩ : Shape).Idx → EReal) (r q : Fin 4096) : EReal :=
  ∑ k : Fin 128, y (ix2 r k) * y (ix2 q k)

/-- The clamped, diagonal-free Gram matrix of the rows of `y`. -/
def adjG (y : (⟨2, ![4096, 128]⟩ : Shape).Idx → EReal) : (⟨2, ![4096, 4096]⟩ : Shape).Idx → EReal :=
  fun j => if (j 0).val = (j 1).val then 0
    else max (rowDot y ⟨(j 0).val, idx2_lt0 j⟩ ⟨(j 1).val, idx2_lt1 j⟩) 0

/-- The row-major flattening of a 4096 x 4096 matrix. -/
def flatG (a : (⟨2, ![4096, 4096]⟩ : Shape).Idx → EReal) : (⟨1, ![16777216]⟩ : Shape).Idx → EReal :=
  fun i => a (ix2 (⟨(i 0).val / 4096, by have h : (i 0).val < 16777216 := (i 0).isLt; omega⟩ : Fin 4096)
    (⟨(i 0).val % 4096, Nat.mod_lt _ (by decide)⟩ : Fin 4096))

/-! The same, read at an index given by its coordinates. -/

theorem wnG_ix2 (x : (⟨2, ![4096, 128]⟩ : Shape).Idx → EReal) (r : Fin 4096) (c : Fin 128) :
    wnG x (ix2 r c) = Ideal.div (x (ix2 r c)) (rowDen x r) := rfl

theorem adjG_ix2 (y : (⟨2, ![4096, 128]⟩ : Shape).Idx → EReal) (r q : Fin 4096) :
    adjG y (ix2 r q) = if r.val = q.val then 0 else max (rowDot y r q) 0 := rfl

theorem adjG_diag (y : (⟨2, ![4096, 128]⟩ : Shape).Idx → EReal) (r q : Fin 4096) (h : r.val = q.val) :
    adjG y (ix2 r q) = 0 := by rw [adjG_ix2, if_pos h]

theorem adjG_off (y : (⟨2, ![4096, 128]⟩ : Shape).Idx → EReal) (r q : Fin 4096) (h : r.val ≠ q.val) :
    adjG y (ix2 r q) = max (rowDot y r q) 0 := by rw [adjG_ix2, if_neg h]

theorem flatG_ix1 (a : (⟨2, ![4096, 4096]⟩ : Shape).Idx → EReal) (k : Fin 16777216) :
    flatG a (ix1 k) = a (ix2 (⟨k.val / 4096, by have := k.isLt; omega⟩ : Fin 4096)
      (⟨k.val % 4096, Nat.mod_lt _ (by decide)⟩ : Fin 4096)) := rfl

end Cert.Proof.Math

end
-- ==== Proof.ScatterSet.lean ====
/-
  A scatter that writes ("sets") its updates, read at an entry, when distinct updates land on distinct entries.

  The scatter is a left fold over the update positions in row-major order: each position that lands inside the
  operand overwrites the entry it lands on. If every update position `j` lands on an entry `g j` and `g` is
  injective, no entry is written twice, so the order does not matter: the result holds update `j` at `g j` and the
  operand everywhere else.
-/
import Idealize.ShloMosaic.PureOps

namespace Cert.Proof.Math

open Idealize.ShloMosaic

section Fold
variable {ι κ α : Type} [DecidableEq ι]

/-- Overwriting entries `g n` for `n` in a list leaves an entry none of them names as it was. -/
theorem foldl_set_of_forall_ne (g : κ → ι) (v : κ → α) (i : ι) :
    ∀ (l : List κ) (x : ι → α), (∀ n ∈ l, g n ≠ i) →
      l.foldl (fun r n => fun j => if j = g n then v n else r j) x i = x i
  | [], _, _ => rfl
  | a :: l, x, h => by
    rw [List.foldl_cons, foldl_set_of_forall_ne g v i l _ (fun n hn => h n (List.mem_cons_of_mem _ hn))]
    exact if_neg (fun e => h a List.mem_cons_self e.symm)

/-- Overwriting entries `g n` for `n` in a list without repeats, `g` injective, leaves `v n₀` at `g n₀`. -/
theorem foldl_set_of_mem (g : κ → ι) (hg : Function.Injective g) (v : κ → α) (n₀ : κ) :
    ∀ (l : List κ) (x : ι → α), l.Nodup → n₀ ∈ l →
      l.foldl (fun r n => fun j => if j = g n then v n else r j) x (g n₀) = v n₀
  | [], _, _, hm => absurd hm List.not_mem_nil
  | a :: l, x, hnd, hm => by
    rw [List.foldl_cons]
    rcases List.mem_cons.mp hm with rfl | hm'
    · rw [foldl_set_of_forall_ne g v (g n₀) l _ (fun n hn e => (List.nodup_cons.mp hnd).1 (hg e ▸ hn))]
      exact if_pos rfl
    · exact foldl_set_of_mem g hg v n₀ l _ (List.nodup_cons.mp hnd).2 hm'

end Fold

section Scatter
variable {α : Type} {s si u : Shape} {w : Nat}

/-- The scatter as the fold of overwrites, once every update position is known to land inside the operand. -/
theorem scatter_set_eq_foldl (d : ScatterDims s si u) (x : s.Idx → α) (idx : IVec si w) (upd : u.Idx → α)
    (g : u.Idx → s.Idx) (hg : ∀ j, d.resultIdx? j idx = some (g j)) :
    Host.scatter d (fun _ b => b) x idx upd
      = (List.finRange u.numel).foldl
          (fun r n => fun j => if j = g (u.rowMajor.symm n) then upd (u.rowMajor.symm n) else r j) x := by
  unfold Host.scatter
  refine congrArg (fun st => List.foldl st x (List.finRange u.numel)) ?_
  funext r n
  rw [hg (u.rowMajor.symm n)]

/-- At the entry update `j` lands on, the result is update `j`. -/
theorem scatter_set_apply_of_mem (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  rw [scatter_set_eq_foldl d x idx upd g hg]
  have h := foldl_set_of_mem (fun n => g (u.rowMajor.symm n)) (hinj.comp u.rowMajor.symm.injective)
    (fun n => upd (u.rowMajor.symm n)) (u.rowMajor j) (List.finRange u.numel) x (List.nodup_finRange _) (List.mem_finRange _)
  rw [Equiv.symm_apply_apply] at h
  exact h

/-- At an entry no update lands on, the result is the operand. -/
theorem scatter_set_apply_of_forall_ne (d : ScatterDims s si u) (x : s.Idx → α) (idx : IVec si w) (upd : u.Idx → α)
    (g : u.Idx → s.Idx) (hg : ∀ j, d.resultIdx? j idx = some (g j)) (i : s.Idx) (hi : ∀ j, g j ≠ i) :
    Host.scatter d (fun _ b => b) x idx upd i = x i := by
  rw [scatter_set_eq_foldl d x idx upd g hg]
  exact foldl_set_of_forall_ne (fun n => g (u.rowMajor.symm n)) (fun n => upd (u.rowMajor.symm n)) i
    (List.finRange u.numel) x (fun n _ => hi _)

end Scatter

end Cert.Proof.Math
-- ==== Proof.RefDiag.lean ====
/-
  The reference's matrix before the clamp: the Gram matrix of the normalised rows with zeros written on the
  diagonal.

  The reference writes the zeros by a scatter of 4096 scalar updates whose index vectors are the rows of a
  4096 x 2 integer array: column 0 and column 1 both hold the row number `t` (the program first maps a negative
  number `n` to `n + 4096`, which changes nothing for `0 ≤ t < 4096`). So update `t` lands on entry `(t, t)`;
  distinct updates land on distinct entries, the diagonal is overwritten by the updates (all zero) and every other
  entry keeps the product's value.
-/
import proofs.«215737_g33157147525312_cont_8to1_b_501_7_alg».proof.Proof.Gen.ReferenceIdeal.Read
import proofs.«215737_g33157147525312_cont_8to1_b_501_7_alg».proof.Proof.Spec
import proofs.«215737_g33157147525312_cont_8to1_b_501_7_alg».proof.Proof.ScatterSet
import Idealize.ShloMosaic.Lib.WordArith

noncomputable section

open scoped BigOperators

namespace Cert.Proof.Math

open Cert.ReferenceIdeal Cert.ReferenceIdeal.Gen Cert.ReferenceIdeal.Read
open Idealize.ShloMosaic Idealize.ShloMosaic.ValueIdx

/-- A number below 2^31, as a 32-bit word, is not negative. -/
theorem cmpi_slt_ofNat_zero (t : Nat) (h : t < 2 ^ 31) : IntOp.cmpi .slt (BitVec.ofNat 32 t) 0#32 = 0#1 := by
  have hs : (BitVec.ofNat 32 t).slt 0#32 = false := by
    rw [Bool.eq_false_iff]
    intro hs
    rw [BitVec.slt_iff_toInt_lt, WordArith.toInt_ofNat_small t h] at hs
    have h0 : (0#32 : BitVec 32).toInt = 0 := by decide
    omega
  show BitVec.ofBool ((BitVec.ofNat 32 t).slt 0#32) = 0#1
  rw [hs]; rfl

/-- The first index column before it is made a column: entry `t` is the word `t`. -/
theorem v12_ix1 (t : Fin 4096) : val_main_v12 (F := Ideal) (ix1 t) = BitVec.ofNat 32 t.val := by
  rw [val_main_v12_apply, val_main_v9_apply, val_main_v7_apply, val_main_v8_apply, val_main_c_apply]
  show Scalar.select (IntOp.cmpi .slt (BitVec.ofNat 32 t.val) 0#32) _ _ = _
  rw [cmpi_slt_ofNat_zero t.val (by have := t.isLt; omega), select_zero]

/-- The second index column likewise. -/
theorem v17_ix1 (t : Fin 4096) : val_main_v17 (F := Ideal) (ix1 t) = BitVec.ofNat 32 t.val := by
  rw [val_main_v17_apply, val_main_v14_apply, val_main_v7_apply, val_main_v13_apply, val_main_c_1_apply]
  show Scalar.select (IntOp.cmpi .slt (BitVec.ofNat 32 t.val) 0#32) _ _ = _
  rw [cmpi_slt_ofNat_zero t.val (by have := t.isLt; omega), select_zero]

theorem v18_ix2 (t : Fin 4096) : val_main_v18 (F := Ideal) (ix2 t (0 : Fin 1)) = BitVec.ofNat 32 t.val := by
  rw [val_main_v18_apply,
    show idx_main_v18 (ix2 t (0 : Fin 1)) = ix1 t from funext fun a => Fin.ext (by match a with | ⟨0, _⟩ => rfl)]
  exact v12_ix1 t

theorem v19_ix2 (t : Fin 4096) : val_main_v19 (F := Ideal) (ix2 t (0 : Fin 1)) = BitVec.ofNat 32 t.val := by
  rw [val_main_v19_apply,
    show idx_main_v19 (ix2 t (0 : Fin 1)) = ix1 t from funext fun a => Fin.ext (by match a with | ⟨0, _⟩ => rfl)]
  exact v17_ix1 t

/-- The scatter's index array: both entries of row `t` are the word `t`. -/
theorem v20_ix2 (t : Fin 4096) (c : Fin 2) : val_main_v20 (F := Ideal) (ix2 t c) = BitVec.ofNat 32 t.val := by
  unfold val_main_v20
  match c with
  | ⟨0, _⟩ =>
    refine (concatenate_pair_apply_left (t := S4096x2) (s₁ := S4096x1) (s₂ := S4096x1) (1 : Fin 2) _ _ concatenates_S4096x1_S4096x1_S4096x2_d1 (ix2 t (⟨0, by decide⟩ : Fin 2)) (rfl : (2 : Nat) = 2)
      (ix2 t (0 : Fin 1)) (fun b => by match b with | ⟨0, _⟩ => rfl | ⟨1, _⟩ => rfl)).trans ?_
    exact v18_ix2 t
  | ⟨1, _⟩ =>
    refine (concatenate_pair_apply_right (t := S4096x2) (s₁ := S4096x1) (s₂ := S4096x1) (1 : Fin 2) _ _ concatenates_S4096x1_S4096x1_S4096x2_d1 (ix2 t (⟨1, by decide⟩ : Fin 2)) (rfl : (2 : Nat) = 2) (rfl : (2 : Nat) = 2)
      (ix2 t (0 : Fin 1)) (fun b hb => by
        match b with
        | ⟨0, _⟩ => rfl
        | ⟨1, _⟩ => exact absurd rfl hb) rfl).trans ?_
    exact v19_ix2 t

/-- The entry update `t` lands on: `(t, t)`. -/
def diagIdx (j : S4096.Idx) : S4096x4096.Idx :=
  ix2 (⟨(j 0).val, (j 0).isLt⟩ : Fin 4096) (⟨(j 0).val, (j 0).isLt⟩ : Fin 4096)

theorem diagIdx_injective : Function.Injective diagIdx := fun j j' e => by
  funext a
  have h := congrArg (fun i : S4096x4096.Idx => (i 0).val) e
  match a with
  | ⟨0, _⟩ => exact Fin.ext h

/-- Every update of the scatter lands inside the matrix, update `t` on `(t, t)`. -/
theorem scatter_lands (j : S4096.Idx) :
    scatter_S4096x4096_S4096x2_S4096_n_01_01_1.resultIdx? j (val_main_v20 (F := Ideal)) = some (diagIdx j) := by
  have hj : (j 0).val < 4096 := (j 0).isLt
  have hs : ∀ a, scatter_S4096x4096_S4096x2_S4096_n_01_01_1.start j (val_main_v20 (F := Ideal)) a = ((j 0).val : Int) := fun a => by
    unfold ScatterDims.start
    match a with
    | ⟨0, _⟩ =>
      rw [dif_pos (show (⟨0, by decide⟩ : Fin S4096x4096.rank) ∈ scatter_S4096x4096_S4096x2_S4096_n_01_01_1.scatterDimsToOperandDims by decide)]
      refine (congrArg (fun k => (val_main_v20 (F := Ideal) k).toInt)
        (show _ = ix2 (⟨(j 0).val, (j 0).isLt⟩ : Fin 4096) (0 : Fin 2) from
          funext fun b => Fin.ext (by match b with | ⟨0, _⟩ => rfl | ⟨1, _⟩ => rfl))).trans ?_
      show (val_main_v20 (F := Ideal) (ix2 (⟨(j 0).val, (j 0).isLt⟩ : Fin 4096) (0 : Fin 2))).toInt = _
      rw [v20_ix2]
      exact WordArith.toInt_ofNat_small _ (by show (j 0).val < 2 ^ 31; omega)
    | ⟨1, _⟩ =>
      rw [dif_pos (show (⟨1, by decide⟩ : Fin S4096x4096.rank) ∈ scatter_S4096x4096_S4096x2_S4096_n_01_01_1.scatterDimsToOperandDims by decide)]
      refine (congrArg (fun k => (val_main_v20 (F := Ideal) k).toInt)
        (show _ = ix2 (⟨(j 0).val, (j 0).isLt⟩ : Fin 4096) (1 : Fin 2) from
          funext fun b => Fin.ext (by match b with | ⟨0, _⟩ => rfl | ⟨1, _⟩ => rfl))).trans ?_
      show (val_main_v20 (F := Ideal) (ix2 (⟨(j 0).val, (j 0).isLt⟩ : Fin 4096) (1 : Fin 2))).toInt = _
      rw [v20_ix2]
      exact WordArith.toInt_ofNat_small _ (by show (j 0).val < 2 ^ 31; omega)
  have hw : ∀ a, scatter_S4096x4096_S4096x2_S4096_n_01_01_1.window j a = 0 := fun a => by
    unfold ScatterDims.window
    exact dif_neg ((by decide : ∀ b : Fin S4096x4096.rank, b ∉ scatter_S4096x4096_S4096x2_S4096_n_01_01_1.sKept) a)
  unfold ScatterDims.resultIdx?
  rw [dif_pos (fun a => by
    rw [hs a, hw a]
    match a with
    | ⟨0, _⟩ => show (0 : Int) ≤ ((j 0).val : Int) + ((0 : Nat) : Int) ∧ ((j 0).val : Int) + ((0 : Nat) : Int) < ((4096 : Nat) : Int); omega
    | ⟨1, _⟩ => show (0 : Int) ≤ ((j 0).val : Int) + ((0 : Nat) : Int) ∧ ((j 0).val : Int) + ((0 : Nat) : Int) < ((4096 : Nat) : Int); omega)]
  refine congrArg some (funext fun a => Fin.ext ?_)
  show (scatter_S4096x4096_S4096x2_S4096_n_01_01_1.start j (val_main_v20 (F := Ideal)) a
    + scatter_S4096x4096_S4096x2_S4096_n_01_01_1.window j a).toNat = (diagIdx j a).val
  rw [hs a, hw a]
  match a with
  | ⟨0, _⟩ => show (((j 0).val : Int) + ((0 : Nat) : Int)).toNat = (j 0).val; omega
  | ⟨1, _⟩ => show (((j 0).val : Int) + ((0 : Nat) : Int)).toNat = (j 0).val; omega

/-- The zeros the scatter writes: every update is the zero word's value. -/
theorem v21_apply (i : S4096.Idx) : val_main_v21 (F := Ideal) i = Ideal.ofBits .f32 0x00000000#32 := by
  rw [val_main_v21_apply, val_main_cst_3_apply]; rfl

/-- On the diagonal the scattered matrix holds the written zero. -/
theorem v22_diag (x0 : (⟨S4096x128, .f32⟩ : BufTy).Contents (Elt Ideal)) (r : Fin 4096) :
    val_main_v22 (F := Ideal) x0 (ix2 r r) = 0 := by
  unfold val_main_v22
  have h := scatter_set_apply_of_mem scatter_S4096x4096_S4096x2_S4096_n_01_01_1 (val_main_v6 (F := Ideal) x0)
    (val_main_v20 (F := Ideal)) (val_main_v21 (F := Ideal)) diagIdx scatter_lands diagIdx_injective (ix1 r)
  rw [v21_apply, Ideal.ofBits_zero_f32] at h
  exact h

/-- Off the diagonal it holds the product's entry. -/
theorem v22_off (x0 : (⟨S4096x128, .f32⟩ : BufTy).Contents (Elt Ideal)) (r q : Fin 4096) (h : r.val ≠ q.val) :
    val_main_v22 (F := Ideal) x0 (ix2 r q) = val_main_v6 (F := Ideal) x0 (ix2 r q) := by
  unfold val_main_v22
  refine scatter_set_apply_of_forall_ne scatter_S4096x4096_S4096x2_S4096_n_01_01_1 (val_main_v6 (F := Ideal) x0)
    (val_main_v20 (F := Ideal)) (val_main_v21 (F := Ideal)) diagIdx scatter_lands (ix2 r q) (fun j e => h ?_)
  have e0 := congrArg (fun i : S4096x4096.Idx => (i 0).val) e
  have e1 := congrArg (fun i : S4096x4096.Idx => (i 1).val) e
  exact e0.symm.trans e1

end Cert.Proof.Math

end
-- ==== Proof.Words.lean ====
/-
  Two facts about 32-bit words that hold a number below 2^31.

  Shifting such a word right by 12 places (the arithmetic shift: the sign bit is clear, so it fills with zeros) is
  dividing the number by 4096; masking it with 4095 keeps the remainder modulo 4096.
-/
import Mathlib.Data.BitVec

namespace Cert.Proof.Math

theorem sshiftRight12_ofNat (k : Nat) (h : k < 2 ^ 31) :
    (BitVec.ofNat 32 k).sshiftRight 12 = BitVec.ofNat 32 (k / 4096) := by
  have hm : (BitVec.ofNat 32 k).msb = false := by
    rw [BitVec.msb_eq_false_iff_two_mul_lt, BitVec.toNat_ofNat]; omega
  apply BitVec.eq_of_toNat_eq
  rw [BitVec.sshiftRight_eq_of_msb_false hm, BitVec.toNat_ushiftRight, BitVec.toNat_ofNat, BitVec.toNat_ofNat,
    Nat.shiftRight_eq_div_pow]
  omega

theorem and4095_ofNat (k : Nat) (h : k < 2 ^ 31) :
    BitVec.ofNat 32 k &&& 4095#32 = BitVec.ofNat 32 (k % 4096) := by
  apply BitVec.eq_of_toNat_eq
  rw [BitVec.toNat_and, BitVec.toNat_ofNat, BitVec.toNat_ofNat, BitVec.toNat_ofNat,
    show 4095 % 2 ^ 32 = 2 ^ 12 - 1 from rfl, Nat.and_two_pow_sub_one_eq_mod]
  omega

end Cert.Proof.Math
-- ==== Proof.RefValue.lean ====
/-
  The reference's three results are the specification's functions of the input array.

  Read entry by entry: the reference divides each entry by the floored norm of its row (`wnG`), multiplies the
  normalised array with its transpose (entry `(r, q)` the inner product of rows `r` and `q`), writes zeros on the
  diagonal, clamps below at zero (`adjG`) and flattens row-major (`flatG`). The index array's row 0 is the
  transposed table of column numbers flattened, `k / 4096` at position `k`, and row 1 the table itself flattened,
  `k % 4096`; as 32-bit words those are the shift and the mask of `k` that `idxG` states.
-/
import proofs.«215737_g33157147525312_cont_8to1_b_501_7_alg».proof.Proof.Gen.ReferenceIdeal.Read
import proofs.«215737_g33157147525312_cont_8to1_b_501_7_alg».proof.Proof.Spec
import proofs.«215737_g33157147525312_cont_8to1_b_501_7_alg».proof.Proof.RefDiag
import proofs.«215737_g33157147525312_cont_8to1_b_501_7_alg».proof.Proof.Words

noncomputable section

open scoped BigOperators

namespace Cert.Proof.Math

open Cert.ReferenceIdeal Cert.ReferenceIdeal.Gen Cert.ReferenceIdeal.Read
open Idealize.ShloMosaic Idealize.ShloMosaic.ValueIdx

/-- The reference's normalised array is `wnG` of the input. -/
theorem ref_norm (x0 : (⟨S4096x128, .f32⟩ : BufTy).Contents (Elt Ideal)) : val_main_v4 (F := Ideal) x0 = wnG x0 := by
  funext j
  obtain ⟨r, c, rfl⟩ : ∃ (r : Fin 4096) (c : Fin 128), j = ix2 r c := ⟨j 0, j 1, eq_ix2 j⟩
  have e3 : idx_main_v3 (ix2 r c) = ix2 r (0 : Fin 1) :=
    funext fun a => Fin.ext (by match a with | ⟨0, _⟩ => rfl | ⟨1, _⟩ => rfl)
  have e2 : idx_main_call0_v2 (ix2 r (0 : Fin 1)) = ix1 r :=
    funext fun a => Fin.ext (by match a with | ⟨0, _⟩ => rfl)
  have e1 : ∀ k : Fin 128, idx_main_call0_v1 (ix1 r) k = ix2 r k := fun k =>
    funext fun a => Fin.ext (by match a with | ⟨0, _⟩ => rfl | ⟨1, _⟩ => rfl)
  rw [val_main_v4_apply, val_main_v3_apply, e3, val_main_v2_apply, val_main_v0_apply, val_main_call0_v2_apply, e2,
    val_main_call0_v1_apply, val_main_v1_apply, val_main_cst_apply, val_main_call0_cst_apply]
  simp only [e1, val_main_call0_v0_apply, Ideal.hostDivf_def, Ideal.maximumf_def, Ideal.hostUnary_sqrt_def,
    Ideal.mulf_def, Ideal.ofBits_def, Ideal.ofBits_zero_f32, zero_add]
  rfl

/-- Entry `(r, q)` of the reference's product is the inner product of rows `r` and `q` of the normalised array. -/
theorem ref_gram (x0 : (⟨S4096x128, .f32⟩ : BufTy).Contents (Elt Ideal)) (r q : Fin 4096) :
    val_main_v6 (F := Ideal) x0 (ix2 r q) = rowDot (wnG x0) r q := by
  rw [val_main_v6_apply]
  unfold rowDot
  refine Finset.sum_congr rfl fun k _ => ?_
  have el : lidx_main_v6 (ix2 r q) k = ix2 r k :=
    funext fun a => Fin.ext (by match a with | ⟨0, _⟩ => rfl | ⟨1, _⟩ => rfl)
  have er : idx_main_v5 (ridx_main_v6 (ix2 r q) k) = ix2 q k :=
    funext fun a => Fin.ext (by match a with | ⟨0, _⟩ => rfl | ⟨1, _⟩ => rfl)
  rw [val_main_v5_apply, el, er, ref_norm]

/-- THE MATRIX: the reference's clamped, diagonal-free Gram matrix is `adjG` of the normalised array. -/
theorem ref_adj (x0 : (⟨S4096x128, .f32⟩ : BufTy).Contents (Elt Ideal)) :
    val_main_v24 (F := Ideal) x0 = adjG (wnG x0) := by
  funext j
  obtain ⟨r, q, rfl⟩ : ∃ (r q : Fin 4096), j = ix2 r q := ⟨j 0, j 1, eq_ix2 j⟩
  rw [val_main_v24_apply, val_main_v23_apply, val_main_cst_4_apply]
  show max (val_main_v22 (F := Ideal) x0 (ix2 r q)) (Ideal.ofBits .f32 0x00000000#32) = _
  rw [Ideal.ofBits_zero_f32]
  by_cases h : r.val = q.val
  · obtain rfl : r = q := Fin.ext h
    rw [v22_diag, adjG_diag _ _ _ rfl, max_self]
  · rw [v22_off _ _ _ h, ref_gram, adjG_off _ _ _ h]

/-- THE FLATTENED MATRIX. -/
theorem ref_flat (x0 : (⟨S4096x128, .f32⟩ : BufTy).Contents (Elt Ideal)) :
    val_main_v33 (F := Ideal) x0 = flatG (adjG (wnG x0)) := by
  funext i
  rw [val_main_v33_apply, ref_adj]
  unfold flatG
  exact congrArg (adjG (wnG x0)) (funext fun a => Fin.ext (by match a with | ⟨0, _⟩ => rfl | ⟨1, _⟩ => rfl))

/-- THE INDEX ARRAY. -/
theorem ref_idx : val_main_v32 (F := Ideal) = idxG := by
  funext j
  obtain ⟨c, k, rfl⟩ : ∃ (c : Fin 2) (k : Fin 16777216), j = ix2 c k := ⟨j 0, j 1, eq_ix2 j⟩
  have hk : k.val < 16777216 := k.isLt
  unfold val_main_v32
  match c with
  | ⟨0, _⟩ =>
    refine (concatenate_pair_apply_left (t := S2x16777216) (s₁ := S1x16777216) (s₂ := S1x16777216) (0 : Fin 2) _ _
      concatenates_S1x16777216_S1x16777216_S2x16777216_d0 (ix2 (⟨0, by decide⟩ : Fin 2) k) (rfl : (2 : Nat) = 2)
      (ix2 (0 : Fin 1) k) (fun b => by match b with | ⟨0, _⟩ => rfl | ⟨1, _⟩ => rfl)).trans ?_
    rw [val_main_v30_apply, val_main_v28_apply, val_main_v27_apply, val_main_v26_apply, val_main_v25_apply]
    show BitVec.ofNat 32 (k.val / 4096) = (BitVec.ofNat 32 k.val).sshiftRight 12
    exact (sshiftRight12_ofNat k.val (by omega)).symm
  | ⟨1, _⟩ =>
    refine (concatenate_pair_apply_right (t := S2x16777216) (s₁ := S1x16777216) (s₂ := S1x16777216) (0 : Fin 2) _ _
      concatenates_S1x16777216_S1x16777216_S2x16777216_d0 (ix2 (⟨1, by decide⟩ : Fin 2) k) (rfl : (2 : Nat) = 2)
      (rfl : (2 : Nat) = 2) (ix2 (0 : Fin 1) k) (fun b hb => by
        match b with
        | ⟨0, _⟩ => exact absurd rfl hb
        | ⟨1, _⟩ => rfl) rfl).trans ?_
    rw [val_main_v31_apply, val_main_v29_apply, val_main_v26_apply, val_main_v25_apply]
    show BitVec.ofNat 32 (k.val % 4096) = BitVec.ofNat 32 k.val &&& 4095#32
    exact (and4095_ofNat k.val (by omega)).symm

end Cert.Proof.Math

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.PayValue.lean ====
/-
  The kernel's stored values, read at an entry, over the extended reals.

  The first call stores the normalised array: entry `(r, c)` of the input divided by the floored norm of row `r`
  (`wnG`). The second call, at block `i` of 16, stores from the block's 256 rows `v0` (rows `256 i .. 256 i + 255` of
  the normalised array `y`) and the whole of `y` the 256 x 4096 block of the clamped Gram matrix: entry `(p, q)` is
  the inner product of row `256 i + p` with row `q`, clamped below at zero, and zero where `256 i + p = q` (the
  kernel compares the row number, a row counter plus `256 i` as 32-bit words, with the column counter: numbers
  below 4096, so the words are equal exactly when the numbers are). The same block is stored a second time re-laid
  as 8192 x 128: the two layouts have the same row-major order.
-/
import proofs.«215737_g33157147525312_cont_8to1_b_501_7_alg».proof.Proof.Gen.KernelIdeal.Skeleton
import proofs.«215737_g33157147525312_cont_8to1_b_501_7_alg».proof.Proof.Spec
import proofs.«215737_g33157147525312_cont_8to1_b_501_7_alg».proof.Proof.LibMatmulPlain
import proofs.«215737_g33157147525312_cont_8to1_b_501_7_alg».proof.Proof.LibColumn
import Idealize.ShloMosaic.Lib.Pipeline.Value
import Idealize.ShloMosaic.PureOps.Ideal.Laws

noncomputable section

open scoped BigOperators

namespace Cert.Proof.Math

open Cert.KernelIdeal Cert.KernelIdeal.Gen
open Idealize.ShloMosaic Idealize.ShloMosaic.ValueIdx

/-! ## The normalised array -/

/-- THE FIRST CALL'S STORE is `wnG` of what it loaded. -/
theorem norm_pay (x : Vec Ideal S4096x128 .f32) : k0_pay1 (F := Ideal) x = wnG x := by
  funext j
  obtain ⟨r, c, rfl⟩ : ∃ (r : Fin 4096) (c : Fin 128), j = ix2 r c := ⟨j 0, j 1, eq_ix2 j⟩
  rw [wnG_ix2]
  unfold k0_pay1
  dsimp only
  refine congrArg (Ideal.div (x (ix2 r c))) ?_
  refine (Cert.Lib.broadcastTo_a1_ab_apply _ broadcasts_S4096x1_S4096x128 r c).trans ?_
  unfold rowDen
  refine congrArg (fun s => max (Ideal.sqrt s) (Ideal.ofBits .f32 0x322BCC77#32)) ?_
  refine (Cert.Lib.shapeCast_a_a1_apply _ shapeCasts_S4096_S4096x1 r (0 : Fin 1)).trans ?_
  refine (Ideal.multiReduction_add_single (mulf x x) 0x00000000#32 reduces_S4096x128_S4096 _ _ (ix1 r)).trans ?_
  unfold rowSq
  refine Finset.sum_congr rfl fun k _ => ?_
  have e : reduces_S4096x128_S4096.lift (ix1 r) k = ix2 r k :=
    funext fun a => Fin.ext (by match a with | ⟨0, _⟩ => rfl | ⟨1, _⟩ => rfl)
  show x (reduces_S4096x128_S4096.lift (ix1 r) k) * x (reduces_S4096x128_S4096.lift (ix1 r) k) = _
  rw [e]
  rfl

/-! ## The block of the clamped Gram matrix -/

/-- Row `p` of block `i` is row `256 i + p` of the matrix. -/
def blockRow (i : grid1.Coords) (p : Fin 256) : Fin 4096 :=
  ⟨256 * (i 0).val + p.val, by have hi : (i 0).val < 16 := (i 0).isLt; have hp := p.isLt; omega⟩

theorem blockRow_val (i : grid1.Coords) (p : Fin 256) : (blockRow i p).val = 256 * (i 0).val + p.val := rfl

/-- Two numbers below 2^32 are equal as 32-bit words exactly when they are equal. -/
theorem cmpi_eq_ofNat (a b : Nat) (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; rw [if_pos rfl, beq_self_eq_true]; rfl
  · rw [if_neg h]
    have hne : (BitVec.ofNat 32 a == BitVec.ofNat 32 b) = false := by
      rw [beq_eq_false_iff_ne]
      intro e
      have e' := congrArg BitVec.toNat e
      rw [BitVec.toNat_ofNat, BitVec.toNat_ofNat, Nat.mod_eq_of_lt ha, Nat.mod_eq_of_lt hb] at e'
      exact h e'
    rw [hne]; rfl

/-- The row number the kernel compares: the row counter plus `256 i`, as a word, is the word of `256 i + p`. -/
theorem rowWord (i0 p : Nat) (hi : i0 < 16) (hp : p < 256) :
    IntOp.addi (BitVec.ofNat 32 p) (Scalar.muli (BitVec.ofNat 32 i0) 256#32) = BitVec.ofNat 32 (256 * i0 + p) := by
  show BitVec.ofNat 32 p + BitVec.ofNat 32 i0 * 256#32 = _
  apply BitVec.eq_of_toNat_eq
  rw [BitVec.toNat_add, BitVec.toNat_mul, BitVec.toNat_ofNat, BitVec.toNat_ofNat, BitVec.toNat_ofNat, BitVec.toNat_ofNat]
  omega

/-- A select of a splat `z` against the maximum with the same splat, read at an entry. -/
theorem select_max_apply {s : Shape} (row col : IVec s 32) (z : Ideal .f32) (m : FVec Ideal s .f32) (j : s.Idx) :
    select (cmpi .eq row col) (broadcast s z) (maximumf m (broadcast s z)) j
      = Scalar.select (IntOp.cmpi .eq (row j) (col j)) z (max (m j) z) := rfl

/-- ENTRY `(p, q)` OF THE BLOCK: the clamped, diagonal-free Gram matrix of `y` at row `256 i + p`, column `q`, when the
    block's row `p` is row `256 i + p` of `y`. -/
theorem adj_pay (i : grid1.Coords) (v0 : Vec Ideal S256x128 .f32) (y : Vec Ideal S4096x128 .f32) (p : Fin 256) (q : Fin 4096)
    (hv0 : ∀ k : Fin 128, v0 (ix2 p k) = y (ix2 (blockRow i p) k)) :
    k1_pay1 (F := Ideal) i v0 y (ix2 p q) = adjG y (ix2 (blockRow i p) q) := by
  have hi : (i 0).val < 16 := (i 0).isLt
  have hp : p.val < 256 := p.isLt
  have hq : q.val < 4096 := q.isLt
  unfold k1_pay1
  dsimp only
  refine (select_max_apply _ _ _ _ (ix2 p q)).trans ?_
  -- the condition's bit
  have hbit : IntOp.cmpi .eq
      ((addi (iota .tc S256x4096 32 [0] iota_S256x4096_d0_w32)
        (broadcast S256x4096 (Scalar.muli (BitVec.ofNat 32 (i 0).val) 256#32))) (ix2 p q))
      (iota .tc S256x4096 32 [1] iota_S256x4096_d1_w32 (ix2 p q))
      = if (blockRow i p).val = q.val then 1#1 else 0#1 := by
    show IntOp.cmpi .eq (IntOp.addi (iota .tc S256x4096 32 [0] iota_S256x4096_d0_w32 (ix2 p q))
        (Scalar.muli (BitVec.ofNat 32 (i 0).val) 256#32)) (iota .tc S256x4096 32 [1] iota_S256x4096_d1_w32 (ix2 p q)) = _
    rw [iota_single_apply .tc S256x4096 32 (0 : Fin 2), iota_single_apply .tc S256x4096 32 (1 : Fin 2)]
    show IntOp.cmpi .eq (IntOp.addi (BitVec.ofNat 32 p.val) (Scalar.muli (BitVec.ofNat 32 (i 0).val) 256#32))
      (BitVec.ofNat 32 q.val) = _
    rw [rowWord _ _ hi hp, cmpi_eq_ofNat _ _ (by omega) (by omega), blockRow_val]
  -- the product's entry
  have hmm : matmul (F := Ideal) (φ₁ := .f32) (φ₂ := .f32) dot_S256x128_S128x4096_S256x4096_1_0_0_1_n_n none
      (shapeCast S256x128 v0 shapeCasts_S256x128_S256x128)
      (transpose S128x4096 [1, 0] (shapeCast S4096x128 y shapeCasts_S4096x128_S4096x128) transposes_S4096x128_p1_0_S128x4096)
      (constant (F := Ideal) S256x4096 .f32 0x00000000#32) (ix2 p q) = rowDot y (blockRow i p) q := by
    refine (Cert.Lib.matmul_plain_zero_apply (φ₁ := .f32) (φ₂ := .f32) 256 128 4096 none _ _ p q).trans ?_
    unfold rowDot
    refine Finset.sum_congr rfl fun k _ => ?_
    rw [shapeCast_self, shapeCast_self, hv0 k]
    refine congrArg (y (ix2 (blockRow i p) k) * ·) ?_
    exact transpose_apply [1, 0] y transposes_S4096x128_p1_0_S128x4096 (ix2 k q) (ix2 q k)
      (fun b => by match b with | ⟨0, _⟩ => rfl | ⟨1, _⟩ => rfl)
  rw [hbit, hmm]
  show Scalar.select _ (Ideal.ofBits .f32 0x00000000#32) (max _ (Ideal.ofBits .f32 0x00000000#32)) = _
  rw [Ideal.ofBits_zero_f32]
  by_cases h : (blockRow i p).val = q.val
  · rw [if_pos h, select_one, adjG_diag _ _ _ h]
  · rw [if_neg h, select_zero, adjG_off _ _ _ h]

/-! ## The block re-laid as 8192 x 128 -/

/-- ENTRY `(a, b)` OF THE RE-LAID BLOCK is the block's entry at the same row-major position `128 a + b`. -/
theorem attr_pay {F : FTy → Type} [FloatOps F] (i : grid1.Coords) (v0 : Vec F S256x128 .f32) (y : Vec F S4096x128 .f32)
    (a : Fin 8192) (b : Fin 128) :
    k1_pay2 (F := F) i v0 y (ix2 a b)
      = k1_pay1 (F := F) i v0 y (ix2 (⟨(a.val * 128 + b.val) / 4096, by have := a.isLt; have := b.isLt; omega⟩ : Fin 256)
          (⟨(a.val * 128 + b.val) % 4096, Nat.mod_lt _ (by decide)⟩ : Fin 4096)) := by
  unfold k1_pay2
  refine shapeCast_apply _ shapeCasts_S256x4096_S8192x128 (ix2 a b) _ ?_
  rw [Shape.rowMajor_val_two, Shape.rowMajor_val_two]
  show (a.val * 128 + b.val) / 4096 * 4096 + (a.val * 128 + b.val) % 4096 = a.val * 128 + b.val
  omega

end Cert.Proof.Math

end
-- ==== Proof.Bridge.lean ====
/-
  The kernel's two float results, as whole arrays, are the specification's functions.

  The second call's 4096 x 4096 result is assembled from 16 blocks of 256 rows: entry `(r, q)` is entry
  `(r % 256, q)` of block `r / 256`, which the block's value lemma reads as the clamped, diagonal-free Gram matrix of
  the normalised array at `(256 (r / 256) + r % 256, q) = (r, q)`. Its 131072 x 128 result holds the same blocks
  re-laid as 8192 x 128; flattening it row-major puts at position `k` the entry at position `k % 1048576` of block
  `k / 1048576`, which is entry `(k / 4096, k % 4096)` of the matrix: the matrix flattened row-major.
-/
import proofs.«215737_g33157147525312_cont_8to1_b_501_7_alg».proof.Proof.KI.Val1
import proofs.«215737_g33157147525312_cont_8to1_b_501_7_alg».proof.Proof.PayValue
import proofs.«215737_g33157147525312_cont_8to1_b_501_7_alg».proof.Proof.Spec

noncomputable section

namespace Cert.Proof.Math

open Cert.KernelIdeal Cert.KernelIdeal.Gen Cert.Proof.KI
open Idealize.ShloMosaic Idealize.ShloMosaic.ValueIdx

/-- The one coordinate of grid point `t` of the sixteen is `t`. -/
theorem coords1_val : ∀ t : Fin grid1.N, (grid1.coords t 0).val = t.val := by decide

/-- Entry `(p, q)` of block `t`, computed from rows `256 t ..` of `y` and the whole of `y`, is the specification's
    entry `(256 t + p, q)`. -/
theorem block_entry (y : Vec Ideal S4096x128 .f32) (t : Fin grid1.N) (p : Fin 256) (q r q' : Fin 4096)
    (hr : r.val = 256 * t.val + p.val) (hq : q'.val = q.val) :
    k1_pay1 (F := Ideal) (grid1.coords t) (rowBlk (F := Ideal) y t) y (ix2 p q) = adjG y (ix2 r q') := by
  obtain rfl : q' = q := Fin.ext hq
  have hb : blockRow (grid1.coords t) p = r := Fin.ext (by rw [blockRow_val, coords1_val, hr])
  rw [← hb]
  refine adj_pay (grid1.coords t) (rowBlk (F := Ideal) y t) y p q' fun k => ?_
  refine rowBlk_apply y t (ix2 p k) (ix2 (blockRow (grid1.coords t) p) k) ?_ rfl
  show (blockRow (grid1.coords t) p).val = 256 * t.val + p.val
  rw [blockRow_val, coords1_val]

/-- THE MATRIX: the kernel's whole 4096 x 4096 array, as a function of the normalised array, is `adjG`. -/
theorem adjK_eq (y : Vec Ideal S4096x128 .f32) : adjK (F := Ideal) y = adjG y := by
  funext j
  obtain ⟨r, q, rfl⟩ : ∃ (r q : Fin 4096), j = ix2 r q := ⟨j 0, j 1, eq_ix2 j⟩
  have hr : r.val < 4096 := r.isLt
  refine (adjK_at y (ptRow r.val hr) (ix2 r q) (ix2 (⟨r.val % 256, Nat.mod_lt _ (by decide)⟩ : Fin 256) q) ?_ rfl).trans ?_
  · show r.val = 256 * (r.val / 256) + r.val % 256
    omega
  · refine block_entry y _ _ q r q ?_ rfl
    show r.val = 256 * (r.val / 256) + r.val % 256
    omega

/-- THE FLATTENED MATRIX: the kernel's 131072 x 128 array reshaped to one axis is the matrix flattened row-major. -/
theorem attr_flat (y : Vec Ideal S4096x128 .f32) :
    shapeCast S16777216 (attrK (F := Ideal) y) shapeCasts_S131072x128_S16777216 = flatG (adjG y) := by
  funext i
  obtain ⟨k, rfl⟩ : ∃ k : Fin 16777216, i = ix1 k := ⟨i 0, eq_ix1 i⟩
  have hk : k.val < 16777216 := k.isLt
  rw [flatG_ix1]
  refine (shapeCast_apply (attrK (F := Ideal) y) shapeCasts_S131072x128_S16777216 (ix1 k)
    (ix2 (⟨k.val / 128, by omega⟩ : Fin 131072) (⟨k.val % 128, Nat.mod_lt _ (by decide)⟩ : Fin 128)) ?_).trans ?_
  · rw [Shape.rowMajor_val_two, Shape.rowMajor_val_one]
    show k.val / 128 * 128 + k.val % 128 = k.val
    omega
  refine (attrK_at y (ptRow8 (k.val / 128) (by omega)) _
    (ix2 (⟨k.val / 128 % 8192, Nat.mod_lt _ (by decide)⟩ : Fin 8192) (⟨k.val % 128, Nat.mod_lt _ (by decide)⟩ : Fin 128))
    ?_ rfl).trans ?_
  · show k.val / 128 = 8192 * (k.val / 128 / 8192) + k.val / 128 % 8192
    omega
  refine (attr_pay (F := Ideal) _ _ y _ _).trans ?_
  refine block_entry y _ _ _ _ _ ?_ ?_
  · show k.val / 4096 = 256 * (k.val / 128 / 8192) + (k.val / 128 % 8192 * 128 + k.val % 128) / 4096
    omega
  · show k.val % 4096 = (k.val / 128 % 8192 * 128 + k.val % 128) % 4096
    omega

/-- Both, from the input array: the normalised array the second call reads is the first call's store. -/
theorem adjK_norm (x0 : Vec Ideal S4096x128 .f32) : adjK (F := Ideal) (k0_pay1 (F := Ideal) x0) = adjG (wnG x0) := by
  rw [norm_pay, adjK_eq]

theorem attr_flat_norm (x0 : Vec Ideal S4096x128 .f32) :
    shapeCast S16777216 (attrK (F := Ideal) (k0_pay1 (F := Ideal) x0)) shapeCasts_S131072x128_S16777216
      = flatG (adjG (wnG x0)) := by
  rw [norm_pay, attr_flat]

end Cert.Proof.Math

end
-- ==== Proof.lean ====
/-
  The certificate of one kernel against its reference: the fully connected graph of 4096 nodes weighted by
  the clamped cosine similarity of the rows of a 4096 x 128 array `W`.

  Both programs return three arrays. With `Wn` the array `W` with each row divided by its Euclidean norm, the
  norm floored at one fixed positive constant (the same 32-bit word in both programs): the 4096 x 4096 matrix
  `A` with `A (r, q) = max (Σ_k Wn (r, k) * Wn (q, k)) 0` off the diagonal and `0` on it; `A` flattened row-major;
  and the 2 x 16777216 integer array whose column `k` holds `k / 4096` and `k % 4096`, the row and the column of
  position `k` of the flattening.

  The five statements. Each of the three programs terminates on every weakly fair execution, without a fault,
  and leaves `W` as it found it: for the kernel, read bit for bit and read over the extended reals, that is the
  run of its three calls (two pipelines on the TensorCore, then the index kernel on the 2 x 16 vector subcores,
  then a reshape) read at the argument array; for the reference it is its sequence of host operations read at
  the argument array. The kernel read over the extended reals is the printed kernel itself, no operation
  rewritten, so there is nothing to preserve. And over the extended reals the two programs, started from
  memories that agree on `W`, end with equal results, entry by entry.

  What joins the two sides is no algebraic law beyond `0 + x = x` and `max 0 0 = 0`: both sides compute the same
  sums of the same products in the same shape, so no finiteness of `W` is needed and the precondition is never
  opened. The kernel's row sum of squares starts from nothing and the reference's from a zero; the kernel
  multiplies the normalised rows through a transposed copy and the reference through its own transpose; the
  kernel zeroes the diagonal by comparing a row counter with a column counter, 16 blocks of 256 rows at a time,
  and the reference by scattering 4096 zeros onto the entries `(t, t)`, which are pairwise distinct, before the
  clamp (`max 0 0 = 0` makes the order immaterial); the kernel flattens through an intermediate 131072 x 128
  layout with the same row-major order; and the kernel computes the index words by a shift and a mask of the
  column number, the reference by flattening a table of column numbers and its transpose, which agree because
  every column number is below 2^24.
-/
import proofs.«215737_g33157147525312_cont_8to1_b_501_7_alg».proof.Defs
import proofs.«215737_g33157147525312_cont_8to1_b_501_7_alg».proof.Proof.Gen.Kernel
import proofs.«215737_g33157147525312_cont_8to1_b_501_7_alg».proof.Proof.Gen.KernelIdeal
import proofs.«215737_g33157147525312_cont_8to1_b_501_7_alg».proof.Proof.Gen.ReferenceIdeal
import proofs.«215737_g33157147525312_cont_8to1_b_501_7_alg».proof.Proof.Gen.Pre_finite_inputs
import proofs.«215737_g33157147525312_cont_8to1_b_501_7_alg».proof.Proof.Gen.ReferenceIdeal.Run
import proofs.«215737_g33157147525312_cont_8to1_b_501_7_alg».proof.Proof.Gen.ReferenceIdeal.Read
import proofs.«215737_g33157147525312_cont_8to1_b_501_7_alg».proof.Proof.KB.Run
import proofs.«215737_g33157147525312_cont_8to1_b_501_7_alg».proof.Proof.KI.Run
import proofs.«215737_g33157147525312_cont_8to1_b_501_7_alg».proof.Proof.KI.Values
import proofs.«215737_g33157147525312_cont_8to1_b_501_7_alg».proof.Proof.RefValue
import proofs.«215737_g33157147525312_cont_8to1_b_501_7_alg».proof.Proof.Bridge
import Idealize.ShloMosaic.Adequacy
import Idealize.ShloMosaic.Init

noncomputable section

namespace Cert.Proof

open Idealize.ShloMosaic Idealize.SL.Sem
open Cert.Proof.Math

/-! ## The three frames -/

/-- The kernel, bit for bit: its run read at the argument array. -/
theorem frame_k : Cert.frame_Kernel := fun m ρ _ => Cert.Proof.KB.frame (F := Bits) m ρ

/-- The kernel over the extended reals: the same run at that instance. -/
theorem frame_ki : Cert.frame_KernelIdeal := fun m ρ _ => Cert.Proof.KI.frame (F := Ideal) m ρ

/-- The reference: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-! ## Nothing was rewritten -/

theorem preserves : Cert.preserves_Kernel_KernelIdeal := trivial

/-! ## Equal results over the extended reals -/

/-- Both runs end with the index array at `idxG`, the flat array at `flatG (adjG (wnG W))` and the matrix at
    `adjG (wnG W)`, `W` the kernel's argument array: the kernel's arrays are the whole-array functions of its
    calls' stores, which are those; the reference's are its stages read entry by entry, which are those of its
    own argument array, equal to the kernel's by hypothesis. -/
theorem algebraic : Cert.algebraic_KernelIdeal_ReferenceIdeal := by
  intro m ρ m' ρ' _ hagree
  refine ⟨fun c => Cert.Proof.KI.idxBuf (F := Ideal) c,
    fun c => flatG (adjG (wnG (m ((c.tc : Thread Cert.KernelIdeal.nD Cert.KernelIdeal.τ).loc Cert.KernelIdeal.main_arg0)))),
    fun c => adjG (wnG (m ((c.tc : Thread Cert.KernelIdeal.nD Cert.KernelIdeal.τ).loc Cert.KernelIdeal.main_arg0))), ?_, ?_⟩
  · refine (θ_run _ _ _).mono (fun _ h c => ⟨?_, ?_, ?_, ?_⟩) (Cert.Proof.KI.run_main (F := Ideal) m ρ)
    · exact (h c Cert.Proof.KI.rV2 (by decide)).trans (Cert.Proof.KI.res_v2 m c)
    · exact (h c Cert.Proof.KI.rV3 (by decide)).trans ((Cert.Proof.KI.res_v3 m c).trans (attr_flat_norm _))
    · exact (h c Cert.Proof.KI.rV10 (by decide)).trans ((Cert.Proof.KI.res_v10 m c).trans (adjK_norm _))
    · exact (h c Cert.Proof.KI.rArg0 (by decide)).trans (Cert.Proof.KI.res_arg0 m c)
  · exact (θ_run Cert.ReferenceIdeal.defs _ _).mono (fun _ h c =>
      ⟨((h c).1.trans (Cert.ReferenceIdeal.Read.val_main_v32_eq (F := Ideal))).trans ref_idx,
        ((h c).2.1.trans (Cert.ReferenceIdeal.Read.val_main_v33_eq (F := Ideal) _)).trans
          ((ref_flat _).trans (congrArg (fun x => flatG (adjG (wnG x))) (hagree c))),
        ((h c).2.2.1.trans (Cert.ReferenceIdeal.Read.val_main_v24_eq (F := Ideal) _)).trans
          ((ref_adj _).trans (congrArg (fun x => adjG (wnG x)) (hagree c))),
        (h c).2.2.2⟩)
      (Cert.ReferenceIdeal.Value.run (F := Ideal) m' ρ')

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
